-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S63x512 : Shape := ⟨2, ![63, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S63x512 : S_.BroadcastsInDim S63x512 (![] : Fin 0 → Fin S63x512.rank)
  reducesTo_S63x512_S_d0_1 : S63x512.ReducesTo [0, 1] S_

variable [Facts]

def fn {F : FTy → Type} [FloatOps F] (main_arg0 : FVec F S131072x512 .f32) (main_arg1 : FVec F S63x512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S63x512 .f32 := Host.absf main_arg1
  let main_cst_0 : FVec F S_ .f32 := constant S_ .f32 0x7F800000#32
  let main_v5 : FVec F S63x512 .f32 := broadcastInDim S63x512 ![] bcast_S_S63x512 main_cst_0
  let main_v6 : IVec S63x512 1 := cmpf .olt main_v4 main_v5
  let main_c_1 : IVec S_ 1 := constantI S_ 1 1#1
  let main_v7 : IVec S_ 1 := (fun x v => Host.reduce IntOp.andi x v reducesTo_S63x512_S_d0_1 h_S_) main_v6 main_c_1
  let main_v8 : IVec S_ 1 := andi main_v3 main_v7
  main_v8
-- ==== Kernel.lean ====
abbrev S131072x512 : Shape := ⟨2, ![131072, 512]⟩
abbrev S63x512 : Shape := ⟨2, ![63, 512]⟩
abbrev S131072x127 : Shape := ⟨2, ![131072, 127]⟩
abbrev S128x512 : Shape := ⟨2, ![128, 512]⟩
abbrev S128x127 : Shape := ⟨2, ![128, 127]⟩
abbrev S128x63 : Shape := ⟨2, ![128, 63]⟩
abbrev S128x1 : Shape := ⟨2, ![128, 1]⟩
abbrev S128x2 : Shape := ⟨2, ![128, 2]⟩
abbrev S128x4 : Shape := ⟨2, ![128, 4]⟩
abbrev S128x8 : Shape := ⟨2, ![128, 8]⟩
abbrev S128x16 : Shape := ⟨2, ![128, 16]⟩
abbrev S128x32 : Shape := ⟨2, ![128, 32]⟩
abbrev S128x1x1 : Shape := ⟨3, ![128, 1, 1]⟩
abbrev S128x1x2 : Shape := ⟨3, ![128, 1, 2]⟩
abbrev S128x2x1 : Shape := ⟨3, ![128, 2, 1]⟩
abbrev S128x2x2 : Shape := ⟨3, ![128, 2, 2]⟩
abbrev S128x4x1 : Shape := ⟨3, ![128, 4, 1]⟩
abbrev S128x4x2 : Shape := ⟨3, ![128, 4, 2]⟩
abbrev S128x8x1 : Shape := ⟨3, ![128, 8, 1]⟩
abbrev S128x8x2 : Shape := ⟨3, ![128, 8, 2]⟩
abbrev S128x16x1 : Shape := ⟨3, ![128, 16, 1]⟩
abbrev S128x16x2 : Shape := ⟨3, ![128, 16, 2]⟩
abbrev S128x32x1 : Shape := ⟨3, ![128, 32, 1]⟩
abbrev S128x32x2 : Shape := ⟨3, ![128, 32, 2]⟩
abbrev S128x64 : Shape := ⟨2, ![128, 64]⟩

abbrev nBuf : Space → Nat
  | .hbm => 3
  | .vmem => 5
  | .smem => 0
  | _ => 0

abbrev bufTy : (tb : Table) → Fin (tcTables nBuf tb) → BufTy
  | .hbm, ⟨0, _⟩ => ⟨S131072x512, .f32⟩
  | .hbm, ⟨1, _⟩ => ⟨S63x512, .f32⟩
  | .hbm, ⟨2, _⟩ => ⟨S131072x127, .f32⟩
  | .local _ .vmem, ⟨0, _⟩ => ⟨S128x512, .f32⟩
  | .local _ .vmem, ⟨1, _⟩ => ⟨S128x512, .f32⟩
  | .local _ .vmem, ⟨2, _⟩ => ⟨S63x512, .f32⟩
  | .local _ .vmem, ⟨3, _⟩ => ⟨S128x127, .f32⟩
  | .local _ .vmem, ⟨4, _⟩ => ⟨S128x127, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S63x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x127 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x512_S128x512_0_0 : ∀ a, (![0, 0] : Fin 2 → Nat) a + S128x512.size a ≤ S128x512.size a
  h_S128x512 : 0 < S128x512.numel
  inb_S63x512_S63x512_0_0 : ∀ a, (![0, 0] : Fin 2 → Nat) a + S63x512.size a ≤ S63x512.size a
  h_S63x512 : 0 < S63x512.numel
  bitsLt_bf16_f32 : FTy.bits .bf16 < FTy.bits .f32
  slices_S128x63_o0_0_S128x1 : S128x63.Slices ![0, 0] S128x1
  slices_S128x63_o0_1_S128x2 : S128x63.Slices ![0, 1] S128x2
  slices_S128x63_o0_3_S128x4 : S128x63.Slices ![0, 3] S128x4
  slices_S128x63_o0_7_S128x8 : S128x63.Slices ![0, 7] S128x8
  slices_S128x63_o0_15_S128x16 : S128x63.Slices ![0, 15] S128x16
  slices_S128x63_o0_31_S128x32 : S128x63.Slices ![0, 31] S128x32
  shapeCasts_S128x1_S128x1x1 : S128x1.ShapeCasts S128x1x1
  concatenates_S128x1x1_S128x1x1_S128x1x2_d2 : Shape.Concatenates [S128x1x1, S128x1x1] S128x1x2 2
  shapeCasts_S128x1x2_S128x2 : S128x1x2.ShapeCasts S128x2
  shapeCasts_S128x2_S128x2x1 : S128x2.ShapeCasts S128x2x1
  concatenates_S128x2x1_S128x2x1_S128x2x2_d2 : Shape.Concatenates [S128x2x1, S128x2x1] S128x2x2 2
  shapeCasts_S128x2x2_S128x4 : S128x2x2.ShapeCasts S128x4
  shapeCasts_S128x4_S128x4x1 : S128x4.ShapeCasts S128x4x1
  concatenates_S128x4x1_S128x4x1_S128x4x2_d2 : Shape.Concatenates [S128x4x1, S128x4x1] S128x4x2 2
  shapeCasts_S128x4x2_S128x8 : S128x4x2.ShapeCasts S128x8
  shapeCasts_S128x8_S128x8x1 : S128x8.ShapeCasts S128x8x1
  concatenates_S128x8x1_S128x8x1_S128x8x2_d2 : Shape.Concatenates [S128x8x1, S128x8x1] S128x8x2 2
  shapeCasts_S128x8x2_S128x16 : S128x8x2.ShapeCasts S128x16
  shapeCasts_S128x16_S128x16x1 : S128x16.ShapeCasts S128x16x1
  concatenates_S128x16x1_S128x16x1_S128x16x2_d2 : Shape.Concatenates [S128x16x1, S128x16x1] S128x16x2 2
  shapeCasts_S128x16x2_S128x32 : S128x16x2.ShapeCasts S128x32
  shapeCasts_S128x32_S128x32x1 : S128x32.ShapeCasts S128x32x1
  concatenates_S128x32x1_S128x32x1_S128x32x2_d2 : Shape.Concatenates [S128x32x1, S128x32x1] S128x32x2 2
  shapeCasts_S128x32x2_S128x64 : S128x32x2.ShapeCasts S128x64
  shapeCasts_S128x2_S128x1x2 : S128x2.ShapeCasts S128x1x2
  slices_S128x1x2_o0_0_0_S128x1x1 : S128x1x2.Slices ![0, 0, 0] S128x1x1
  shapeCasts_S128x1x1_S128x1 : S128x1x1.ShapeCasts S128x1
  shapeCasts_S128x4_S128x2x2 : S128x4.ShapeCasts S128x2x2
  slices_S128x2x2_o0_0_0_S128x2x1 : S128x2x2.Slices ![0, 0, 0] S128x2x1
  shapeCasts_S128x2x1_S128x2 : S128x2x1.ShapeCasts S128x2
  shapeCasts_S128x8_S128x4x2 : S128x8.ShapeCasts S128x4x2
  slices_S128x4x2_o0_0_0_S128x4x1 : S128x4x2.Slices ![0, 0, 0] S128x4x1
  shapeCasts_S128x4x1_S128x4 : S128x4x1.ShapeCasts S128x4
  shapeCasts_S128x16_S128x8x2 : S128x16.ShapeCasts S128x8x2
  slices_S128x8x2_o0_0_0_S128x8x1 : S128x8x2.Slices ![0, 0, 0] S128x8x1
  shapeCasts_S128x8x1_S128x8 : S128x8x1.ShapeCasts S128x8
  shapeCasts_S128x32_S128x16x2 : S128x32.ShapeCasts S128x16x2
  slices_S128x16x2_o0_0_0_S128x16x1 : S128x16x2.Slices ![0, 0, 0] S128x16x1
  shapeCasts_S128x16x1_S128x16 : S128x16x1.ShapeCasts S128x16
  shapeCasts_S128x64_S128x32x2 : S128x64.ShapeCasts S128x32x2
  slices_S128x32x2_o0_0_0_S128x32x1 : S128x32x2.Slices ![0, 0, 0] S128x32x1
  shapeCasts_S128x32x1_S128x32 : S128x32x1.ShapeCasts S128x32
  slices_S128x1x2_o0_0_1_S128x1x1 : S128x1x2.Slices ![0, 0, 1] S128x1x1
  slices_S128x2x2_o0_0_1_S128x2x1 : S128x2x2.Slices ![0, 0, 1] S128x2x1
  slices_S128x4x2_o0_0_1_S128x4x1 : S128x4x2.Slices ![0, 0, 1] S128x4x1
  slices_S128x8x2_o0_0_1_S128x8x1 : S128x8x2.Slices ![0, 0, 1] S128x8x1
  slices_S128x16x2_o0_0_1_S128x16x1 : S128x16x2.Slices ![0, 0, 1] S128x16x1
  slices_S128x32x2_o0_0_1_S128x32x1 : S128x32x2.Slices ![0, 0, 1] S128x32x1
  concatenates_S128x1_S128x2_S128x4_S128x8_S128x16_S128x32_S128x64_S128x127_d1 : Shape.Concatenates [S128x1, S128x2, S128x4, S128x8, S128x16, S128x32, S128x64] S128x127 1
  inb_S128x127_S128x127_0_0 : ∀ a, (![0, 0] : Fin 2 → Nat) a + S128x127.size a ≤ S128x127.size a
  h_S128x127 : 0 < S128x127.numel
  dot_S128x512_S63x512_S128x63_1_1_0_0_n_n_wf : DotDims.WF S128x512 S63x512 S128x63 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S131072x512.size a
  hwx0_0 : ∀ i : grid0.Coords, EltTy.bits .f32 = 32 ∨ (Rect.block (s := S131072x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S63x512.size a ≤ S63x512.size a
  hwx0_1 : ∀ i : grid0.Coords, EltTy.bits .f32 = 32 ∨ (Rect.block (s := S63x512) S63x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x127.size a ≤ S131072x127.size a
  hwx0_2 : ∀ i : grid0.Coords, EltTy.bits .f32 = 32 ∨ (Rect.block (s := S131072x127) S128x127.size (cc0_transform_2 i) (hinb0_2 i)).WholeWords (EltTy.packing .f32)

variable [Facts₀]

def dot_S128x512_S63x512_S128x63_1_1_0_0_n_n : DotDims S128x512 S63x512 S128x63 where
  lhsContracting := [1]
  rhsContracting := [1]
  lhsNonContracting := [0]
  rhsNonContracting := [0]
  lhsBatch := []
  rhsBatch := []
  wf := dot_S128x512_S63x512_S128x63_1_1_0_0_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S63x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x127.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x512 : Shape := ⟨2, ![131072, 512]⟩
abbrev S63x512 : Shape := ⟨2, ![63, 512]⟩
abbrev S63 : Shape := ⟨1, ![63]⟩
abbrev S512x63 : Shape := ⟨2, ![512, 63]⟩
abbrev S131072x63 : Shape := ⟨2, ![131072, 63]⟩
abbrev S_ : Shape := ⟨0, ![]⟩
abbrev S131072x127 : Shape := ⟨2, ![131072, 127]⟩
abbrev S63x1 : Shape := ⟨2, ![63, 1]⟩

abbrev nBuf : Space → Nat
  | .hbm => 312
  | .vmem => 0
  | .smem => 0
  | _ => 0

abbrev hbmTy0_0 (i : Nat) : BufTy := match i % 128 with
  | 0 => ⟨S131072x512, .f32⟩
  | 1 => ⟨S63x512, .f32⟩
  | 2 => ⟨S63, .i32⟩
  | 3 => ⟨S63, .i1⟩
  | 4 => ⟨S63, .i32⟩
  | 5 => ⟨S63, .i1⟩
  | 6 => ⟨S63, .i1⟩
  | 7 => ⟨S63, .i32⟩
  | 8 => ⟨S63, .i1⟩
  | 9 => ⟨S63, .i1⟩
  | 10 => ⟨S63, .i1⟩
  | 11 => ⟨S63, .i1⟩
  | 12 => ⟨S63, .i1⟩
  | 13 => ⟨S63, .i1⟩
  | 14 => ⟨S63, .i1⟩
  | 15 => ⟨S63, .i1⟩
  | 16 => ⟨S63, .i1⟩
  | 17 => ⟨S63, .i1⟩
  | 18 => ⟨S63, .i1⟩
  | 19 => ⟨S63, .i1⟩
  | 20 => ⟨S63, .i1⟩
  | 21 => ⟨S63, .i1⟩
  | 22 => ⟨S63, .i1⟩
  | 23 => ⟨S63, .i1⟩
  | 24 => ⟨S63, .i1⟩
  | 25 => ⟨S63, .i1⟩
  | 26 => ⟨S63, .i1⟩
  | 27 => ⟨S63, .i1⟩
  | 28 => ⟨S63, .i1⟩
  | 29 => ⟨S63, .i1⟩
  | 30 => ⟨S63, .i1⟩
  | 31 => ⟨S63, .i1⟩
  | 32 => ⟨S63, .i1⟩
  | 33 => ⟨S63, .i1⟩
  | 34 => ⟨S63, .i1⟩
  | 35 => ⟨S63, .i1⟩
  | 36 => ⟨S63, .i1⟩
  | 37 => ⟨S63, .i1⟩
  | 38 => ⟨S63, .i1⟩
  | 39 => ⟨S63, .i1⟩
  | 40 => ⟨S63, .i1⟩
  | 41 => ⟨S63, .i1⟩
  | 42 => ⟨S63, .i1⟩
  | 43 => ⟨S63, .i1⟩
  | 44 => ⟨S63, .i1⟩
  | 45 => ⟨S512x63, .f32⟩
  | 46 => ⟨S131072x63, .f32⟩
  | 47 => ⟨S_, .f32⟩
  | 48 => ⟨S131072x127, .f32⟩
  | 49 => ⟨S_, .i32⟩
  | 50 => ⟨S63, .i32⟩
  | 51 => ⟨S63, .i32⟩
  | 52 => ⟨S63, .i32⟩
  | 53 => ⟨S63x1, .i32⟩
  | 54 => ⟨S131072x63, .f32⟩
  | 55 => ⟨S131072x63, .f32⟩
  | 56 => ⟨S_, .i32⟩
  | 57 => ⟨S63, .i32⟩
  | 58 => ⟨S63, .i32⟩
  | 59 => ⟨S63, .i32⟩
  | 60 => ⟨S63x1, .i32⟩
  | 61 => ⟨S131072x127, .f32⟩
  | 62 => ⟨S_, .i32⟩
  | 63 => ⟨S63, .i32⟩
  | 64 => ⟨S63, .i32⟩
  | 65 => ⟨S63, .i32⟩
  | 66 => ⟨S63x1, .i32⟩
  | 67 => ⟨S131072x63, .f32⟩
  | 68 => ⟨S131072x63, .f32⟩
  | 69 => ⟨S131072x63, .f32⟩
  | 70 => ⟨S_, .i32⟩
  | 71 => ⟨S63, .i32⟩
  | 72 => ⟨S63, .i32⟩
  | 73 => ⟨S63, .i32⟩
  | 74 => ⟨S63x1, .i32⟩
  | 75 => ⟨S131072x127, .f32⟩
  | 76 => ⟨S_, .i32⟩
  | 77 => ⟨S63, .i32⟩
  | 78 => ⟨S63, .i32⟩
  | 79 => ⟨S63, .i32⟩
  | 80 => ⟨S63x1, .i32⟩
  | 81 => ⟨S131072x63, .f32⟩
  | 82 => ⟨S_, .i32⟩
  | 83 => ⟨S63, .i32⟩
  | 84 => ⟨S63, .i32⟩
  | 85 => ⟨S63, .i32⟩
  | 86 => ⟨S63x1, .i32⟩
  | 87 => ⟨S131072x63, .f32⟩
  | 88 => ⟨S131072x63, .f32⟩
  | 89 => ⟨S_, .i32⟩
  | 90 => ⟨S63, .i32⟩
  | 91 => ⟨S63, .i32⟩
  | 92 => ⟨S63, .i32⟩
  | 93 => ⟨S63x1, .i32⟩
  | 94 => ⟨S131072x127, .f32⟩
  | 95 => ⟨S_, .i32⟩
  | 96 => ⟨S63, .i32⟩
  | 97 => ⟨S63, .i32⟩
  | 98 => ⟨S63, .i32⟩
  | 99 => ⟨S63x1, .i32⟩
  | 100 => ⟨S131072x63, .f32⟩
  | 101 => ⟨S_, .i32⟩
  | 102 => ⟨S63, .i32⟩
  | 103 => ⟨S63, .i32⟩
  | 104 => ⟨S63, .i32⟩
  | 105 => ⟨S63x1, .i32⟩
  | 106 => ⟨S131072x63, .f32⟩
  | 107 => ⟨S131072x63, .f32⟩
  | 108 => ⟨S_, .i32⟩
  | 109 => ⟨S63, .i32⟩
  | 110 => ⟨S63, .i32⟩
  | 111 => ⟨S63, .i32⟩
  | 112 => ⟨S63x1, .i32⟩
  | 113 => ⟨S131072x127, .f32⟩
  | 114 => ⟨S_, .i32⟩
  | 115 => ⟨S63, .i32⟩
  | 116 => ⟨S63, .i32⟩
  | 117 => ⟨S63, .i32⟩
  | 118 => ⟨S63x1, .i32⟩
  | 119 => ⟨S131072x63, .f32⟩
  | 120 => ⟨S_, .i32⟩
  | 121 => ⟨S63, .i32⟩
  | 122 => ⟨S63, .i32⟩
  | 123 => ⟨S63, .i32⟩
  | 124 => ⟨S63x1, .i32⟩
  | 125 => ⟨S131072x63, .f32⟩
  | 126 => ⟨S131072x63, .f32⟩
  | 127 => ⟨S_, .i32⟩
  | _ => ⟨S131072x512, .f32⟩

abbrev hbmTy0_1 (i : Nat) : BufTy := match i % 128 with
  | 0 => ⟨S63, .i32⟩
  | 1 => ⟨S63, .i32⟩
  | 2 => ⟨S63, .i32⟩
  | 3 => ⟨S63x1, .i32⟩
  | 4 => ⟨S131072x127, .f32⟩
  | 5 => ⟨S_, .i32⟩
  | 6 => ⟨S63, .i32⟩
  | 7 => ⟨S63, .i32⟩
  | 8 => ⟨S63, .i32⟩
  | 9 => ⟨S63x1, .i32⟩
  | 10 => ⟨S131072x63, .f32⟩
  | 11 => ⟨S_, .i32⟩
  | 12 => ⟨S63, .i32⟩
  | 13 => ⟨S63, .i32⟩
  | 14 => ⟨S63, .i32⟩
  | 15 => ⟨S63x1, .i32⟩
  | 16 => ⟨S131072x63, .f32⟩
  | 17 => ⟨S131072x63, .f32⟩
  | 18 => ⟨S_, .i32⟩
  | 19 => ⟨S63, .i32⟩
  | 20 => ⟨S63, .i32⟩
  | 21 => ⟨S63, .i32⟩
  | 22 => ⟨S63x1, .i32⟩
  | 23 => ⟨S131072x127, .f32⟩
  | 24 => ⟨S_, .i32⟩
  | 25 => ⟨S63, .i32⟩
  | 26 => ⟨S63, .i32⟩
  | 27 => ⟨S63, .i32⟩
  | 28 => ⟨S63x1, .i32⟩
  | 29 => ⟨S131072x63, .f32⟩
  | 30 => ⟨S_, .i32⟩
  | 31 => ⟨S63, .i32⟩
  | 32 => ⟨S63, .i32⟩
  | 33 => ⟨S63, .i32⟩
  | 34 => ⟨S63x1, .i32⟩
  | 35 => ⟨S131072x63, .f32⟩
  | 36 => ⟨S131072x63, .f32⟩
  | 37 => ⟨S_, .i32⟩
  | 38 => ⟨S63, .i32⟩
  | 39 => ⟨S63, .i32⟩
  | 40 => ⟨S63, .i32⟩
  | 41 => ⟨S63x1, .i32⟩
  | 42 => ⟨S131072x127, .f32⟩
  | 43 => ⟨S_, .i32⟩
  | 44 => ⟨S63, .i32⟩
  | 45 => ⟨S63, .i32⟩
  | 46 => ⟨S63, .i32⟩
  | 47 => ⟨S63x1, .i32⟩
  | 48 => ⟨S131072x63, .f32⟩
  | 49 => ⟨S_, .i32⟩
  | 50 => ⟨S63, .i32⟩
  | 51 => ⟨S63, .i32⟩
  | 52 => ⟨S63, .i32⟩
  | 53 => ⟨S63x1, .i32⟩
  | 54 => ⟨S131072x63, .f32⟩
  | 55 => ⟨S131072x63, .f32⟩
  | 56 => ⟨S_, .i32⟩
  | 57 => ⟨S63, .i32⟩
  | 58 => ⟨S63, .i32⟩
  | 59 => ⟨S63, .i32⟩
  | 60 => ⟨S63x1, .i32⟩
  | 61 => ⟨S131072x127, .f32⟩
  | 62 => ⟨S_, .i32⟩
  | 63 => ⟨S63, .i32⟩
  | 64 => ⟨S63, .i32⟩
  | 65 => ⟨S63, .i32⟩
  | 66 => ⟨S63x1, .i32⟩
  | 67 => ⟨S131072x63, .f32⟩
  | 68 => ⟨S_, .i32⟩
  | 69 => ⟨S63, .i32⟩
  | 70 => ⟨S63, .i32⟩
  | 71 => ⟨S63, .i32⟩
  | 72 => ⟨S63x1, .i32⟩
  | 73 => ⟨S131072x63, .f32⟩
  | 74 => ⟨S131072x63, .f32⟩
  | 75 => ⟨S_, .i32⟩
  | 76 => ⟨S63, .i32⟩
  | 77 => ⟨S63, .i32⟩
  | 78 => ⟨S63, .i32⟩
  | 79 => ⟨S63x1, .i32⟩
  | 80 => ⟨S131072x127, .f32⟩
  | 81 => ⟨S_, .i32⟩
  | 82 => ⟨S63, .i32⟩
  | 83 => ⟨S63, .i32⟩
  | 84 => ⟨S63, .i32⟩
  | 85 => ⟨S63x1, .i32⟩
  | 86 => ⟨S131072x63, .f32⟩
  | 87 => ⟨S_, .i32⟩
  | 88 => ⟨S63, .i32⟩
  | 89 => ⟨S63, .i32⟩
  | 90 => ⟨S63, .i32⟩
  | 91 => ⟨S63x1, .i32⟩
  | 92 => ⟨S131072x63, .f32⟩
  | 93 => ⟨S131072x63, .f32⟩
  | 94 => ⟨S_, .i32⟩
  | 95 => ⟨S63, .i32⟩
  | 96 => ⟨S63, .i32⟩
  | 97 => ⟨S63, .i32⟩
  | 98 => ⟨S63x1, .i32⟩
  | 99 => ⟨S131072x127, .f32⟩
  | 100 => ⟨S_, .i32⟩
  | 101 => ⟨S63, .i32⟩
  | 102 => ⟨S63, .i32⟩
  | 103 => ⟨S63, .i32⟩
  | 104 => ⟨S63x1, .i32⟩
  | 105 => ⟨S131072x63, .f32⟩
  | 106 => ⟨S_, .i32⟩
  | 107 => ⟨S63, .i32⟩
  | 108 => ⟨S63, .i32⟩
  | 109 => ⟨S63, .i32⟩
  | 110 => ⟨S63x1, .i32⟩
  | 111 => ⟨S131072x63, .f32⟩
  | 112 => ⟨S131072x63, .f32⟩
  | 113 => ⟨S_, .i32⟩
  | 114 => ⟨S63, .i32⟩
  | 115 => ⟨S63, .i32⟩
  | 116 => ⟨S63, .i32⟩
  | 117 => ⟨S63x1, .i32⟩
  | 118 => ⟨S131072x127, .f32⟩
  | 119 => ⟨S_, .i32⟩
  | 120 => ⟨S63, .i32⟩
  | 121 => ⟨S63, .i32⟩
  | 122 => ⟨S63, .i32⟩
  | 123 => ⟨S63x1, .i32⟩
  | 124 => ⟨S131072x63, .f32⟩
  | 125 => ⟨S_, .i32⟩
  | 126 => ⟨S63, .i32⟩
  | 127 => ⟨S63, .i32⟩
  | _ => ⟨S131072x512, .f32⟩

abbrev hbmTy0_2 (i : Nat) : BufTy := match i % 128 with
  | 0 => ⟨S63, .i32⟩
  | 1 => ⟨S63x1, .i32⟩
  | 2 => ⟨S131072x63, .f32⟩
  | 3 => ⟨S131072x63, .f32⟩
  | 4 => ⟨S_, .i32⟩
  | 5 => ⟨S63, .i32⟩
  | 6 => ⟨S63, .i32⟩
  | 7 => ⟨S63, .i32⟩
  | 8 => ⟨S63x1, .i32⟩
  | 9 => ⟨S131072x127, .f32⟩
  | 10 => ⟨S_, .i32⟩
  | 11 => ⟨S63, .i32⟩
  | 12 => ⟨S63, .i32⟩
  | 13 => ⟨S63, .i32⟩
  | 14 => ⟨S63x1, .i32⟩
  | 15 => ⟨S131072x63, .f32⟩
  | 16 => ⟨S_, .i32⟩
  | 17 => ⟨S63, .i32⟩
  | 18 => ⟨S63, .i32⟩
  | 19 => ⟨S63, .i32⟩
  | 20 => ⟨S63x1, .i32⟩
  | 21 => ⟨S131072x63, .f32⟩
  | 22 => ⟨S131072x63, .f32⟩
  | 23 => ⟨S_, .i32⟩
  | 24 => ⟨S63, .i32⟩
  | 25 => ⟨S63, .i32⟩
  | 26 => ⟨S63, .i32⟩
  | 27 => ⟨S63x1, .i32⟩
  | 28 => ⟨S131072x127, .f32⟩
  | 29 => ⟨S_, .i32⟩
  | 30 => ⟨S63, .i32⟩
  | 31 => ⟨S63, .i32⟩
  | 32 => ⟨S63, .i32⟩
  | 33 => ⟨S63x1, .i32⟩
  | 34 => ⟨S131072x63, .f32⟩
  | 35 => ⟨S_, .i32⟩
  | 36 => ⟨S63, .i32⟩
  | 37 => ⟨S63, .i32⟩
  | 38 => ⟨S63, .i32⟩
  | 39 => ⟨S63x1, .i32⟩
  | 40 => ⟨S131072x63, .f32⟩
  | 41 => ⟨S131072x63, .f32⟩
  | 42 => ⟨S_, .i32⟩
  | 43 => ⟨S63, .i32⟩
  | 44 => ⟨S63, .i32⟩
  | 45 => ⟨S63, .i32⟩
  | 46 => ⟨S63x1, .i32⟩
  | 47 => ⟨S131072x127, .f32⟩
  | 48 => ⟨S_, .f32⟩
  | 49 => ⟨S_, .f32⟩
  | 50 => ⟨S_, .f32⟩
  | 51 => ⟨S131072x127, .f32⟩
  | 52 => ⟨S131072x127, .f32⟩
  | 53 => ⟨S_, .f32⟩
  | 54 => ⟨S131072x127, .f32⟩
  | 55 => ⟨S131072x127, .f32⟩
  | _ => ⟨S131072x512, .f32⟩

abbrev hbmTy (i : Nat) : BufTy := match i / 128 with
  | 0 => hbmTy0_0 i
  | 1 => hbmTy0_1 i
  | 2 => hbmTy0_2 i
  | _ => ⟨S131072x512, .f32⟩

abbrev bufTy : (tb : Table) → Fin (tcTables nBuf tb) → BufTy
  | .hbm, ⟨i, _⟩ => hbmTy i
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_c_10 : Ref sig .tc := ⟨.hbm, 13, rfl⟩
abbrev main_c_11 : Ref sig .tc := ⟨.hbm, 14, rfl⟩
abbrev main_c_12 : Ref sig .tc := ⟨.hbm, 15, rfl⟩
abbrev main_c_13 : Ref sig .tc := ⟨.hbm, 16, rfl⟩
abbrev main_c_14 : Ref sig .tc := ⟨.hbm, 17, rfl⟩
abbrev main_c_15 : Ref sig .tc := ⟨.hbm, 18, rfl⟩
abbrev main_c_16 : Ref sig .tc := ⟨.hbm, 19, rfl⟩
abbrev main_c_17 : Ref sig .tc := ⟨.hbm, 20, rfl⟩
abbrev main_c_18 : Ref sig .tc := ⟨.hbm, 21, rfl⟩
abbrev main_c_19 : Ref sig .tc := ⟨.hbm, 22, rfl⟩
abbrev main_c_20 : Ref sig .tc := ⟨.hbm, 23, rfl⟩
abbrev main_c_21 : Ref sig .tc := ⟨.hbm, 24, rfl⟩
abbrev main_c_22 : Ref sig .tc := ⟨.hbm, 25, rfl⟩
abbrev main_c_23 : Ref sig .tc := ⟨.hbm, 26, rfl⟩
abbrev main_c_24 : Ref sig .tc := ⟨.hbm, 27, rfl⟩
abbrev main_c_25 : Ref sig .tc := ⟨.hbm, 28, rfl⟩
abbrev main_c_26 : Ref sig .tc := ⟨.hbm, 29, rfl⟩
abbrev main_c_27 : Ref sig .tc := ⟨.hbm, 30, rfl⟩
abbrev main_c_28 : Ref sig .tc := ⟨.hbm, 31, rfl⟩
abbrev main_c_29 : Ref sig .tc := ⟨.hbm, 32, rfl⟩
abbrev main_c_30 : Ref sig .tc := ⟨.hbm, 33, rfl⟩
abbrev main_c_31 : Ref sig .tc := ⟨.hbm, 34, rfl⟩
abbrev main_c_32 : Ref sig .tc := ⟨.hbm, 35, rfl⟩
abbrev main_c_33 : Ref sig .tc := ⟨.hbm, 36, rfl⟩
abbrev main_c_34 : Ref sig .tc := ⟨.hbm, 37, rfl⟩
abbrev main_c_35 : Ref sig .tc := ⟨.hbm, 38, rfl⟩
abbrev main_c_36 : Ref sig .tc := ⟨.hbm, 39, rfl⟩
abbrev main_c_37 : Ref sig .tc := ⟨.hbm, 40, rfl⟩
abbrev main_c_38 : Ref sig .tc := ⟨.hbm, 41, rfl⟩
abbrev main_c_39 : Ref sig .tc := ⟨.hbm, 42, rfl⟩
abbrev main_c_40 : Ref sig .tc := ⟨.hbm, 43, rfl⟩
abbrev main_c_41 : Ref sig .tc := ⟨.hbm, 44, rfl⟩
abbrev main_v0 : Ref sig .tc := ⟨.hbm, 45, rfl⟩
abbrev main_v1 : Ref sig .tc := ⟨.hbm, 46, rfl⟩
abbrev main_cst : Ref sig .tc := ⟨.hbm, 47, rfl⟩
abbrev main_v2 : Ref sig .tc := ⟨.hbm, 48, rfl⟩
abbrev main_c_42 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_c_43 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_c_44 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_c_45 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_c_46 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_c_47 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_c_48 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_c_49 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_c_50 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_c_51 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_c_52 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_c_53 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_c_54 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_c_55 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_c_56 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_c_57 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_c_58 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_c_59 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_c_60 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_c_61 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_c_62 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_c_63 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_c_64 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_c_65 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_c_66 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_c_67 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_c_68 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_c_69 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_c_70 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_c_71 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_c_72 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_c_73 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_c_74 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_c_75 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_c_76 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_c_77 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_c_78 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_c_79 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_c_80 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_c_81 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_cst_82 : Ref sig .tc := ⟨.hbm, 304, rfl⟩
abbrev main_cst_83 : Ref sig .tc := ⟨.hbm, 305, rfl⟩
abbrev main_call0_v0 : Ref sig .tc := ⟨.hbm, 306, rfl⟩
abbrev main_call0_v1 : Ref sig .tc := ⟨.hbm, 307, rfl⟩
abbrev main_call0_v2 : Ref sig .tc := ⟨.hbm, 308, rfl⟩
abbrev main_call0_v3 : Ref sig .tc := ⟨.hbm, 309, rfl⟩
abbrev main_call0_v4 : Ref sig .tc := ⟨.hbm, 310, rfl⟩
abbrev main_v218 : Ref sig .tc := ⟨.hbm, 311, rfl⟩

abbrev nD : Nat := 1
abbrev τ : Topo := Topo.v7x

variable {F : FTy → Type} [FloatOps F]

class Facts₀ : Prop where
  transposes_S63x512_S512x63_1_0 : S63x512.Transposes [1, 0] S512x63
  bcast_S_S131072x127 : S_.BroadcastsInDim S131072x127 (![] : Fin 0 → Fin S131072x127.rank)
  bcast_S_S63 : S_.BroadcastsInDim S63 (![] : Fin 0 → Fin S63.rank)
  bcast_S63_S63x1_0 : S63.BroadcastsInDim S63x1 (![0] : Fin 1 → Fin S63x1.rank)
  dot_S131072x512_S512x63_S131072x63_1_0_0_1_n_n_wf : DotDims.WF S131072x512 S512x63 S131072x63 [1] [0] [0] [1] [] []
  gather_S131072x127_S63x1_S131072x63_0_1_n_n_1_1_1310721_wf : GatherDims.WF S131072x127 S63x1 S131072x63 [0] [1] [] [1] [] 1 ![131072, 1]
  scatter_S131072x127_S63x1_S131072x63_0_1_1_1_wf : ScatterDims.WF S131072x127 S63x1 S131072x63 [0] [1] [1] 1

variable [Facts₀]

def dot_S131072x512_S512x63_S131072x63_1_0_0_1_n_n : DotDims S131072x512 S512x63 S131072x63 where
  lhsContracting := [1]
  rhsContracting := [0]
  lhsNonContracting := [0]
  rhsNonContracting := [1]
  lhsBatch := []
  rhsBatch := []
  wf := dot_S131072x512_S512x63_S131072x63_1_0_0_1_n_n_wf
def gather_S131072x127_S63x1_S131072x63_0_1_n_n_1_1_1310721 : GatherDims S131072x127 S63x1 S131072x63 where
  offsetDims := [0]
  collapsedSliceDims := [1]
  operandBatchingDims := []
  startIndicesBatchingDims := []
  startIndexMap := [1]
  indexVectorDim := 1
  sliceSizes := ![131072, 1]
  wf := gather_S131072x127_S63x1_S131072x63_0_1_n_n_1_1_1310721_wf
def scatter_S131072x127_S63x1_S131072x63_0_1_1_1 : ScatterDims S131072x127 S63x1 S131072x63 where
  updateWindowDims := [0]
  insertedWindowDims := [1]
  scatterDimsToOperandDims := [1]
  indexVectorDim := 1
  wf := scatter_S131072x127_S63x1_S131072x63_0_1_1_1_wf

class Facts : Prop extends Facts₀ where

variable [Facts]
-- ==== Proof.Spec.lean ====
/-
  The mathematics both programs compute, one row at a time.

  A complete binary tree of depth 6 in heap order: node `0` is the root, node `t < 63` has the children `2t+1`
  (left) and `2t+2` (right), so the odd nodes are exactly the left children and the even nodes other than the
  root exactly the right children. A row is a value per node, `Fin 127 → EReal`; `a : Fin 63 → EReal` is the row's
  split scores, one per inner node.

  * `putOdd q u` writes `u t` at the left child of every inner node `t` and keeps the other nodes;
    `putEven q u` does the same at the right children.
  * `par q`, `lft q`, `rgt q` read a row at the inner nodes, at their left children, at their right children.
  * `seed c1 a`: from the constant row `c1`, first every left child becomes `min (parent) (a t)`, then — the parents
    read AFTER that write — every right child becomes `min (parent) (-(a t))`.
  * `sweep q`: first every left child becomes `min (itself) (parent)`, then — parents and children read after that
    write — every right child becomes `min (itself) (parent)`.
  * `result c0 c1 a n`: six sweeps after the seed, clipped into `[c0, c1]` as `min c1 (max c0 ·)`.
-/
import Idealize.ShloMosaic.PureOps.Ideal

noncomputable section

namespace Cert.Tree

/-- A value per node of the tree. -/
abbrev Row := Fin 127 → EReal

/-- Write `u t` at node `2t+1` for every `t < 63` (the odd nodes); keep the others. -/
def putOdd (q : Row) (u : Fin 63 → EReal) : Row :=
  fun n => if h : n.val % 2 = 1 then u ⟨n.val / 2, by have := n.isLt; omega⟩ else q n

/-- Write `u t` at node `2t+2` for every `t < 63` (the even nodes but the root); keep the others. -/
def putEven (q : Row) (u : Fin 63 → EReal) : Row :=
  fun n => if h : n.val % 2 = 0 ∧ 0 < n.val then u ⟨n.val / 2 - 1, by have := n.isLt; omega⟩ else q n

/-- The row at the inner nodes. -/
def par (q : Row) : Fin 63 → EReal := fun t => q ⟨t.val, by have := t.isLt; omega⟩
/-- The row at the inner nodes' left children. -/
def lft (q : Row) : Fin 63 → EReal := fun t => q ⟨2 * t.val + 1, by have := t.isLt; omega⟩
/-- The row at the inner nodes' right children. -/
def rgt (q : Row) : Fin 63 → EReal := fun t => q ⟨2 * t.val + 2, by have := t.isLt; omega⟩

/-- The seed: left children from the constant row, then right children from the row so far. -/
def seed (c1 : EReal) (a : Fin 63 → EReal) : Row :=
  putEven (putOdd (fun _ => c1) (fun t => min (par (fun _ => c1) t) (a t)))
    (fun t => min (par (putOdd (fun _ => c1) (fun t => min (par (fun _ => c1) t) (a t))) t) (-(a t)))

/-- One sweep: left children against their parents, then right children against their (updated) parents. -/
def sweep (q : Row) : Row :=
  putEven (putOdd q (fun t => min (lft q t) (par q t)))
    (fun t => min (rgt (putOdd q (fun t => min (lft q t) (par q t))) t) (par (putOdd q (fun t => min (lft q t) (par q t))) t))

/-- The row after the seed and `s` sweeps. -/
def rowAfter (c1 : EReal) (a : Fin 63 → EReal) : Nat → Row
  | 0 => seed c1 a
  | s + 1 => sweep (rowAfter c1 a s)

/-- Clipping into `[c0, c1]`, the lower bound first. -/
def clip (c0 c1 x : EReal) : EReal := min c1 (max c0 x)

/-- What both programs store at node `n` of a row with split scores `a`. -/
def result (c0 c1 : EReal) (a : Fin 63 → EReal) (n : Fin 127) : EReal := clip c0 c1 (rowAfter c1 a 6 n)

end Cert.Tree

end
-- ==== Proof.KBlocks.lean ====
/-
  From blocks to the whole array, for the idealized kernel.

  The grid has 1024 points. Point `t` stages rows `128·t … 128·t + 127` of `x` (all 512 columns), the whole of `A`, and
  writes back rows `128·t … 128·t + 127` of the result (all 127 columns). Given what ONE point stores as a function of
  its two staged blocks (`PointSpec`: entry `(r, n)` is the tree row of the split scores `∑ₖ x₀[r,k]·x₁[t,k]`, at node
  `n`), the result array after the run is ONE function `G` of the two argument arrays: entry `(R, n)` is the tree row
  of `∑ₖ x[R,k]·A[t,k]` at node `n`. The blocks tile the array (row `R` lies in point `R / 128`'s block), so the array
  is `G` everywhere.
-/
import proofs.«119096_j25271587570082_2_alg».proof.Proof.KernelIdealValue
import proofs.«119096_j25271587570082_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KBlocks

open Cert.KernelIdeal Cert.KernelIdeal.Gen Cert.KernelIdeal.GenP Cert.KernelIdeal.ValueP

/-- The lower and the upper clipping bound, as the programs spell them. -/
abbrev c0 : EReal := Ideal.ofBits .f32 0x00000000#32
abbrev c1 : EReal := Ideal.ofBits .f32 0x3F800000#32

/-- The tree row of one row's split scores against all of `A`, at a node. -/
def rowRes (x : Vec Ideal S131072x512 .f32) (A : Vec Ideal S63x512 .f32) (R : Fin 131072) (n : Fin 127) : EReal :=
  Cert.Tree.result c0 c1 (fun t : Fin 63 => ∑ k : Fin 512, x (ix2 R k) * A (ix2 t k)) n

/-- The result array as one function of the argument arrays. -/
def G (x : Vec Ideal S131072x512 .f32) (A : Vec Ideal S63x512 .f32) : Vec Ideal S131072x127 .f32 :=
  fun i => rowRes x A ⟨(i 0).val, idx2_lt0 i⟩ ⟨(i 1).val, idx2_lt1 i⟩

/-- What one grid point stores, entry by entry, as a function of its two staged blocks. -/
def PointSpec : Prop :=
  ∀ (x0 : Vec Ideal S128x512 .f32) (x1 : Vec Ideal S63x512 .f32) (r : Fin 128) (n : Fin 127),
    pv1 (F := Ideal) x0 x1 (ix2 r n)
      = Cert.Tree.result c0 c1 (fun t : Fin 63 => ∑ k : Fin 512, x0 (ix2 r k) * x1 (ix2 t k)) n

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-block index of `x` and of the result is the point's position, every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of point `t`'s block of `x` is row `128·t + r` of the array. -/
theorem iblk0_apply (c : Dev nD) (t : Fin cfg0.N) (r : Fin 128) (k : Fin 512) (R : Fin 131072) (hR : R.val = t.val * 128 + r.val) :
    (iblk m c 0 t : Vec Ideal S128x512 .f32) (ix2 r k) = (V m c main_arg0 : Vec Ideal S131072x512 .f32) (ix2 R k) := by
  obtain ⟨e0, e1, -, -, -, -⟩ := idx_facts t
  unfold iblk
  rw [View.read_apply]
  show V m c main_arg0 _ = V m c main_arg0 _
  congr 1
  funext a
  apply Fin.ext
  match a with
  | ⟨0, _⟩ => show win0_0.index t (0 : Fin 2) * 128 + 1 * r.val = R.val; rw [e0, hR]; omega
  | ⟨1, _⟩ => show win0_0.index t (1 : Fin 2) * 512 + 1 * k.val = k.val; rw [e1]; omega

/-- Every point's block of `A` is the whole array. -/
theorem iblk1_apply (c : Dev nD) (t : Fin cfg0.N) (u : Fin 63) (k : Fin 512) :
    (iblk m c 1 t : Vec Ideal S63x512 .f32) (ix2 u k) = (V m c main_arg1 : Vec Ideal S63x512 .f32) (ix2 u k) := by
  obtain ⟨-, -, e0, e1, -, -⟩ := idx_facts t
  unfold iblk
  rw [View.read_apply]
  show V m c main_arg1 _ = V m c main_arg1 _
  congr 1
  funext a
  apply Fin.ext
  match a with
  | ⟨0, _⟩ => show win0_1.index t (0 : Fin 2) * 63 + 1 * u.val = u.val; rw [e0]; omega
  | ⟨1, _⟩ => show win0_1.index t (1 : Fin 2) * 512 + 1 * k.val = k.val; rw [e1]; omega

/-- WHAT POINT `t` WRITES BACK is block `t` of `G` of the argument arrays. -/
theorem flushed_eq (hK : PointSpec) (c : Dev nD) (t : Fin cfg0.N) :
    (dats m 0 c).flushed 2 t
      = ((cfg0.win 2).blk t).view.read (Elt Ideal) (G (V m c main_arg0) (V m c main_arg1)) := by
  rw [flushed2]
  unfold out0_2
  rw [View.canon_unit_zero hz]
  obtain ⟨-, -, -, -, e0, e1⟩ := idx_facts t
  funext j
  obtain ⟨r, n, rfl⟩ : ∃ (r : Fin 128) (n : Fin 127), j = ix2 r n := ⟨j 0, j 1, eq_ix2 j⟩
  show pv1 (F := Ideal) (iblk m c 0 t) (iblk m c 1 t) (ix2 r n)
    = G (V m c main_arg0) (V m c main_arg1) (((cfg0.win 2).blk t).view.emb (ix2 r n))
  refine (hK _ _ r n).trans ?_
  have hlt : t.val * 128 + r.val < 131072 := by
    have h1 : t.val < 1024 := lt_of_lt_of_eq t.isLt N_0
    have h2 := r.isLt
    omega
  have hR : (⟨((((cfg0.win 2).blk t).view.emb (ix2 r n)) 0).val, idx2_lt0 _⟩ : Fin 131072) = ⟨t.val * 128 + r.val, hlt⟩ := by
    apply Fin.ext
    show win0_2.index t (0 : Fin 2) * 128 + 1 * r.val = t.val * 128 + r.val
    rw [e0]; omega
  have hn : (⟨((((cfg0.win 2).blk t).view.emb (ix2 r n)) 1).val, idx2_lt1 _⟩ : Fin 127) = n := by
    apply Fin.ext
    show win0_2.index t (1 : Fin 2) * 127 + 1 * n.val = n.val
    rw [e1]; omega
  show _ = rowRes _ _ _ _
  rw [hR, hn]
  unfold rowRes
  refine congrArg (fun a => Cert.Tree.result c0 c1 a n) (funext fun u => Finset.sum_congr rfl fun k _ => ?_)
  rw [iblk0_apply m c t r k ⟨t.val * 128 + r.val, hlt⟩ rfl, iblk1_apply m c t u k]

/-- An index of the array is in point `t`'s block iff each coordinate is in the block's range on its axis. -/
theorem mem_blk (t : Fin cfg0.N) (i : S131072x127.Idx) :
    i ∈ ((cfg0.win 2).blk t).view.set ↔ ∀ a : Fin 2, win0_2.index t a * S128x127.size a ≤ (i a).val
      ∧ (i a).val < win0_2.index t a * S128x127.size a + S128x127.size a := by
  show i ∈ ((View.whole main_v0).slice (win0_2.rect t)).set ↔ _
  rw [View.set_slice_whole, Rect.mem_set_unit]
  exact Iff.rfl

/-- Every index of the result array lies in some point's block: row `R` in point `R / 128`'s. -/
theorem cover (i : S131072x127.Idx) :
    ∃ t : Fin cfg0.N, (cfg0.win 2).flush t = true ∧ i ∈ ((cfg0.win 2).blk t).view.set := by
  have hi0 : (i 0).val < 131072 := idx2_lt0 i
  have hi1 : (i 1).val < 127 := idx2_lt1 i
  have hN : cfg0.N = 1024 := N_0
  refine ⟨⟨(i 0).val / 128, by rw [hN]; omega⟩, flush0_2 _, ?_⟩
  rw [mem_blk]
  obtain ⟨-, -, -, -, e0, e1⟩ := idx_facts ⟨(i 0).val / 128, by rw [hN]; omega⟩
  intro a
  match a with
  | ⟨0, _⟩ =>
    show win0_2.index _ (0 : Fin 2) * 128 ≤ (i 0).val ∧ (i 0).val < win0_2.index _ (0 : Fin 2) * 128 + 128
    rw [e0]; show (i 0).val / 128 * 128 ≤ (i 0).val ∧ (i 0).val < (i 0).val / 128 * 128 + 128; omega
  | ⟨1, _⟩ =>
    show win0_2.index _ (1 : Fin 2) * 127 ≤ (i 1).val ∧ (i 1).val < win0_2.index _ (1 : Fin 2) * 127 + 127
    rw [e1]; omega

/-- THE ARRAY after the run is `G` of the argument arrays. -/
theorem final (hK : PointSpec) (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m hK c t) cover

/-- The idealized kernel's run, read: the result array at `G` of the arguments, the arguments unchanged. -/
theorem run (hK : PointSpec) : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hK c), (h c).2⟩) (run_blocks m ρ)

end Cert.KBlocks

end
-- ==== Proof.KStruct.lean ====
/-
  The kernel body's pure operations, re-stated in their natural structure.

  The body builds a row of the depth-6 tree LEVEL BY LEVEL: level `d` is the nodes `2^d - 1 … 2^(d+1) - 2`, a
  vector of width `2^d` per row. Two vectors of width `W` are INTERLEAVED into one of width `2W` (reshape each to
  `W × 1`, concatenate along the new axis, reshape to `2W`): position `2k` is the first vector's `k`, position
  `2k + 1` the second's. Conversely LANE 0 / LANE 1 of a vector of width `2W` (reshape to `W × 2`, slice the last
  axis at 0 / 1, reshape to `W`) are its even / odd positions: the left / right children of the level above.

  * the seed: the left children of level `d` are `min 1 (a_d)`, with `a_d` the level-`d` slice of the split scores;
    the parents read after that write are the interleave of the previous level's left children with ones; the right
    children are `min (those parents) (0 - a_d)`; the next level is the interleave of the two.
  * a sweep: the new left children are `min (lane 0 of the level below) (this level)`; the parents read after that
    write are the interleave of the level above's new left children with this level's lane 1; the new right children
    are `min (lane 1 of the level below) (those parents)`; the new level below is the interleave of the two.
  * six sweeps, the seven levels concatenated along the node axis, and the clip.
-/
import proofs.«119096_j25271587570082_2_alg».proof.Proof.KernelIdealDag

noncomputable section

namespace Cert.KVal

open Cert.KernelIdeal Cert.KernelIdeal.Gen Cert.KernelIdeal.GenP Idealize.ShloMosaic

variable {F : FTy → Type} [FloatOps F]

/-! ## Interleave and lanes, level by level -/

/-- Interleave two width-1 vectors into a width-2 one: position `2k` from `l`, `2k + 1` from `r`. -/
def ileave0 (l r : FVec F S128x1 .f32) : FVec F S128x2 .f32 :=
  shapeCast S128x2 (concatenate S128x1x2 2 [⟨S128x1x1, shapeCast S128x1x1 l shapeCasts_S128x1_S128x1x1⟩, ⟨S128x1x1, shapeCast S128x1x1 r shapeCasts_S128x1_S128x1x1⟩] concatenates_S128x1x1_S128x1x1_S128x1x2_d2) shapeCasts_S128x1x2_S128x2
/-- The even positions of a width-2 vector. -/
def lane00 (v : FVec F S128x2 .f32) : FVec F S128x1 .f32 :=
  shapeCast S128x1 (extractStridedSlice S128x1x1 ![0, 0, 0] (shapeCast S128x1x2 v shapeCasts_S128x2_S128x1x2) slices_S128x1x2_o0_0_0_S128x1x1) shapeCasts_S128x1x1_S128x1
/-- The odd positions of a width-2 vector. -/
def lane10 (v : FVec F S128x2 .f32) : FVec F S128x1 .f32 :=
  shapeCast S128x1 (extractStridedSlice S128x1x1 ![0, 0, 1] (shapeCast S128x1x2 v shapeCasts_S128x2_S128x1x2) slices_S128x1x2_o0_0_1_S128x1x1) shapeCasts_S128x1x1_S128x1

/-- Interleave two width-2 vectors into a width-4 one: position `2k` from `l`, `2k + 1` from `r`. -/
def ileave1 (l r : FVec F S128x2 .f32) : FVec F S128x4 .f32 :=
  shapeCast S128x4 (concatenate S128x2x2 2 [⟨S128x2x1, shapeCast S128x2x1 l shapeCasts_S128x2_S128x2x1⟩, ⟨S128x2x1, shapeCast S128x2x1 r shapeCasts_S128x2_S128x2x1⟩] concatenates_S128x2x1_S128x2x1_S128x2x2_d2) shapeCasts_S128x2x2_S128x4
/-- The even positions of a width-4 vector. -/
def lane01 (v : FVec F S128x4 .f32) : FVec F S128x2 .f32 :=
  shapeCast S128x2 (extractStridedSlice S128x2x1 ![0, 0, 0] (shapeCast S128x2x2 v shapeCasts_S128x4_S128x2x2) slices_S128x2x2_o0_0_0_S128x2x1) shapeCasts_S128x2x1_S128x2
/-- The odd positions of a width-4 vector. -/
def lane11 (v : FVec F S128x4 .f32) : FVec F S128x2 .f32 :=
  shapeCast S128x2 (extractStridedSlice S128x2x1 ![0, 0, 1] (shapeCast S128x2x2 v shapeCasts_S128x4_S128x2x2) slices_S128x2x2_o0_0_1_S128x2x1) shapeCasts_S128x2x1_S128x2

/-- Interleave two width-4 vectors into a width-8 one: position `2k` from `l`, `2k + 1` from `r`. -/
def ileave2 (l r : FVec F S128x4 .f32) : FVec F S128x8 .f32 :=
  shapeCast S128x8 (concatenate S128x4x2 2 [⟨S128x4x1, shapeCast S128x4x1 l shapeCasts_S128x4_S128x4x1⟩, ⟨S128x4x1, shapeCast S128x4x1 r shapeCasts_S128x4_S128x4x1⟩] concatenates_S128x4x1_S128x4x1_S128x4x2_d2) shapeCasts_S128x4x2_S128x8
/-- The even positions of a width-8 vector. -/
def lane02 (v : FVec F S128x8 .f32) : FVec F S128x4 .f32 :=
  shapeCast S128x4 (extractStridedSlice S128x4x1 ![0, 0, 0] (shapeCast S128x4x2 v shapeCasts_S128x8_S128x4x2) slices_S128x4x2_o0_0_0_S128x4x1) shapeCasts_S128x4x1_S128x4
/-- The odd positions of a width-8 vector. -/
def lane12 (v : FVec F S128x8 .f32) : FVec F S128x4 .f32 :=
  shapeCast S128x4 (extractStridedSlice S128x4x1 ![0, 0, 1] (shapeCast S128x4x2 v shapeCasts_S128x8_S128x4x2) slices_S128x4x2_o0_0_1_S128x4x1) shapeCasts_S128x4x1_S128x4

/-- Interleave two width-8 vectors into a width-16 one: position `2k` from `l`, `2k + 1` from `r`. -/
def ileave3 (l r : FVec F S128x8 .f32) : FVec F S128x16 .f32 :=
  shapeCast S128x16 (concatenate S128x8x2 2 [⟨S128x8x1, shapeCast S128x8x1 l shapeCasts_S128x8_S128x8x1⟩, ⟨S128x8x1, shapeCast S128x8x1 r shapeCasts_S128x8_S128x8x1⟩] concatenates_S128x8x1_S128x8x1_S128x8x2_d2) shapeCasts_S128x8x2_S128x16
/-- The even positions of a width-16 vector. -/
def lane03 (v : FVec F S128x16 .f32) : FVec F S128x8 .f32 :=
  shapeCast S128x8 (extractStridedSlice S128x8x1 ![0, 0, 0] (shapeCast S128x8x2 v shapeCasts_S128x16_S128x8x2) slices_S128x8x2_o0_0_0_S128x8x1) shapeCasts_S128x8x1_S128x8
/-- The odd positions of a width-16 vector. -/
def lane13 (v : FVec F S128x16 .f32) : FVec F S128x8 .f32 :=
  shapeCast S128x8 (extractStridedSlice S128x8x1 ![0, 0, 1] (shapeCast S128x8x2 v shapeCasts_S128x16_S128x8x2) slices_S128x8x2_o0_0_1_S128x8x1) shapeCasts_S128x8x1_S128x8

/-- Interleave two width-16 vectors into a width-32 one: position `2k` from `l`, `2k + 1` from `r`. -/
def ileave4 (l r : FVec F S128x16 .f32) : FVec F S128x32 .f32 :=
  shapeCast S128x32 (concatenate S128x16x2 2 [⟨S128x16x1, shapeCast S128x16x1 l shapeCasts_S128x16_S128x16x1⟩, ⟨S128x16x1, shapeCast S128x16x1 r shapeCasts_S128x16_S128x16x1⟩] concatenates_S128x16x1_S128x16x1_S128x16x2_d2) shapeCasts_S128x16x2_S128x32
/-- The even positions of a width-32 vector. -/
def lane04 (v : FVec F S128x32 .f32) : FVec F S128x16 .f32 :=
  shapeCast S128x16 (extractStridedSlice S128x16x1 ![0, 0, 0] (shapeCast S128x16x2 v shapeCasts_S128x32_S128x16x2) slices_S128x16x2_o0_0_0_S128x16x1) shapeCasts_S128x16x1_S128x16
/-- The odd positions of a width-32 vector. -/
def lane14 (v : FVec F S128x32 .f32) : FVec F S128x16 .f32 :=
  shapeCast S128x16 (extractStridedSlice S128x16x1 ![0, 0, 1] (shapeCast S128x16x2 v shapeCasts_S128x32_S128x16x2) slices_S128x16x2_o0_0_1_S128x16x1) shapeCasts_S128x16x1_S128x16

/-- Interleave two width-32 vectors into a width-64 one: position `2k` from `l`, `2k + 1` from `r`. -/
def ileave5 (l r : FVec F S128x32 .f32) : FVec F S128x64 .f32 :=
  shapeCast S128x64 (concatenate S128x32x2 2 [⟨S128x32x1, shapeCast S128x32x1 l shapeCasts_S128x32_S128x32x1⟩, ⟨S128x32x1, shapeCast S128x32x1 r shapeCasts_S128x32_S128x32x1⟩] concatenates_S128x32x1_S128x32x1_S128x32x2_d2) shapeCasts_S128x32x2_S128x64
/-- The even positions of a width-64 vector. -/
def lane05 (v : FVec F S128x64 .f32) : FVec F S128x32 .f32 :=
  shapeCast S128x32 (extractStridedSlice S128x32x1 ![0, 0, 0] (shapeCast S128x32x2 v shapeCasts_S128x64_S128x32x2) slices_S128x32x2_o0_0_0_S128x32x1) shapeCasts_S128x32x1_S128x32
/-- The odd positions of a width-64 vector. -/
def lane15 (v : FVec F S128x64 .f32) : FVec F S128x32 .f32 :=
  shapeCast S128x32 (extractStridedSlice S128x32x1 ![0, 0, 1] (shapeCast S128x32x2 v shapeCasts_S128x64_S128x32x2) slices_S128x32x2_o0_0_1_S128x32x1) shapeCasts_S128x32x1_S128x32

/-- The seven levels of a block of rows: level `d` has width `2^d`. -/
structure Levels (F : FTy → Type) [FloatOps F] where
  l0 : FVec F S128x1 .f32
  l1 : FVec F S128x2 .f32
  l2 : FVec F S128x4 .f32
  l3 : FVec F S128x8 .f32
  l4 : FVec F S128x16 .f32
  l5 : FVec F S128x32 .f32
  l6 : FVec F S128x64 .f32

/-- The split scores of the block: the product of the block of rows with the score matrix, contracted along the features. -/
def xaK (x0 : Vec F S128x512 .f32) (x1 : Vec F S63x512 .f32) : FVec F S128x63 .f32 := pv2 x0 x1

/-! ## The seed -/

/-- The level-0 split scores: columns `0 … 0`. -/
def xs0 (xa : FVec F S128x63 .f32) : FVec F S128x1 .f32 :=
  extractStridedSlice S128x1 ![0, 0] xa slices_S128x63_o0_0_S128x1
/-- The seed's left children below level 0: `min 1 a`. -/
def left00 (xa : FVec F S128x63 .f32) : FVec F S128x1 .f32 :=
  minimumf (broadcast S128x1 (Scalar.ofBits .f32 0x3F800000#32)) (xs0 xa)
/-- The level-1 split scores: columns `1 … 2`. -/
def xs1 (xa : FVec F S128x63 .f32) : FVec F S128x2 .f32 :=
  extractStridedSlice S128x2 ![0, 1] xa slices_S128x63_o0_1_S128x2
/-- The seed's left children below level 1: `min 1 a`. -/
def left01 (xa : FVec F S128x63 .f32) : FVec F S128x2 .f32 :=
  minimumf (broadcast S128x2 (Scalar.ofBits .f32 0x3F800000#32)) (xs1 xa)
/-- The level-2 split scores: columns `3 … 6`. -/
def xs2 (xa : FVec F S128x63 .f32) : FVec F S128x4 .f32 :=
  extractStridedSlice S128x4 ![0, 3] xa slices_S128x63_o0_3_S128x4
/-- The seed's left children below level 2: `min 1 a`. -/
def left02 (xa : FVec F S128x63 .f32) : FVec F S128x4 .f32 :=
  minimumf (broadcast S128x4 (Scalar.ofBits .f32 0x3F800000#32)) (xs2 xa)
/-- The level-3 split scores: columns `7 … 14`. -/
def xs3 (xa : FVec F S128x63 .f32) : FVec F S128x8 .f32 :=
  extractStridedSlice S128x8 ![0, 7] xa slices_S128x63_o0_7_S128x8
/-- The seed's left children below level 3: `min 1 a`. -/
def left03 (xa : FVec F S128x63 .f32) : FVec F S128x8 .f32 :=
  minimumf (broadcast S128x8 (Scalar.ofBits .f32 0x3F800000#32)) (xs3 xa)
/-- The level-4 split scores: columns `15 … 30`. -/
def xs4 (xa : FVec F S128x63 .f32) : FVec F S128x16 .f32 :=
  extractStridedSlice S128x16 ![0, 15] xa slices_S128x63_o0_15_S128x16
/-- The seed's left children below level 4: `min 1 a`. -/
def left04 (xa : FVec F S128x63 .f32) : FVec F S128x16 .f32 :=
  minimumf (broadcast S128x16 (Scalar.ofBits .f32 0x3F800000#32)) (xs4 xa)
/-- The level-5 split scores: columns `31 … 62`. -/
def xs5 (xa : FVec F S128x63 .f32) : FVec F S128x32 .f32 :=
  extractStridedSlice S128x32 ![0, 31] xa slices_S128x63_o0_31_S128x32
/-- The seed's left children below level 5: `min 1 a`. -/
def left05 (xa : FVec F S128x63 .f32) : FVec F S128x32 .f32 :=
  minimumf (broadcast S128x32 (Scalar.ofBits .f32 0x3F800000#32)) (xs5 xa)
/-- Level 0 read after the seed's left write: the root, one. -/
def post10 (xa : FVec F S128x63 .f32) : FVec F S128x1 .f32 :=
  broadcast S128x1 (Scalar.ofBits .f32 0x3F800000#32)
/-- Level 1 read after the seed's left write: its left children written, its right children still one. -/
def post11 (xa : FVec F S128x63 .f32) : FVec F S128x2 .f32 :=
  ileave0 (left00 xa) (broadcast S128x1 (Scalar.ofBits .f32 0x3F800000#32))
/-- Level 2 read after the seed's left write: its left children written, its right children still one. -/
def post12 (xa : FVec F S128x63 .f32) : FVec F S128x4 .f32 :=
  ileave1 (left01 xa) (broadcast S128x2 (Scalar.ofBits .f32 0x3F800000#32))
/-- Level 3 read after the seed's left write: its left children written, its right children still one. -/
def post13 (xa : FVec F S128x63 .f32) : FVec F S128x8 .f32 :=
  ileave2 (left02 xa) (broadcast S128x4 (Scalar.ofBits .f32 0x3F800000#32))
/-- Level 4 read after the seed's left write: its left children written, its right children still one. -/
def post14 (xa : FVec F S128x63 .f32) : FVec F S128x16 .f32 :=
  ileave3 (left03 xa) (broadcast S128x8 (Scalar.ofBits .f32 0x3F800000#32))
/-- Level 5 read after the seed's left write: its left children written, its right children still one. -/
def post15 (xa : FVec F S128x63 .f32) : FVec F S128x32 .f32 :=
  ileave4 (left04 xa) (broadcast S128x16 (Scalar.ofBits .f32 0x3F800000#32))
/-- The seed's right children below level 0: `min (parent after the left write) (0 - a)`. -/
def right00 (xa : FVec F S128x63 .f32) : FVec F S128x1 .f32 :=
  minimumf (post10 xa) (subf (broadcast S128x1 (Scalar.ofBits .f32 0x00000000#32)) (xs0 xa))
/-- The seed's right children below level 1: `min (parent after the left write) (0 - a)`. -/
def right01 (xa : FVec F S128x63 .f32) : FVec F S128x2 .f32 :=
  minimumf (post11 xa) (subf (broadcast S128x2 (Scalar.ofBits .f32 0x00000000#32)) (xs1 xa))
/-- The seed's right children below level 2: `min (parent after the left write) (0 - a)`. -/
def right02 (xa : FVec F S128x63 .f32) : FVec F S128x4 .f32 :=
  minimumf (post12 xa) (subf (broadcast S128x4 (Scalar.ofBits .f32 0x00000000#32)) (xs2 xa))
/-- The seed's right children below level 3: `min (parent after the left write) (0 - a)`. -/
def right03 (xa : FVec F S128x63 .f32) : FVec F S128x8 .f32 :=
  minimumf (post13 xa) (subf (broadcast S128x8 (Scalar.ofBits .f32 0x00000000#32)) (xs3 xa))
/-- The seed's right children below level 4: `min (parent after the left write) (0 - a)`. -/
def right04 (xa : FVec F S128x63 .f32) : FVec F S128x16 .f32 :=
  minimumf (post14 xa) (subf (broadcast S128x16 (Scalar.ofBits .f32 0x00000000#32)) (xs4 xa))
/-- The seed's right children below level 5: `min (parent after the left write) (0 - a)`. -/
def right05 (xa : FVec F S128x63 .f32) : FVec F S128x32 .f32 :=
  minimumf (post15 xa) (subf (broadcast S128x32 (Scalar.ofBits .f32 0x00000000#32)) (xs5 xa))
/-- The levels after the seed. -/
def kSeed (xa : FVec F S128x63 .f32) : Levels F where
  l0 := broadcast S128x1 (Scalar.ofBits .f32 0x3F800000#32)
  l1 := ileave0 (left00 xa) (right00 xa)
  l2 := ileave1 (left01 xa) (right01 xa)
  l3 := ileave2 (left02 xa) (right02 xa)
  l4 := ileave3 (left03 xa) (right03 xa)
  l5 := ileave4 (left04 xa) (right04 xa)
  l6 := ileave5 (left05 xa) (right05 xa)

/-! ## One sweep -/

/-- The new left children below level 0: `min (the old left child) (its parent)`. -/
def ln0 (L : Levels F) : FVec F S128x1 .f32 := minimumf (lane00 L.l1) L.l0
/-- The new left children below level 1: `min (the old left child) (its parent)`. -/
def ln1 (L : Levels F) : FVec F S128x2 .f32 := minimumf (lane01 L.l2) L.l1
/-- The new left children below level 2: `min (the old left child) (its parent)`. -/
def ln2 (L : Levels F) : FVec F S128x4 .f32 := minimumf (lane02 L.l3) L.l2
/-- The new left children below level 3: `min (the old left child) (its parent)`. -/
def ln3 (L : Levels F) : FVec F S128x8 .f32 := minimumf (lane03 L.l4) L.l3
/-- The new left children below level 4: `min (the old left child) (its parent)`. -/
def ln4 (L : Levels F) : FVec F S128x16 .f32 := minimumf (lane04 L.l5) L.l4
/-- The new left children below level 5: `min (the old left child) (its parent)`. -/
def ln5 (L : Levels F) : FVec F S128x32 .f32 := minimumf (lane05 L.l6) L.l5
/-- Level 0 read after the sweep's left write: unchanged. -/
def pa0 (L : Levels F) : FVec F S128x1 .f32 := L.l0
/-- Level 1 read after the sweep's left write: its left children new, its right children old. -/
def pa1 (L : Levels F) : FVec F S128x2 .f32 := ileave0 (ln0 L) (lane10 L.l1)
/-- Level 2 read after the sweep's left write: its left children new, its right children old. -/
def pa2 (L : Levels F) : FVec F S128x4 .f32 := ileave1 (ln1 L) (lane11 L.l2)
/-- Level 3 read after the sweep's left write: its left children new, its right children old. -/
def pa3 (L : Levels F) : FVec F S128x8 .f32 := ileave2 (ln2 L) (lane12 L.l3)
/-- Level 4 read after the sweep's left write: its left children new, its right children old. -/
def pa4 (L : Levels F) : FVec F S128x16 .f32 := ileave3 (ln3 L) (lane13 L.l4)
/-- Level 5 read after the sweep's left write: its left children new, its right children old. -/
def pa5 (L : Levels F) : FVec F S128x32 .f32 := ileave4 (ln4 L) (lane14 L.l5)
/-- The new right children below level 0: `min (the old right child) (its parent after the left write)`. -/
def rn0 (L : Levels F) : FVec F S128x1 .f32 := minimumf (lane10 L.l1) (pa0 L)
/-- The new right children below level 1: `min (the old right child) (its parent after the left write)`. -/
def rn1 (L : Levels F) : FVec F S128x2 .f32 := minimumf (lane11 L.l2) (pa1 L)
/-- The new right children below level 2: `min (the old right child) (its parent after the left write)`. -/
def rn2 (L : Levels F) : FVec F S128x4 .f32 := minimumf (lane12 L.l3) (pa2 L)
/-- The new right children below level 3: `min (the old right child) (its parent after the left write)`. -/
def rn3 (L : Levels F) : FVec F S128x8 .f32 := minimumf (lane13 L.l4) (pa3 L)
/-- The new right children below level 4: `min (the old right child) (its parent after the left write)`. -/
def rn4 (L : Levels F) : FVec F S128x16 .f32 := minimumf (lane14 L.l5) (pa4 L)
/-- The new right children below level 5: `min (the old right child) (its parent after the left write)`. -/
def rn5 (L : Levels F) : FVec F S128x32 .f32 := minimumf (lane15 L.l6) (pa5 L)
/-- The levels after one sweep. -/
def kSweep (L : Levels F) : Levels F where
  l0 := L.l0
  l1 := ileave0 (ln0 L) (rn0 L)
  l2 := ileave1 (ln1 L) (rn1 L)
  l3 := ileave2 (ln2 L) (rn2 L)
  l4 := ileave3 (ln3 L) (rn3 L)
  l5 := ileave4 (ln4 L) (rn4 L)
  l6 := ileave5 (ln5 L) (rn5 L)

/-- The levels after the seed and `s` sweeps. -/
def lev (xa : FVec F S128x63 .f32) : Nat → Levels F
  | 0 => kSeed xa
  | s + 1 => kSweep (lev xa s)

/-- The row: the seven levels side by side along the node axis. -/
def kCat (L : Levels F) : FVec F S128x127 .f32 :=
  concatenate S128x127 1 [⟨S128x1, L.l0⟩, ⟨S128x2, L.l1⟩, ⟨S128x4, L.l2⟩, ⟨S128x8, L.l3⟩, ⟨S128x16, L.l4⟩, ⟨S128x32, L.l5⟩, ⟨S128x64, L.l6⟩] concatenates_S128x1_S128x2_S128x4_S128x8_S128x16_S128x32_S128x64_S128x127_d1

/-- The clip into `[0, 1]`: `min 1 (max 0 ·)`. -/
def kClip (q : FVec F S128x127 .f32) : FVec F S128x127 .f32 :=
  k0_pay1 q (Scalar.ofBits .f32 0x00000000#32) (Scalar.ofBits .f32 0x3F800000#32)

/-- What the body stores for a block of rows `x0` and the score matrix `x1`. -/
def kOut (x0 : Vec F S128x512 .f32) (x1 : Vec F S63x512 .f32) : FVec F S128x127 .f32 :=
  kClip (kCat (lev (xaK x0 x1) 6))

end Cert.KVal

end
-- ==== Proof.KConn.lean ====
/-
  The value the printed body stores is the structured one.

  Among the body's named intermediate values are the seven levels that enter each sweep: the levels after the seed and
  after each of the first five sweeps. Each named level after a sweep equals, by unfolding definitions only, the same
  level of ONE structured sweep applied to the seven named levels before it: the values between two such rows are that
  sweep's own operations (lane, minimum, interleave) in the same order. Chaining the seed, the five named rows and the
  sixth sweep, whose levels are concatenated directly, gives the whole body: the concatenate of the levels after six
  sweeps, clipped into `[0, 1]`.
-/
import proofs.«119096_j25271587570082_2_alg».proof.Proof.KStruct

noncomputable section

namespace Cert.KVal

open Cert.KernelIdeal Cert.KernelIdeal.Gen Cert.KernelIdeal.GenP Idealize.ShloMosaic

variable {F : FTy → Type} [FloatOps F]

/-- Two rows of levels with the same seven levels are the same. -/
theorem levels_ext : ∀ {A B : Levels F}, A.l0 = B.l0 → A.l1 = B.l1 → A.l2 = B.l2 → A.l3 = B.l3 → A.l4 = B.l4 →
    A.l5 = B.l5 → A.l6 = B.l6 → A = B
  | ⟨_, _, _, _, _, _, _⟩, ⟨_, _, _, _, _, _, _⟩, rfl, rfl, rfl, rfl, rfl, rfl, rfl => rfl

/-- The levels after `s + 1` sweeps are one sweep of the levels after `s`. -/
theorem lev_succ (xa : FVec F S128x63 .f32) (s : Nat) : lev xa (s + 1) = kSweep (lev xa s) := rfl

variable (x0 : Vec F S128x512 .f32) (x1 : Vec F S63x512 .f32)

/-! ## The named levels: after the seed and after each of the first five sweeps -/

/-- The named values that are the seven levels after the seed. -/
def lvl0 : Levels F := ⟨pv15 x0 x1, pv16 x0 x1, pv17 x0 x1, pv18 x0 x1, pv19 x0 x1, pv20 x0 x1, pv22 x0 x1⟩
/-- The named values that are the seven levels after one sweep. -/
def lvl1 : Levels F := ⟨pv15 x0 x1, pv35 x0 x1, pv36 x0 x1, pv37 x0 x1, pv38 x0 x1, pv39 x0 x1, pv40 x0 x1⟩
/-- The named values that are the seven levels after 2 sweeps. -/
def lvl2 : Levels F := ⟨pv15 x0 x1, pv55 x0 x1, pv56 x0 x1, pv57 x0 x1, pv58 x0 x1, pv59 x0 x1, pv60 x0 x1⟩
/-- The named values that are the seven levels after 3 sweeps. -/
def lvl3 : Levels F := ⟨pv15 x0 x1, pv74 x0 x1, pv75 x0 x1, pv76 x0 x1, pv77 x0 x1, pv78 x0 x1, pv79 x0 x1⟩
/-- The named values that are the seven levels after 4 sweeps. -/
def lvl4 : Levels F := ⟨pv15 x0 x1, pv92 x0 x1, pv93 x0 x1, pv94 x0 x1, pv96 x0 x1, pv97 x0 x1, pv98 x0 x1⟩
/-- The named values that are the seven levels after 5 sweeps. -/
def lvl5 : Levels F := ⟨pv15 x0 x1, pv110 x0 x1, pv111 x0 x1, pv112 x0 x1, pv113 x0 x1, pv114 x0 x1, pv115 x0 x1⟩

/-! ## The seed -/

theorem seed_l0 : pv15 x0 x1 = (kSeed (xaK x0 x1)).l0 := rfl
theorem seed_l1 : pv16 x0 x1 = (kSeed (xaK x0 x1)).l1 := rfl
theorem seed_l2 : pv17 x0 x1 = (kSeed (xaK x0 x1)).l2 := rfl
theorem seed_l3 : pv18 x0 x1 = (kSeed (xaK x0 x1)).l3 := rfl
theorem seed_l4 : pv19 x0 x1 = (kSeed (xaK x0 x1)).l4 := rfl
theorem seed_l5 : pv20 x0 x1 = (kSeed (xaK x0 x1)).l5 := rfl
theorem seed_l6 : pv22 x0 x1 = (kSeed (xaK x0 x1)).l6 := rfl

/-- The named levels after the seed are the structured seed of the split scores. -/
theorem lvl0_eq : lvl0 x0 x1 = lev (xaK x0 x1) 0 :=
  levels_ext (seed_l0 x0 x1) (seed_l1 x0 x1) (seed_l2 x0 x1) (seed_l3 x0 x1) (seed_l4 x0 x1) (seed_l5 x0 x1) (seed_l6 x0 x1)

/-! ## Sweep 1: each named level after it is that level of one structured sweep of the named levels before it -/

theorem sw1_l0 : pv15 x0 x1 = (kSweep (lvl0 x0 x1)).l0 := rfl
theorem sw1_l1 : pv35 x0 x1 = (kSweep (lvl0 x0 x1)).l1 := rfl
theorem sw1_l2 : pv36 x0 x1 = (kSweep (lvl0 x0 x1)).l2 := rfl
theorem sw1_l3 : pv37 x0 x1 = (kSweep (lvl0 x0 x1)).l3 := rfl
theorem sw1_l4 : pv38 x0 x1 = (kSweep (lvl0 x0 x1)).l4 := rfl
theorem sw1_l5 : pv39 x0 x1 = (kSweep (lvl0 x0 x1)).l5 := rfl
theorem sw1_l6 : pv40 x0 x1 = (kSweep (lvl0 x0 x1)).l6 := rfl

/-- The named levels after one sweep. -/
theorem lvl1_eq : lvl1 x0 x1 = lev (xaK x0 x1) 1 := by
  rw [show lev (xaK x0 x1) 1 = kSweep (lev (xaK x0 x1) 0) from rfl, ← lvl0_eq]
  exact levels_ext (sw1_l0 x0 x1) (sw1_l1 x0 x1) (sw1_l2 x0 x1) (sw1_l3 x0 x1) (sw1_l4 x0 x1) (sw1_l5 x0 x1) (sw1_l6 x0 x1)

/-! ## Sweep 2: each named level after it is that level of one structured sweep of the named levels before it -/

theorem sw2_l0 : pv15 x0 x1 = (kSweep (lvl1 x0 x1)).l0 := rfl
theorem sw2_l1 : pv55 x0 x1 = (kSweep (lvl1 x0 x1)).l1 := rfl
theorem sw2_l2 : pv56 x0 x1 = (kSweep (lvl1 x0 x1)).l2 := rfl
theorem sw2_l3 : pv57 x0 x1 = (kSweep (lvl1 x0 x1)).l3 := rfl
theorem sw2_l4 : pv58 x0 x1 = (kSweep (lvl1 x0 x1)).l4 := rfl
theorem sw2_l5 : pv59 x0 x1 = (kSweep (lvl1 x0 x1)).l5 := rfl
theorem sw2_l6 : pv60 x0 x1 = (kSweep (lvl1 x0 x1)).l6 := rfl

/-- The named levels after 2 sweeps. -/
theorem lvl2_eq : lvl2 x0 x1 = lev (xaK x0 x1) 2 := by
  rw [show lev (xaK x0 x1) 2 = kSweep (lev (xaK x0 x1) 1) from rfl, ← lvl1_eq]
  exact levels_ext (sw2_l0 x0 x1) (sw2_l1 x0 x1) (sw2_l2 x0 x1) (sw2_l3 x0 x1) (sw2_l4 x0 x1) (sw2_l5 x0 x1) (sw2_l6 x0 x1)

/-! ## Sweep 3: each named level after it is that level of one structured sweep of the named levels before it -/

theorem sw3_l0 : pv15 x0 x1 = (kSweep (lvl2 x0 x1)).l0 := rfl
theorem sw3_l1 : pv74 x0 x1 = (kSweep (lvl2 x0 x1)).l1 := rfl
theorem sw3_l2 : pv75 x0 x1 = (kSweep (lvl2 x0 x1)).l2 := rfl
theorem sw3_l3 : pv76 x0 x1 = (kSweep (lvl2 x0 x1)).l3 := rfl
theorem sw3_l4 : pv77 x0 x1 = (kSweep (lvl2 x0 x1)).l4 := rfl
theorem sw3_l5 : pv78 x0 x1 = (kSweep (lvl2 x0 x1)).l5 := rfl
theorem sw3_l6 : pv79 x0 x1 = (kSweep (lvl2 x0 x1)).l6 := rfl

/-- The named levels after 3 sweeps. -/
theorem lvl3_eq : lvl3 x0 x1 = lev (xaK x0 x1) 3 := by
  rw [show lev (xaK x0 x1) 3 = kSweep (lev (xaK x0 x1) 2) from rfl, ← lvl2_eq]
  exact levels_ext (sw3_l0 x0 x1) (sw3_l1 x0 x1) (sw3_l2 x0 x1) (sw3_l3 x0 x1) (sw3_l4 x0 x1) (sw3_l5 x0 x1) (sw3_l6 x0 x1)

/-! ## Sweep 4: each named level after it is that level of one structured sweep of the named levels before it -/

theorem sw4_l0 : pv15 x0 x1 = (kSweep (lvl3 x0 x1)).l0 := rfl
theorem sw4_l1 : pv92 x0 x1 = (kSweep (lvl3 x0 x1)).l1 := rfl
theorem sw4_l2 : pv93 x0 x1 = (kSweep (lvl3 x0 x1)).l2 := rfl
theorem sw4_l3 : pv94 x0 x1 = (kSweep (lvl3 x0 x1)).l3 := rfl
theorem sw4_l4 : pv96 x0 x1 = (kSweep (lvl3 x0 x1)).l4 := rfl
theorem sw4_l5 : pv97 x0 x1 = (kSweep (lvl3 x0 x1)).l5 := rfl
theorem sw4_l6 : pv98 x0 x1 = (kSweep (lvl3 x0 x1)).l6 := rfl

/-- The named levels after 4 sweeps. -/
theorem lvl4_eq : lvl4 x0 x1 = lev (xaK x0 x1) 4 := by
  rw [show lev (xaK x0 x1) 4 = kSweep (lev (xaK x0 x1) 3) from rfl, ← lvl3_eq]
  exact levels_ext (sw4_l0 x0 x1) (sw4_l1 x0 x1) (sw4_l2 x0 x1) (sw4_l3 x0 x1) (sw4_l4 x0 x1) (sw4_l5 x0 x1) (sw4_l6 x0 x1)

/-! ## Sweep 5: each named level after it is that level of one structured sweep of the named levels before it -/

theorem sw5_l0 : pv15 x0 x1 = (kSweep (lvl4 x0 x1)).l0 := rfl
theorem sw5_l1 : pv110 x0 x1 = (kSweep (lvl4 x0 x1)).l1 := rfl
theorem sw5_l2 : pv111 x0 x1 = (kSweep (lvl4 x0 x1)).l2 := rfl
theorem sw5_l3 : pv112 x0 x1 = (kSweep (lvl4 x0 x1)).l3 := rfl
theorem sw5_l4 : pv113 x0 x1 = (kSweep (lvl4 x0 x1)).l4 := rfl
theorem sw5_l5 : pv114 x0 x1 = (kSweep (lvl4 x0 x1)).l5 := rfl
theorem sw5_l6 : pv115 x0 x1 = (kSweep (lvl4 x0 x1)).l6 := rfl

/-- The named levels after 5 sweeps. -/
theorem lvl5_eq : lvl5 x0 x1 = lev (xaK x0 x1) 5 := by
  rw [show lev (xaK x0 x1) 5 = kSweep (lev (xaK x0 x1) 4) from rfl, ← lvl4_eq]
  exact levels_ext (sw5_l0 x0 x1) (sw5_l1 x0 x1) (sw5_l2 x0 x1) (sw5_l3 x0 x1) (sw5_l4 x0 x1) (sw5_l5 x0 x1) (sw5_l6 x0 x1)

/-! ## The sixth sweep, the concatenate and the clip -/

/-! The sixth sweep's own values, over the named levels after five sweeps: its new left children below levels 2 … 5,
    the parents read after the left write at levels 2 … 5, and the joined children below levels 0 and 1 before they
    are flattened. -/

theorem s6_ln2 : pv119 x0 x1 = ln2 (lvl5 x0 x1) := rfl
theorem s6_ln3 : pv120 x0 x1 = ln3 (lvl5 x0 x1) := rfl
theorem s6_ln4 : pv121 x0 x1 = ln4 (lvl5 x0 x1) := rfl
theorem s6_ln5 : pv122 x0 x1 = ln5 (lvl5 x0 x1) := rfl
theorem s6_pa2 : pv124 x0 x1 = pa2 (lvl5 x0 x1) := rfl
theorem s6_pa3 : pv125 x0 x1 = pa3 (lvl5 x0 x1) := rfl
theorem s6_pa4 : pv126 x0 x1 = pa4 (lvl5 x0 x1) := rfl
theorem s6_pa5 : pv127 x0 x1 = pa5 (lvl5 x0 x1) := rfl
theorem s6_c0 : pv129 x0 x1 = concatenate S128x1x2 2 [⟨S128x1x1, shapeCast S128x1x1 (ln0 (lvl5 x0 x1)) shapeCasts_S128x1_S128x1x1⟩, ⟨S128x1x1, shapeCast S128x1x1 (rn0 (lvl5 x0 x1)) shapeCasts_S128x1_S128x1x1⟩] concatenates_S128x1x1_S128x1x1_S128x1x2_d2 := rfl
theorem s6_c1 : pv130 x0 x1 = concatenate S128x2x2 2 [⟨S128x2x1, shapeCast S128x2x1 (ln1 (lvl5 x0 x1)) shapeCasts_S128x2_S128x2x1⟩, ⟨S128x2x1, shapeCast S128x2x1 (rn1 (lvl5 x0 x1)) shapeCasts_S128x2_S128x2x1⟩] concatenates_S128x2x1_S128x2x1_S128x2x2_d2 := rfl

/-- The concatenated row is the concatenate of the levels after the sixth sweep of the named levels after five. -/
theorem cat_eq : pv131 x0 x1 = kCat (kSweep (lvl5 x0 x1)) := by
  unfold pv131
  rw [s6_ln2, s6_ln3, s6_ln4, s6_ln5, s6_pa2, s6_pa3, s6_pa4, s6_pa5, s6_c0, s6_c1]
  rfl

/-- The value the printed body stores is the structured one: the clipped concatenate of the levels after six sweeps. -/
theorem pv1_eq : Cert.KernelIdeal.GenP.pv1 x0 x1 = kOut x0 x1 := by
  show k0_pay1 (pv131 x0 x1) _ _ = k0_pay1 (kCat (kSweep (lev (xaK x0 x1) 5))) _ _
  rw [cat_eq, lvl5_eq]

end Cert.KVal

end
-- ==== Proof.KLayout.lean ====
/-
  Reading the interleaving operations one element at a time.

  A level of the tree with W nodes per row is a [n, W] array. Two such arrays are interleaved by viewing each as
  [n, W, 1], joining the two along the last axis into [n, W, 2], and viewing the result as [n, 2W]: entry 2j is the
  first array's entry j and entry 2j+1 the second's. Conversely the lanes of a [n, 2W] array are read by viewing it
  as [n, W, 2] and cutting the last axis at 0 or at 1. Each lemma below reads ONE of these operations at an index
  given by its coordinates; all of them hold for any element type.
-/
import Idealize.ShloMosaic.Lib.ValueLayout

namespace Cert.KLay

open Idealize.ShloMosaic Idealize.ShloMosaic.ValueIdx

variable {α : Type}

/-- An [n, W] array viewed as [n, W, 1] reads, at (r, j, u), the array at (r, j). -/
theorem cast_addLast {n W : Nat} (l : (⟨2, ![n, W]⟩ : Shape).Idx → α)
    (h : (⟨2, ![n, W]⟩ : Shape).ShapeCasts ⟨3, ![n, W, 1]⟩) (r : Fin n) (j : Fin W) (u : Fin 1) :
    shapeCast ⟨3, ![n, W, 1]⟩ l h (ix3 r j u) = l (ix2 r j) :=
  shapeCast_apply l h _ _ (by
    have hu : u.val = 0 := by omega
    rw [Shape.rowMajor_val_three, Shape.rowMajor_val_two]
    show r.val * W + j.val = (r.val * W + j.val) * 1 + u.val
    rw [hu, Nat.mul_one, Nat.add_zero])

/-- An [n, W, 1] array viewed as [n, W] reads, at (r, j), the array at (r, j, 0). -/
theorem cast_dropLast {n W : Nat} (v : (⟨3, ![n, W, 1]⟩ : Shape).Idx → α)
    (h : (⟨3, ![n, W, 1]⟩ : Shape).ShapeCasts ⟨2, ![n, W]⟩) (r : Fin n) (j : Fin W) :
    shapeCast ⟨2, ![n, W]⟩ v h (ix2 r j) = v (ix3 r j (0 : Fin 1)) :=
  shapeCast_apply v h _ _ (by
    rw [Shape.rowMajor_val_three, Shape.rowMajor_val_two]
    show (r.val * W + j.val) * 1 + 0 = r.val * W + j.val
    rw [Nat.mul_one, Nat.add_zero])

/-- An [n, W, 2] array viewed as [n, V], V = 2W, reads, at (r, k) with k = 2j + e, the array at (r, j, e). -/
theorem cast_merge {n W V : Nat} (hV : V = 2 * W) (v : (⟨3, ![n, W, 2]⟩ : Shape).Idx → α)
    (h : (⟨3, ![n, W, 2]⟩ : Shape).ShapeCasts ⟨2, ![n, V]⟩) (r : Fin n) (j : Fin W) (e : Fin 2) (k : Fin V)
    (hk : k.val = 2 * j.val + e.val) :
    shapeCast ⟨2, ![n, V]⟩ v h (ix2 r k) = v (ix3 r j e) :=
  shapeCast_apply v h _ _ (by
    rw [Shape.rowMajor_val_three, Shape.rowMajor_val_two]
    show (r.val * W + j.val) * 2 + e.val = r.val * V + k.val
    rw [hk, hV, Nat.add_mul, Nat.mul_assoc, Nat.mul_comm W 2, Nat.mul_comm j.val 2, Nat.add_assoc])

/-- An [n, V] array, V = 2W, viewed as [n, W, 2] reads, at (r, j, e), the array at (r, k) with k = 2j + e. -/
theorem cast_split {n W V : Nat} (hV : V = 2 * W) (v : (⟨2, ![n, V]⟩ : Shape).Idx → α)
    (h : (⟨2, ![n, V]⟩ : Shape).ShapeCasts ⟨3, ![n, W, 2]⟩) (r : Fin n) (j : Fin W) (e : Fin 2) (k : Fin V)
    (hk : k.val = 2 * j.val + e.val) :
    shapeCast ⟨3, ![n, W, 2]⟩ v h (ix3 r j e) = v (ix2 r k) :=
  shapeCast_apply v h _ _ (by
    rw [Shape.rowMajor_val_three, Shape.rowMajor_val_two]
    show r.val * V + k.val = (r.val * W + j.val) * 2 + e.val
    rw [hk, hV, Nat.add_mul, Nat.mul_assoc, Nat.mul_comm W 2, Nat.mul_comm j.val 2, Nat.add_assoc])

/-- Two [n, W, 1] arrays joined along the last axis read, at (r, j, 0), the first and, at (r, j, 1), the second. -/
theorem concat_last {n W : Nat} (a b : (⟨3, ![n, W, 1]⟩ : Shape).Idx → α)
    (h : Shape.Concatenates [(⟨3, ![n, W, 1]⟩ : Shape), ⟨3, ![n, W, 1]⟩] ⟨3, ![n, W, 2]⟩ 2)
    (r : Fin n) (j : Fin W) (e : Fin 2) :
    concatenate ⟨3, ![n, W, 2]⟩ 2 [⟨⟨3, ![n, W, 1]⟩, a⟩, ⟨⟨3, ![n, W, 1]⟩, b⟩] h (ix3 r j e)
      = if e.val = 0 then a (ix3 r j (0 : Fin 1)) else b (ix3 r j (0 : Fin 1)) := by
  by_cases he : e.val = 0
  · rw [if_pos he]
    refine concatenate_pair_apply_left _ a b h _ rfl (ix3 r j (0 : Fin 1)) fun c => ?_
    match c with
    | ⟨0, _⟩ => rfl
    | ⟨1, _⟩ => rfl
    | ⟨2, _⟩ => exact he.symm
  · rw [if_neg he]
    have he1 : e.val = 1 := by omega
    refine concatenate_pair_apply_right _ a b h _ rfl rfl (ix3 r j (0 : Fin 1)) (fun c hc => ?_) ?_
    · match c with
      | ⟨0, _⟩ => rfl
      | ⟨1, _⟩ => rfl
      | ⟨2, _⟩ => exact absurd rfl hc
    · show 0 + 1 = e.val
      omega

/-- An [n, W, 2] array cut along its last axis at o (0 or 1) reads, at (r, j, u), the array at (r, j, o). -/
theorem slice_lane {n W : Nat} (o : Nat) (v : (⟨3, ![n, W, 2]⟩ : Shape).Idx → α)
    (h : (⟨3, ![n, W, 2]⟩ : Shape).Slices ![0, 0, o] ⟨3, ![n, W, 1]⟩) (r : Fin n) (j : Fin W) (u : Fin 1)
    (e : Fin 2) (he : e.val = o) :
    extractStridedSlice ⟨3, ![n, W, 1]⟩ ![0, 0, o] v h (ix3 r j u) = v (ix3 r j e) :=
  extractStridedSlice_apply _ _ _ _ _ (fun ax => by
    match ax with
    | ⟨0, _⟩ => exact (Nat.zero_add _).symm
    | ⟨1, _⟩ => exact (Nat.zero_add _).symm
    | ⟨2, _⟩ =>
      have hu : u.val = 0 := by omega
      show e.val = o + u.val
      omega)

/-! ### The two compositions -/

/-- Interleaving: two [n, W] arrays, each viewed as [n, W, 1], joined along the last axis and viewed as [n, V] with
    V = 2W, read at (i, k) with k = 2j + e: the first array at (i, j) when e = 0, the second when e = 1. -/
theorem ileave_apply {n W V : Nat} (hV : V = 2 * W) (l r : (⟨2, ![n, W]⟩ : Shape).Idx → α)
    (h1 : (⟨2, ![n, W]⟩ : Shape).ShapeCasts ⟨3, ![n, W, 1]⟩)
    (hc : Shape.Concatenates [(⟨3, ![n, W, 1]⟩ : Shape), ⟨3, ![n, W, 1]⟩] ⟨3, ![n, W, 2]⟩ 2)
    (h2 : (⟨3, ![n, W, 2]⟩ : Shape).ShapeCasts ⟨2, ![n, V]⟩)
    (i : Fin n) (j : Fin W) (e : Fin 2) (k : Fin V) (hk : k.val = 2 * j.val + e.val) :
    shapeCast ⟨2, ![n, V]⟩ (concatenate ⟨3, ![n, W, 2]⟩ 2
        [⟨⟨3, ![n, W, 1]⟩, shapeCast ⟨3, ![n, W, 1]⟩ l h1⟩, ⟨⟨3, ![n, W, 1]⟩, shapeCast ⟨3, ![n, W, 1]⟩ r h1⟩] hc) h2 (ix2 i k)
      = if e.val = 0 then l (ix2 i j) else r (ix2 i j) := by
  rw [cast_merge hV _ h2 i j e k hk, concat_last _ _ hc i j e, cast_addLast l h1 i j 0, cast_addLast r h1 i j 0]

/-- A lane: an [n, V] array, V = 2W, viewed as [n, W, 2], cut along the last axis at o (0 or 1) and viewed as
    [n, W], reads at (i, j) the array at (i, k) with k = 2j + o. -/
theorem lane_apply {n W V : Nat} (hV : V = 2 * W) (o : Nat) (ho : o < 2) (v : (⟨2, ![n, V]⟩ : Shape).Idx → α)
    (h1 : (⟨2, ![n, V]⟩ : Shape).ShapeCasts ⟨3, ![n, W, 2]⟩)
    (hs : (⟨3, ![n, W, 2]⟩ : Shape).Slices ![0, 0, o] ⟨3, ![n, W, 1]⟩)
    (h2 : (⟨3, ![n, W, 1]⟩ : Shape).ShapeCasts ⟨2, ![n, W]⟩)
    (i : Fin n) (j : Fin W) (k : Fin V) (hk : k.val = 2 * j.val + o) :
    shapeCast ⟨2, ![n, W]⟩ (extractStridedSlice ⟨3, ![n, W, 1]⟩ ![0, 0, o]
        (shapeCast ⟨3, ![n, W, 2]⟩ v h1) hs) h2 (ix2 i j) = v (ix2 i k) := by
  rw [cast_dropLast _ h2 i j, slice_lane o _ hs i j 0 ⟨o, ho⟩ rfl, cast_split hV v h1 i j ⟨o, ho⟩ k hk]

end Cert.KLay
-- ==== Proof.KMatmul.lean ====
/-
  The product of the rows of two matrices, read one entry at a time.

  For A of shape [m, k] and B of shape [n, k], the contraction of the second axis of each with no batch axis has, at
  (a, b), the entry ∑ c, A (a, c) * B (b, c) once the accumulator is the zero array: the contraction index is its one
  coordinate c, the left operand is read at (a, c) and the right one at (b, c).
-/
import Idealize.ShloMosaic.PureOps.Ideal.Laws
import Idealize.ShloMosaic.Lib.ValueLayout

open scoped BigOperators

namespace Cert.KLay

open Idealize.ShloMosaic Idealize.ShloMosaic.ValueIdx

/-- A [m, k] by [n, k] product over the shared last axis, into the zero accumulator, at (a, b). -/
theorem matmul_rows_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.KLay
-- ==== Proof.KXa.lean ====
/-
  The kernel's product: the block of the first input times the transposed second input, one entry at a time. Both
  inputs are read whole, the change of format is the identity on extended reals, and the accumulator is the zero
  array, so entry (r, t) is the sum over k of x0 (r, k) * x1 (t, k).
-/
import proofs.«119096_j25271587570082_2_alg».proof.Proof.KernelIdealDag
import proofs.«119096_j25271587570082_2_alg».proof.Proof.KMatmul

open scoped BigOperators

noncomputable section

namespace Cert.KLay

open Cert.KernelIdeal Cert.KernelIdeal.Gen Cert.KernelIdeal.GenP Idealize.ShloMosaic Idealize.ShloMosaic.ValueIdx

/-- The product payload at (r, t). -/
theorem pv2_apply (x0 : Vec Ideal S128x512 .f32) (x1 : Vec Ideal S63x512 .f32) (r : Fin 128) (t : Fin 63) :
    pv2 (F := Ideal) x0 x1 (ix2 r t) = ∑ k : Fin 512, x0 (ix2 r k) * x1 (ix2 t k) := by
  unfold pv2 k0_pay2
  have e0 : View.ld x0 r0_0 = x0 :=
    View.ld_unit_zero (funext fun a => by match a with | ⟨0, _⟩ => rfl | ⟨1, _⟩ => rfl) _ x0
  have e1 : View.ld x1 r0_1 = x1 :=
    View.ld_unit_zero (funext fun a => by match a with | ⟨0, _⟩ => rfl | ⟨1, _⟩ => rfl) _ x1
  rw [e0, e1]
  exact matmul_rows_apply dot_S128x512_S63x512_S128x63_1_1_0_0_n_n_wf none
    (truncf .bf16 x0 bitsLt_bf16_f32) (truncf .bf16 x1 bitsLt_bf16_f32) r t

end Cert.KLay

end
-- ==== Proof.KSpec.lean ====
/-
  The seed and the sweep of the tree, read one node at a time.

  A node n > 0 of the heap-ordered tree is the left child of m when n = 2m + 1 and the right child of m when
  n = 2m + 2. The seed and the sweep each write the left children first and the right children second, the second
  write reading the row the first one left: mid q is the row between the two writes of a sweep, seedMid c1 a the
  row between the two writes of the seed.
-/
import proofs.«119096_j25271587570082_2_alg».proof.Proof.Spec

noncomputable section

namespace Cert.KTree

open Cert.Tree

/-- The row a sweep leaves after its first write: every left child against its parent. -/
def mid (q : Row) : Row := putOdd q (fun t => min (lft q t) (par q t))

/-- The row the seed leaves after its first write. -/
def seedMid (c1 : EReal) (a : Fin 63 → EReal) : Row :=
  putOdd (fun _ => c1) (fun t => min (par (fun _ => c1) t) (a t))

theorem sweep_eq (q : Row) :
    sweep q = putEven (mid q) (fun t => min (rgt (mid q) t) (par (mid q) t)) := rfl

theorem seed_eq (c1 : EReal) (a : Fin 63 → EReal) :
    seed c1 a = putEven (seedMid c1 a) (fun t => min (par (seedMid c1 a) t) (-(a t))) := rfl

/-- The first write at a left child. -/
theorem putOdd_odd (q : Row) (u : Fin 63 → EReal) (n : Fin 127) (t : Fin 63) (h : n.val = 2 * t.val + 1) :
    putOdd q u n = u t := by
  unfold putOdd
  have h1 : n.val % 2 = 1 := by omega
  rw [dif_pos h1]
  congr 1
  exact Fin.ext (by show n.val / 2 = t.val; omega)

/-- The first write leaves the even nodes. -/
theorem putOdd_even (q : Row) (u : Fin 63 → EReal) (n : Fin 127) (h : n.val % 2 = 0) : putOdd q u n = q n := by
  unfold putOdd
  have h1 : ¬ n.val % 2 = 1 := by omega
  rw [dif_neg h1]

/-- The second write at a right child. -/
theorem putEven_even (q : Row) (u : Fin 63 → EReal) (n : Fin 127) (t : Fin 63) (h : n.val = 2 * t.val + 2) :
    putEven q u n = u t := by
  unfold putEven
  have h1 : n.val % 2 = 0 ∧ 0 < n.val := by omega
  rw [dif_pos h1]
  congr 1
  exact Fin.ext (by show n.val / 2 - 1 = t.val; omega)

/-- The second write leaves the odd nodes. -/
theorem putEven_odd (q : Row) (u : Fin 63 → EReal) (n : Fin 127) (h : n.val % 2 = 1) : putEven q u n = q n := by
  unfold putEven
  have h1 : ¬ (n.val % 2 = 0 ∧ 0 < n.val) := by omega
  rw [dif_neg h1]

/-- The second write leaves the root. -/
theorem putEven_root (q : Row) (u : Fin 63 → EReal) (n : Fin 127) (h : n.val = 0) : putEven q u n = q n := by
  unfold putEven
  have h1 : ¬ (n.val % 2 = 0 ∧ 0 < n.val) := by omega
  rw [dif_neg h1]

/-! ### The sweep -/

/-- Between the two writes a left child holds the smaller of itself and its parent. -/
theorem mid_odd (q : Row) (n m : Fin 127) (h : n.val = 2 * m.val + 1) : mid q n = min (q n) (q m) := by
  have hm : m.val < 63 := by have := n.isLt; omega
  unfold mid
  rw [putOdd_odd q _ n ⟨m.val, hm⟩ h]
  show min (q ⟨2 * m.val + 1, _⟩) (q ⟨m.val, _⟩) = _
  congr 2
  exact Fin.ext h.symm

/-- Between the two writes an even node holds what it held. -/
theorem mid_even (q : Row) (n : Fin 127) (h : n.val % 2 = 0) : mid q n = q n := putOdd_even q _ n h

/-- After the sweep an odd node holds what it held between the writes. -/
theorem sweep_odd (q : Row) (n : Fin 127) (h : n.val % 2 = 1) : sweep q n = mid q n := by
  rw [sweep_eq]; exact putEven_odd _ _ n h

/-- After the sweep the root holds what it held. -/
theorem sweep_root (q : Row) (n : Fin 127) (h : n.val = 0) : sweep q n = q n := by
  rw [sweep_eq, putEven_root _ _ n h]; exact mid_even q n (by omega)

/-- After the sweep a right child holds the smaller of itself and its parent as the first write left it. -/
theorem sweep_even (q : Row) (n m : Fin 127) (h : n.val = 2 * m.val + 2) : sweep q n = min (q n) (mid q m) := by
  have hm : m.val < 63 := by have := n.isLt; omega
  rw [sweep_eq, putEven_even _ _ n ⟨m.val, hm⟩ h]
  show min (mid q ⟨2 * m.val + 2, _⟩) (mid q ⟨m.val, _⟩) = _
  have e1 : (⟨2 * m.val + 2, by omega⟩ : Fin 127) = n := Fin.ext h.symm
  rw [e1, mid_even q n (by omega)]

/-! ### The seed -/

/-- Between the seed's two writes a left child holds the smaller of the constant and its parent's score. -/
theorem seedMid_odd (c1 : EReal) (a : Fin 63 → EReal) (n : Fin 127) (t : Fin 63) (h : n.val = 2 * t.val + 1) :
    seedMid c1 a n = min c1 (a t) := by
  unfold seedMid
  rw [putOdd_odd _ _ n t h]
  rfl

/-- Between the seed's two writes an even node holds the constant. -/
theorem seedMid_even (c1 : EReal) (a : Fin 63 → EReal) (n : Fin 127) (h : n.val % 2 = 0) : seedMid c1 a n = c1 :=
  putOdd_even _ _ n h

/-- After the seed an odd node holds what it held between the writes. -/
theorem seed_odd (c1 : EReal) (a : Fin 63 → EReal) (n : Fin 127) (h : n.val % 2 = 1) : seed c1 a n = seedMid c1 a n := by
  rw [seed_eq]; exact putEven_odd _ _ n h

/-- After the seed the root holds the constant. -/
theorem seed_root (c1 : EReal) (a : Fin 63 → EReal) (n : Fin 127) (h : n.val = 0) : seed c1 a n = c1 := by
  rw [seed_eq, putEven_root _ _ n h]; exact seedMid_even c1 a n (by omega)

/-- After the seed a right child holds the smaller of its parent, as the first write left it, and the negated score. -/
theorem seed_even (c1 : EReal) (a : Fin 63 → EReal) (n m : Fin 127) (t : Fin 63) (h : n.val = 2 * t.val + 2)
    (hm : m.val = t.val) : seed c1 a n = min (seedMid c1 a m) (-(a t)) := by
  rw [seed_eq, putEven_even _ _ n t h]
  show min (seedMid c1 a ⟨t.val, _⟩) (-(a t)) = _
  congr 2
  exact Fin.ext hm.symm

end Cert.KTree

end
-- ==== Proof.KReads.lean ====
/-
  A level of the tree as a vector, and the vector operations of the seed and of a sweep read against the row.

  A vector v of W values per row READS the row q along f at row r when its entry (r, j) is q at node f j. Level d
  of the tree (nodes o … o + W - 1 with o = W - 1) reads along j ↦ o + j; the left children of that level are the
  entries 2j of the next level, which starts at o' = 2o + 1: they read along j ↦ o' + 2j, the right children along
  j ↦ o' + 2j + 1. The lemmas below follow the seed and the sweep of the specification step by step in this
  vocabulary: each is stated for any width and any vectors satisfying the entrywise equations of the operation.
-/
import proofs.«119096_j25271587570082_2_alg».proof.Proof.KSpec
import Idealize.ShloMosaic.Lib.ValueLayout
import Idealize.ShloMosaic.PureOps.Ideal.Laws

noncomputable section

namespace Cert.KLay

open Idealize.ShloMosaic Idealize.ShloMosaic.ValueIdx Cert.Tree Cert.KTree

/-- Entry (r, j) of v is the row q at node f j. -/
def Reads {W : Nat} (v : (⟨2, ![128, W]⟩ : Shape).Idx → EReal) (r : Fin 128) (f : Nat → Nat) (q : Row) : Prop :=
  ∀ (j : Fin W) (n : Fin 127), n.val = f j.val → v (ix2 r j) = q n

/-- Two rows that agree at the nodes a vector reads are read alike. -/
theorem Reads.congr {W : Nat} {v : (⟨2, ![128, W]⟩ : Shape).Idx → EReal} {r : Fin 128} {f : Nat → Nat} {q q' : Row}
    (h : Reads v r f q) (hq : ∀ (j : Fin W) (n : Fin 127), n.val = f j.val → q' n = q n) : Reads v r f q' :=
  fun j n hn => (h j n hn).trans (hq j n hn).symm

/-- The even entries of a vector that reads a level are the left children: they read along j ↦ o + 2j. -/
theorem reads_lane0 {W V : Nat} (v : (⟨2, ![128, V]⟩ : Shape).Idx → EReal) (u : (⟨2, ![128, W]⟩ : Shape).Idx → EReal)
    (r : Fin 128) (o : Nat) (q : Row) (hV : V = 2 * W)
    (hu : ∀ (j : Fin W) (k : Fin V), k.val = 2 * j.val + 0 → u (ix2 r j) = v (ix2 r k))
    (hv : Reads v r (fun k => o + k) q) : Reads u r (fun j => o + 2 * j) q := by
  intro j n hn
  have hj := j.isLt
  rw [hu j ⟨2 * j.val, by omega⟩ rfl]
  exact hv _ n hn

/-- The odd entries are the right children: they read along j ↦ o + 2j + 1. -/
theorem reads_lane1 {W V : Nat} (v : (⟨2, ![128, V]⟩ : Shape).Idx → EReal) (u : (⟨2, ![128, W]⟩ : Shape).Idx → EReal)
    (r : Fin 128) (o : Nat) (q : Row) (hV : V = 2 * W)
    (hu : ∀ (j : Fin W) (k : Fin V), k.val = 2 * j.val + 1 → u (ix2 r j) = v (ix2 r k))
    (hv : Reads v r (fun k => o + k) q) : Reads u r (fun j => o + 2 * j + 1) q := by
  intro j n hn
  have hj := j.isLt
  rw [hu j ⟨2 * j.val + 1, by omega⟩ rfl]
  exact hv _ n (by show n.val = o + (2 * j.val + 1); omega)

/-- The interleaving of the left children with the right children reads the level. -/
theorem reads_ileave {W V : Nat} (l rr : (⟨2, ![128, W]⟩ : Shape).Idx → EReal) (u : (⟨2, ![128, V]⟩ : Shape).Idx → EReal)
    (r : Fin 128) (o : Nat) (q : Row) (hV : V = 2 * W)
    (hu : ∀ (j : Fin W) (e : Fin 2) (k : Fin V), k.val = 2 * j.val + e.val →
      u (ix2 r k) = if e.val = 0 then l (ix2 r j) else rr (ix2 r j))
    (hl : Reads l r (fun j => o + 2 * j) q) (hr : Reads rr r (fun j => o + 2 * j + 1) q) :
    Reads u r (fun k => o + k) q := by
  intro k n hn
  have hn : n.val = o + k.val := hn
  have hk := k.isLt
  rw [hu ⟨k.val / 2, by omega⟩ ⟨k.val % 2, by omega⟩ k (by show k.val = 2 * (k.val / 2) + k.val % 2; omega)]
  by_cases he : k.val % 2 = 0
  · rw [if_pos he]
    exact hl _ n (by show n.val = o + 2 * (k.val / 2); omega)
  · rw [if_neg he]
    exact hr _ n (by show n.val = o + 2 * (k.val / 2) + 1; omega)

/-! ### A sweep -/

/-- The new left children: the smaller of the old left child and its parent, the row between the sweep's writes. -/
theorem reads_ln {W : Nat} (c p u : (⟨2, ![128, W]⟩ : Shape).Idx → EReal) (r : Fin 128) (o o' : Nat) (q : Row)
    (ho : o' = 2 * o + 1) (hb : o + W ≤ 63)
    (hu : ∀ j : Fin W, u (ix2 r j) = min (c (ix2 r j)) (p (ix2 r j)))
    (hc : Reads c r (fun j => o' + 2 * j) q) (hp : Reads p r (fun j => o + j) q) :
    Reads u r (fun j => o' + 2 * j) (mid q) := by
  intro j n hn
  have hj := j.isLt
  rw [hu j, hc j n hn, hp j ⟨o + j.val, by omega⟩ rfl]
  have hn : n.val = o' + 2 * j.val := hn
  exact (mid_odd q n ⟨o + j.val, by omega⟩ (by show n.val = 2 * (o + j.val) + 1; omega)).symm

/-- What a vector reads at even nodes it reads between the sweep's writes too. -/
theorem reads_mid_of_even {W : Nat} (v : (⟨2, ![128, W]⟩ : Shape).Idx → EReal) (r : Fin 128) (f : Nat → Nat) (q : Row)
    (hf : ∀ j : Fin W, f j.val % 2 = 0) (h : Reads v r f q) : Reads v r f (mid q) :=
  h.congr fun j n hn => mid_even q n (by rw [hn]; exact hf j)

/-- What a vector reads at odd nodes between the sweep's writes it reads after the sweep. -/
theorem reads_sweep_of_odd {W : Nat} (v : (⟨2, ![128, W]⟩ : Shape).Idx → EReal) (r : Fin 128) (f : Nat → Nat) (q : Row)
    (hf : ∀ j : Fin W, f j.val % 2 = 1) (h : Reads v r f (mid q)) : Reads v r f (sweep q) :=
  h.congr fun j n hn => sweep_odd q n (by rw [hn]; exact hf j)

/-- The root is kept by a sweep. -/
theorem reads_sweep_root (v : (⟨2, ![128, 1]⟩ : Shape).Idx → EReal) (r : Fin 128) (q : Row)
    (h : Reads v r (fun j => 0 + j) q) : Reads v r (fun j => 0 + j) (sweep q) :=
  h.congr fun j n hn => sweep_root q n (by have := j.isLt; have hn : n.val = 0 + j.val := hn; omega)

/-- The new right children: the smaller of the old right child and its parent as the first write left it. -/
theorem reads_rn {W : Nat} (c p u : (⟨2, ![128, W]⟩ : Shape).Idx → EReal) (r : Fin 128) (o o' : Nat) (q : Row)
    (ho : o' = 2 * o + 1) (hb : o + W ≤ 63)
    (hu : ∀ j : Fin W, u (ix2 r j) = min (c (ix2 r j)) (p (ix2 r j)))
    (hc : Reads c r (fun j => o' + 2 * j + 1) q) (hp : Reads p r (fun j => o + j) (mid q)) :
    Reads u r (fun j => o' + 2 * j + 1) (sweep q) := by
  intro j n hn
  have hj := j.isLt
  rw [hu j, hc j n hn, hp j ⟨o + j.val, by omega⟩ rfl]
  have hn : n.val = o' + 2 * j.val + 1 := hn
  exact (sweep_even q n ⟨o + j.val, by omega⟩ (by show n.val = 2 * (o + j.val) + 2; omega)).symm

/-! ### The seed -/

/-- The seed's left children: the smaller of the constant and the parent's score. -/
theorem reads_left0 {W : Nat} (xs u : (⟨2, ![128, W]⟩ : Shape).Idx → EReal) (xa : (⟨2, ![128, 63]⟩ : Shape).Idx → EReal)
    (c1 : EReal) (r : Fin 128) (o o' : Nat) (ho : o' = 2 * o + 1) (hb : o + W ≤ 63)
    (hu : ∀ j : Fin W, u (ix2 r j) = min c1 (xs (ix2 r j)))
    (hxs : ∀ (j : Fin W) (t : Fin 63), t.val = o + j.val → xs (ix2 r j) = xa (ix2 r t)) :
    Reads u r (fun j => o' + 2 * j) (seedMid c1 (fun t => xa (ix2 r t))) := by
  intro j n hn
  have hj := j.isLt
  rw [hu j, hxs j ⟨o + j.val, by omega⟩ rfl]
  have hn : n.val = o' + 2 * j.val := hn
  exact (seedMid_odd c1 (fun t => xa (ix2 r t)) n ⟨o + j.val, by omega⟩ (by show n.val = 2 * (o + j.val) + 1; omega)).symm

/-- The constant vector reads the row between the seed's writes at even nodes. -/
theorem reads_const_seedMid {W : Nat} (u : (⟨2, ![128, W]⟩ : Shape).Idx → EReal) (c1 : EReal) (a : Fin 63 → EReal)
    (r : Fin 128) (f : Nat → Nat) (hf : ∀ j : Fin W, f j.val % 2 = 0) (hu : ∀ j : Fin W, u (ix2 r j) = c1) :
    Reads u r f (seedMid c1 a) :=
  fun j n hn => (hu j).trans (seedMid_even c1 a n (by rw [hn]; exact hf j)).symm

/-- What a vector reads at odd nodes between the seed's writes it reads after the seed. -/
theorem reads_seed_of_odd {W : Nat} (v : (⟨2, ![128, W]⟩ : Shape).Idx → EReal) (r : Fin 128) (f : Nat → Nat)
    (c1 : EReal) (a : Fin 63 → EReal) (hf : ∀ j : Fin W, f j.val % 2 = 1) (h : Reads v r f (seedMid c1 a)) :
    Reads v r f (seed c1 a) :=
  h.congr fun j n hn => seed_odd c1 a n (by rw [hn]; exact hf j)

/-- The constant vector reads the seeded row at the root. -/
theorem reads_const_seed_root (u : (⟨2, ![128, 1]⟩ : Shape).Idx → EReal) (c1 : EReal) (a : Fin 63 → EReal)
    (r : Fin 128) (hu : ∀ j : Fin 1, u (ix2 r j) = c1) : Reads u r (fun j => 0 + j) (seed c1 a) :=
  fun j n hn => (hu j).trans (seed_root c1 a n (by have := j.isLt; have hn : n.val = 0 + j.val := hn; omega)).symm

/-- The seed's right children: the smaller of the parent, as the first write left it, and zero less the score. -/
theorem reads_right0 {W : Nat} (xs p u : (⟨2, ![128, W]⟩ : Shape).Idx → EReal) (xa : (⟨2, ![128, 63]⟩ : Shape).Idx → EReal)
    (c0 c1 : EReal) (hc0 : c0 = 0) (r : Fin 128) (o o' : Nat) (ho : o' = 2 * o + 1) (hb : o + W ≤ 63)
    (hu : ∀ j : Fin W, u (ix2 r j) = min (p (ix2 r j)) (c0 - xs (ix2 r j)))
    (hp : Reads p r (fun j => o + j) (seedMid c1 (fun t => xa (ix2 r t))))
    (hxs : ∀ (j : Fin W) (t : Fin 63), t.val = o + j.val → xs (ix2 r j) = xa (ix2 r t)) :
    Reads u r (fun j => o' + 2 * j + 1) (seed c1 (fun t => xa (ix2 r t))) := by
  intro j n hn
  have hj := j.isLt
  rw [hu j, hp j ⟨o + j.val, by omega⟩ rfl, hxs j ⟨o + j.val, by omega⟩ rfl, hc0, zero_sub]
  have hn : n.val = o' + 2 * j.val + 1 := hn
  exact (seed_even c1 (fun t => xa (ix2 r t)) n ⟨o + j.val, by omega⟩ ⟨o + j.val, by omega⟩ (by show n.val = 2 * (o + j.val) + 2; omega) rfl).symm

end Cert.KLay

end
-- ==== Proof.KValue.lean ====
/-
  What the kernel body stores, one entry at a time: entry (r, n) of the stored block is the specification's
  result at node n for the split scores of row r.

  The body keeps a row of the depth-6 tree as seven vectors, level d holding the 2^d nodes 2^d - 1 … 2^(d+1) - 2.
  Node t = 2^d - 1 + j of level d has its left child 2t + 1 at entry 2j of level d + 1 and its right child 2t + 2 at
  entry 2j + 1. So "the left children of a level" are the even entries of the next level and "the right children"
  its odd entries, and writing the children of a level is interleaving two vectors. With this dictionary the seed
  of the body is the seed of the specification (the body's 0 - x is the specification's -x) and a sweep of the body
  is a sweep of the specification, level by level: by induction the levels after s sweeps read the specification's
  row after s sweeps. The seven levels laid side by side are the row, and the clip is applied entrywise.
-/
import proofs.«119096_j25271587570082_2_alg».proof.Proof.KStruct
import proofs.«119096_j25271587570082_2_alg».proof.Proof.KLayout
import proofs.«119096_j25271587570082_2_alg».proof.Proof.KXa
import proofs.«119096_j25271587570082_2_alg».proof.Proof.KReads

open scoped BigOperators

noncomputable section

namespace Cert.KVal

open Cert.KernelIdeal Cert.KernelIdeal.Gen Cert.KernelIdeal.GenP Idealize.ShloMosaic Idealize.ShloMosaic.ValueIdx
open Cert.KLay Cert.Tree Cert.KTree

/-! ## Interleaving and lanes at an entry, level by level -/

/-- Entry 2j + e of two interleaved width-1 vectors. -/
theorem ileave0_apply (l r : FVec Ideal S128x1 .f32) (i : Fin 128) (j : Fin 1) (e : Fin 2) (k : Fin 2)
    (hk : k.val = 2 * j.val + e.val) :
    ileave0 l r (ix2 i k) = if e.val = 0 then l (ix2 i j) else r (ix2 i j) :=
  ileave_apply (n := 128) (W := 1) (V := 2) rfl l r _ _ _ i j e k hk
/-- Entry j of the even entries of a width-2 vector. -/
theorem lane00_apply (v : FVec Ideal S128x2 .f32) (i : Fin 128) (j : Fin 1) (k : Fin 2) (hk : k.val = 2 * j.val + 0) :
    lane00 v (ix2 i j) = v (ix2 i k) :=
  lane_apply (n := 128) (W := 1) (V := 2) rfl 0 (by omega) v _ _ _ i j k hk
/-- Entry j of the odd entries of a width-2 vector. -/
theorem lane10_apply (v : FVec Ideal S128x2 .f32) (i : Fin 128) (j : Fin 1) (k : Fin 2) (hk : k.val = 2 * j.val + 1) :
    lane10 v (ix2 i j) = v (ix2 i k) :=
  lane_apply (n := 128) (W := 1) (V := 2) rfl 1 (by omega) v _ _ _ i j k hk

/-- Entry 2j + e of two interleaved width-2 vectors. -/
theorem ileave1_apply (l r : FVec Ideal S128x2 .f32) (i : Fin 128) (j : Fin 2) (e : Fin 2) (k : Fin 4)
    (hk : k.val = 2 * j.val + e.val) :
    ileave1 l r (ix2 i k) = if e.val = 0 then l (ix2 i j) else r (ix2 i j) :=
  ileave_apply (n := 128) (W := 2) (V := 4) rfl l r _ _ _ i j e k hk
/-- Entry j of the even entries of a width-4 vector. -/
theorem lane01_apply (v : FVec Ideal S128x4 .f32) (i : Fin 128) (j : Fin 2) (k : Fin 4) (hk : k.val = 2 * j.val + 0) :
    lane01 v (ix2 i j) = v (ix2 i k) :=
  lane_apply (n := 128) (W := 2) (V := 4) rfl 0 (by omega) v _ _ _ i j k hk
/-- Entry j of the odd entries of a width-4 vector. -/
theorem lane11_apply (v : FVec Ideal S128x4 .f32) (i : Fin 128) (j : Fin 2) (k : Fin 4) (hk : k.val = 2 * j.val + 1) :
    lane11 v (ix2 i j) = v (ix2 i k) :=
  lane_apply (n := 128) (W := 2) (V := 4) rfl 1 (by omega) v _ _ _ i j k hk

/-- Entry 2j + e of two interleaved width-4 vectors. -/
theorem ileave2_apply (l r : FVec Ideal S128x4 .f32) (i : Fin 128) (j : Fin 4) (e : Fin 2) (k : Fin 8)
    (hk : k.val = 2 * j.val + e.val) :
    ileave2 l r (ix2 i k) = if e.val = 0 then l (ix2 i j) else r (ix2 i j) :=
  ileave_apply (n := 128) (W := 4) (V := 8) rfl l r _ _ _ i j e k hk
/-- Entry j of the even entries of a width-8 vector. -/
theorem lane02_apply (v : FVec Ideal S128x8 .f32) (i : Fin 128) (j : Fin 4) (k : Fin 8) (hk : k.val = 2 * j.val + 0) :
    lane02 v (ix2 i j) = v (ix2 i k) :=
  lane_apply (n := 128) (W := 4) (V := 8) rfl 0 (by omega) v _ _ _ i j k hk
/-- Entry j of the odd entries of a width-8 vector. -/
theorem lane12_apply (v : FVec Ideal S128x8 .f32) (i : Fin 128) (j : Fin 4) (k : Fin 8) (hk : k.val = 2 * j.val + 1) :
    lane12 v (ix2 i j) = v (ix2 i k) :=
  lane_apply (n := 128) (W := 4) (V := 8) rfl 1 (by omega) v _ _ _ i j k hk

/-- Entry 2j + e of two interleaved width-8 vectors. -/
theorem ileave3_apply (l r : FVec Ideal S128x8 .f32) (i : Fin 128) (j : Fin 8) (e : Fin 2) (k : Fin 16)
    (hk : k.val = 2 * j.val + e.val) :
    ileave3 l r (ix2 i k) = if e.val = 0 then l (ix2 i j) else r (ix2 i j) :=
  ileave_apply (n := 128) (W := 8) (V := 16) rfl l r _ _ _ i j e k hk
/-- Entry j of the even entries of a width-16 vector. -/
theorem lane03_apply (v : FVec Ideal S128x16 .f32) (i : Fin 128) (j : Fin 8) (k : Fin 16) (hk : k.val = 2 * j.val + 0) :
    lane03 v (ix2 i j) = v (ix2 i k) :=
  lane_apply (n := 128) (W := 8) (V := 16) rfl 0 (by omega) v _ _ _ i j k hk
/-- Entry j of the odd entries of a width-16 vector. -/
theorem lane13_apply (v : FVec Ideal S128x16 .f32) (i : Fin 128) (j : Fin 8) (k : Fin 16) (hk : k.val = 2 * j.val + 1) :
    lane13 v (ix2 i j) = v (ix2 i k) :=
  lane_apply (n := 128) (W := 8) (V := 16) rfl 1 (by omega) v _ _ _ i j k hk

/-- Entry 2j + e of two interleaved width-16 vectors. -/
theorem ileave4_apply (l r : FVec Ideal S128x16 .f32) (i : Fin 128) (j : Fin 16) (e : Fin 2) (k : Fin 32)
    (hk : k.val = 2 * j.val + e.val) :
    ileave4 l r (ix2 i k) = if e.val = 0 then l (ix2 i j) else r (ix2 i j) :=
  ileave_apply (n := 128) (W := 16) (V := 32) rfl l r _ _ _ i j e k hk
/-- Entry j of the even entries of a width-32 vector. -/
theorem lane04_apply (v : FVec Ideal S128x32 .f32) (i : Fin 128) (j : Fin 16) (k : Fin 32) (hk : k.val = 2 * j.val + 0) :
    lane04 v (ix2 i j) = v (ix2 i k) :=
  lane_apply (n := 128) (W := 16) (V := 32) rfl 0 (by omega) v _ _ _ i j k hk
/-- Entry j of the odd entries of a width-32 vector. -/
theorem lane14_apply (v : FVec Ideal S128x32 .f32) (i : Fin 128) (j : Fin 16) (k : Fin 32) (hk : k.val = 2 * j.val + 1) :
    lane14 v (ix2 i j) = v (ix2 i k) :=
  lane_apply (n := 128) (W := 16) (V := 32) rfl 1 (by omega) v _ _ _ i j k hk

/-- Entry 2j + e of two interleaved width-32 vectors. -/
theorem ileave5_apply (l r : FVec Ideal S128x32 .f32) (i : Fin 128) (j : Fin 32) (e : Fin 2) (k : Fin 64)
    (hk : k.val = 2 * j.val + e.val) :
    ileave5 l r (ix2 i k) = if e.val = 0 then l (ix2 i j) else r (ix2 i j) :=
  ileave_apply (n := 128) (W := 32) (V := 64) rfl l r _ _ _ i j e k hk
/-- Entry j of the even entries of a width-64 vector. -/
theorem lane05_apply (v : FVec Ideal S128x64 .f32) (i : Fin 128) (j : Fin 32) (k : Fin 64) (hk : k.val = 2 * j.val + 0) :
    lane05 v (ix2 i j) = v (ix2 i k) :=
  lane_apply (n := 128) (W := 32) (V := 64) rfl 0 (by omega) v _ _ _ i j k hk
/-- Entry j of the odd entries of a width-64 vector. -/
theorem lane15_apply (v : FVec Ideal S128x64 .f32) (i : Fin 128) (j : Fin 32) (k : Fin 64) (hk : k.val = 2 * j.val + 1) :
    lane15 v (ix2 i j) = v (ix2 i k) :=
  lane_apply (n := 128) (W := 32) (V := 64) rfl 1 (by omega) v _ _ _ i j k hk

/-! ## The levels against a row -/

/-- The seven levels read the row q at row r of the block: level d along j ↦ 2^d - 1 + j. -/
structure Agrees (L : Levels Ideal) (r : Fin 128) (q : Row) : Prop where
  h0 : Reads L.l0 r (fun j => 0 + j) q
  h1 : Reads L.l1 r (fun j => 1 + j) q
  h2 : Reads L.l2 r (fun j => 3 + j) q
  h3 : Reads L.l3 r (fun j => 7 + j) q
  h4 : Reads L.l4 r (fun j => 15 + j) q
  h5 : Reads L.l5 r (fun j => 31 + j) q
  h6 : Reads L.l6 r (fun j => 63 + j) q

/-- One sweep of the body is one sweep of the specification. -/
theorem kSweep_agrees (L : Levels Ideal) (r : Fin 128) (q : Row) (h : Agrees L r q) : Agrees (kSweep L) r (sweep q) := by
  obtain ⟨h0, h1, h2, h3, h4, h5, h6⟩ := h
  -- the old children of each level: the even and the odd entries of the level below
  have cL0 : Reads (lane00 L.l1) r (fun j => 1 + 2 * j) q :=
    reads_lane0 L.l1 (lane00 L.l1) r 1 q rfl (fun j k hk => lane00_apply L.l1 r j k hk) h1
  have cR0 : Reads (lane10 L.l1) r (fun j => 1 + 2 * j + 1) q :=
    reads_lane1 L.l1 (lane10 L.l1) r 1 q rfl (fun j k hk => lane10_apply L.l1 r j k hk) h1
  have cL1 : Reads (lane01 L.l2) r (fun j => 3 + 2 * j) q :=
    reads_lane0 L.l2 (lane01 L.l2) r 3 q rfl (fun j k hk => lane01_apply L.l2 r j k hk) h2
  have cR1 : Reads (lane11 L.l2) r (fun j => 3 + 2 * j + 1) q :=
    reads_lane1 L.l2 (lane11 L.l2) r 3 q rfl (fun j k hk => lane11_apply L.l2 r j k hk) h2
  have cL2 : Reads (lane02 L.l3) r (fun j => 7 + 2 * j) q :=
    reads_lane0 L.l3 (lane02 L.l3) r 7 q rfl (fun j k hk => lane02_apply L.l3 r j k hk) h3
  have cR2 : Reads (lane12 L.l3) r (fun j => 7 + 2 * j + 1) q :=
    reads_lane1 L.l3 (lane12 L.l3) r 7 q rfl (fun j k hk => lane12_apply L.l3 r j k hk) h3
  have cL3 : Reads (lane03 L.l4) r (fun j => 15 + 2 * j) q :=
    reads_lane0 L.l4 (lane03 L.l4) r 15 q rfl (fun j k hk => lane03_apply L.l4 r j k hk) h4
  have cR3 : Reads (lane13 L.l4) r (fun j => 15 + 2 * j + 1) q :=
    reads_lane1 L.l4 (lane13 L.l4) r 15 q rfl (fun j k hk => lane13_apply L.l4 r j k hk) h4
  have cL4 : Reads (lane04 L.l5) r (fun j => 31 + 2 * j) q :=
    reads_lane0 L.l5 (lane04 L.l5) r 31 q rfl (fun j k hk => lane04_apply L.l5 r j k hk) h5
  have cR4 : Reads (lane14 L.l5) r (fun j => 31 + 2 * j + 1) q :=
    reads_lane1 L.l5 (lane14 L.l5) r 31 q rfl (fun j k hk => lane14_apply L.l5 r j k hk) h5
  have cL5 : Reads (lane05 L.l6) r (fun j => 63 + 2 * j) q :=
    reads_lane0 L.l6 (lane05 L.l6) r 63 q rfl (fun j k hk => lane05_apply L.l6 r j k hk) h6
  have cR5 : Reads (lane15 L.l6) r (fun j => 63 + 2 * j + 1) q :=
    reads_lane1 L.l6 (lane15 L.l6) r 63 q rfl (fun j k hk => lane15_apply L.l6 r j k hk) h6
  -- the new left children read the row between the two writes
  have a0 : Reads (ln0 L) r (fun j => 1 + 2 * j) (mid q) :=
    reads_ln (lane00 L.l1) L.l0 (ln0 L) r 0 1 q rfl (by omega) (fun j => rfl) cL0 h0
  have a1 : Reads (ln1 L) r (fun j => 3 + 2 * j) (mid q) :=
    reads_ln (lane01 L.l2) L.l1 (ln1 L) r 1 3 q rfl (by omega) (fun j => rfl) cL1 h1
  have a2 : Reads (ln2 L) r (fun j => 7 + 2 * j) (mid q) :=
    reads_ln (lane02 L.l3) L.l2 (ln2 L) r 3 7 q rfl (by omega) (fun j => rfl) cL2 h2
  have a3 : Reads (ln3 L) r (fun j => 15 + 2 * j) (mid q) :=
    reads_ln (lane03 L.l4) L.l3 (ln3 L) r 7 15 q rfl (by omega) (fun j => rfl) cL3 h3
  have a4 : Reads (ln4 L) r (fun j => 31 + 2 * j) (mid q) :=
    reads_ln (lane04 L.l5) L.l4 (ln4 L) r 15 31 q rfl (by omega) (fun j => rfl) cL4 h4
  have a5 : Reads (ln5 L) r (fun j => 63 + 2 * j) (mid q) :=
    reads_ln (lane05 L.l6) L.l5 (ln5 L) r 31 63 q rfl (by omega) (fun j => rfl) cL5 h5
  -- so do the parents the second write reads: new left children interleaved with old right children
  have p0 : Reads (pa0 L) r (fun j => 0 + j) (mid q) :=
    reads_mid_of_even (pa0 L) r (fun j => 0 + j) q (fun j => by have := j.isLt; beta_reduce; omega) h0
  have p1 : Reads (pa1 L) r (fun j => 1 + j) (mid q) :=
    reads_ileave (ln0 L) (lane10 L.l1) (pa1 L) r 1 (mid q) rfl
      (fun j e k hk => ileave0_apply (ln0 L) (lane10 L.l1) r j e k hk) a0
      (reads_mid_of_even (lane10 L.l1) r (fun j => 1 + 2 * j + 1) q (fun j => by beta_reduce; omega) cR0)
  have p2 : Reads (pa2 L) r (fun j => 3 + j) (mid q) :=
    reads_ileave (ln1 L) (lane11 L.l2) (pa2 L) r 3 (mid q) rfl
      (fun j e k hk => ileave1_apply (ln1 L) (lane11 L.l2) r j e k hk) a1
      (reads_mid_of_even (lane11 L.l2) r (fun j => 3 + 2 * j + 1) q (fun j => by beta_reduce; omega) cR1)
  have p3 : Reads (pa3 L) r (fun j => 7 + j) (mid q) :=
    reads_ileave (ln2 L) (lane12 L.l3) (pa3 L) r 7 (mid q) rfl
      (fun j e k hk => ileave2_apply (ln2 L) (lane12 L.l3) r j e k hk) a2
      (reads_mid_of_even (lane12 L.l3) r (fun j => 7 + 2 * j + 1) q (fun j => by beta_reduce; omega) cR2)
  have p4 : Reads (pa4 L) r (fun j => 15 + j) (mid q) :=
    reads_ileave (ln3 L) (lane13 L.l4) (pa4 L) r 15 (mid q) rfl
      (fun j e k hk => ileave3_apply (ln3 L) (lane13 L.l4) r j e k hk) a3
      (reads_mid_of_even (lane13 L.l4) r (fun j => 15 + 2 * j + 1) q (fun j => by beta_reduce; omega) cR3)
  have p5 : Reads (pa5 L) r (fun j => 31 + j) (mid q) :=
    reads_ileave (ln4 L) (lane14 L.l5) (pa5 L) r 31 (mid q) rfl
      (fun j e k hk => ileave4_apply (ln4 L) (lane14 L.l5) r j e k hk) a4
      (reads_mid_of_even (lane14 L.l5) r (fun j => 31 + 2 * j + 1) q (fun j => by beta_reduce; omega) cR4)
  -- the new right children read the row after the sweep
  have b0 : Reads (rn0 L) r (fun j => 1 + 2 * j + 1) (sweep q) :=
    reads_rn (lane10 L.l1) (pa0 L) (rn0 L) r 0 1 q rfl (by omega) (fun j => rfl) cR0 p0
  have b1 : Reads (rn1 L) r (fun j => 3 + 2 * j + 1) (sweep q) :=
    reads_rn (lane11 L.l2) (pa1 L) (rn1 L) r 1 3 q rfl (by omega) (fun j => rfl) cR1 p1
  have b2 : Reads (rn2 L) r (fun j => 7 + 2 * j + 1) (sweep q) :=
    reads_rn (lane12 L.l3) (pa2 L) (rn2 L) r 3 7 q rfl (by omega) (fun j => rfl) cR2 p2
  have b3 : Reads (rn3 L) r (fun j => 15 + 2 * j + 1) (sweep q) :=
    reads_rn (lane13 L.l4) (pa3 L) (rn3 L) r 7 15 q rfl (by omega) (fun j => rfl) cR3 p3
  have b4 : Reads (rn4 L) r (fun j => 31 + 2 * j + 1) (sweep q) :=
    reads_rn (lane14 L.l5) (pa4 L) (rn4 L) r 15 31 q rfl (by omega) (fun j => rfl) cR4 p4
  have b5 : Reads (rn5 L) r (fun j => 63 + 2 * j + 1) (sweep q) :=
    reads_rn (lane15 L.l6) (pa5 L) (rn5 L) r 31 63 q rfl (by omega) (fun j => rfl) cR5 p5
  exact ⟨reads_sweep_root L.l0 r q h0,
    reads_ileave (ln0 L) (rn0 L) (ileave0 (ln0 L) (rn0 L)) r 1 (sweep q) rfl
      (fun j e k hk => ileave0_apply (ln0 L) (rn0 L) r j e k hk)
      (reads_sweep_of_odd (ln0 L) r (fun j => 1 + 2 * j) q (fun j => by beta_reduce; omega) a0) b0,
    reads_ileave (ln1 L) (rn1 L) (ileave1 (ln1 L) (rn1 L)) r 3 (sweep q) rfl
      (fun j e k hk => ileave1_apply (ln1 L) (rn1 L) r j e k hk)
      (reads_sweep_of_odd (ln1 L) r (fun j => 3 + 2 * j) q (fun j => by beta_reduce; omega) a1) b1,
    reads_ileave (ln2 L) (rn2 L) (ileave2 (ln2 L) (rn2 L)) r 7 (sweep q) rfl
      (fun j e k hk => ileave2_apply (ln2 L) (rn2 L) r j e k hk)
      (reads_sweep_of_odd (ln2 L) r (fun j => 7 + 2 * j) q (fun j => by beta_reduce; omega) a2) b2,
    reads_ileave (ln3 L) (rn3 L) (ileave3 (ln3 L) (rn3 L)) r 15 (sweep q) rfl
      (fun j e k hk => ileave3_apply (ln3 L) (rn3 L) r j e k hk)
      (reads_sweep_of_odd (ln3 L) r (fun j => 15 + 2 * j) q (fun j => by beta_reduce; omega) a3) b3,
    reads_ileave (ln4 L) (rn4 L) (ileave4 (ln4 L) (rn4 L)) r 31 (sweep q) rfl
      (fun j e k hk => ileave4_apply (ln4 L) (rn4 L) r j e k hk)
      (reads_sweep_of_odd (ln4 L) r (fun j => 31 + 2 * j) q (fun j => by beta_reduce; omega) a4) b4,
    reads_ileave (ln5 L) (rn5 L) (ileave5 (ln5 L) (rn5 L)) r 63 (sweep q) rfl
      (fun j e k hk => ileave5_apply (ln5 L) (rn5 L) r j e k hk)
      (reads_sweep_of_odd (ln5 L) r (fun j => 63 + 2 * j) q (fun j => by beta_reduce; omega) a5) b5⟩

/-- The seed of the body is the seed of the specification, the constant row being the word of one read at the
    ideal values and the split scores of row r being that row of the product. -/
theorem kSeed_agrees (xa : FVec Ideal S128x63 .f32) (r : Fin 128) :
    Agrees (kSeed xa) r (seed (FloatOps.ofBits (F := Ideal) .f32 0x3F800000#32) (fun t => xa (ix2 r t))) := by
  have hz : (FloatOps.ofBits (F := Ideal) .f32 0x00000000#32 : EReal) = 0 :=
    (Ideal.ofBits_def _).trans Ideal.ofBits_zero_f32
  -- the slices of the split scores, level by level
  have x0 : ∀ (j : Fin 1) (t : Fin 63), t.val = 0 + j.val → xs0 xa (ix2 r j) = xa (ix2 r t) :=
    fun j t ht => slice2_axis1_apply 0 xa _ r j t ht
  have x1 : ∀ (j : Fin 2) (t : Fin 63), t.val = 1 + j.val → xs1 xa (ix2 r j) = xa (ix2 r t) :=
    fun j t ht => slice2_axis1_apply 1 xa _ r j t ht
  have x2 : ∀ (j : Fin 4) (t : Fin 63), t.val = 3 + j.val → xs2 xa (ix2 r j) = xa (ix2 r t) :=
    fun j t ht => slice2_axis1_apply 3 xa _ r j t ht
  have x3 : ∀ (j : Fin 8) (t : Fin 63), t.val = 7 + j.val → xs3 xa (ix2 r j) = xa (ix2 r t) :=
    fun j t ht => slice2_axis1_apply 7 xa _ r j t ht
  have x4 : ∀ (j : Fin 16) (t : Fin 63), t.val = 15 + j.val → xs4 xa (ix2 r j) = xa (ix2 r t) :=
    fun j t ht => slice2_axis1_apply 15 xa _ r j t ht
  have x5 : ∀ (j : Fin 32) (t : Fin 63), t.val = 31 + j.val → xs5 xa (ix2 r j) = xa (ix2 r t) :=
    fun j t ht => slice2_axis1_apply 31 xa _ r j t ht
  -- the left children read the row between the two writes
  have a0 : Reads (left00 xa) r (fun j => 1 + 2 * j) (seedMid (FloatOps.ofBits (F := Ideal) .f32 0x3F800000#32) (fun t => xa (ix2 r t))) :=
    reads_left0 (xs0 xa) (left00 xa) xa (FloatOps.ofBits (F := Ideal) .f32 0x3F800000#32) r 0 1 rfl (by omega) (fun j => rfl) x0
  have a1 : Reads (left01 xa) r (fun j => 3 + 2 * j) (seedMid (FloatOps.ofBits (F := Ideal) .f32 0x3F800000#32) (fun t => xa (ix2 r t))) :=
    reads_left0 (xs1 xa) (left01 xa) xa (FloatOps.ofBits (F := Ideal) .f32 0x3F800000#32) r 1 3 rfl (by omega) (fun j => rfl) x1
  have a2 : Reads (left02 xa) r (fun j => 7 + 2 * j) (seedMid (FloatOps.ofBits (F := Ideal) .f32 0x3F800000#32) (fun t => xa (ix2 r t))) :=
    reads_left0 (xs2 xa) (left02 xa) xa (FloatOps.ofBits (F := Ideal) .f32 0x3F800000#32) r 3 7 rfl (by omega) (fun j => rfl) x2
  have a3 : Reads (left03 xa) r (fun j => 15 + 2 * j) (seedMid (FloatOps.ofBits (F := Ideal) .f32 0x3F800000#32) (fun t => xa (ix2 r t))) :=
    reads_left0 (xs3 xa) (left03 xa) xa (FloatOps.ofBits (F := Ideal) .f32 0x3F800000#32) r 7 15 rfl (by omega) (fun j => rfl) x3
  have a4 : Reads (left04 xa) r (fun j => 31 + 2 * j) (seedMid (FloatOps.ofBits (F := Ideal) .f32 0x3F800000#32) (fun t => xa (ix2 r t))) :=
    reads_left0 (xs4 xa) (left04 xa) xa (FloatOps.ofBits (F := Ideal) .f32 0x3F800000#32) r 15 31 rfl (by omega) (fun j => rfl) x4
  have a5 : Reads (left05 xa) r (fun j => 63 + 2 * j) (seedMid (FloatOps.ofBits (F := Ideal) .f32 0x3F800000#32) (fun t => xa (ix2 r t))) :=
    reads_left0 (xs5 xa) (left05 xa) xa (FloatOps.ofBits (F := Ideal) .f32 0x3F800000#32) r 31 63 rfl (by omega) (fun j => rfl) x5
  -- so do the parents the second write reads: left children interleaved with the constant
  have p0 : Reads (post10 xa) r (fun j => 0 + j) (seedMid (FloatOps.ofBits (F := Ideal) .f32 0x3F800000#32) (fun t => xa (ix2 r t))) :=
    reads_const_seedMid (post10 xa) (FloatOps.ofBits (F := Ideal) .f32 0x3F800000#32) (fun t => xa (ix2 r t)) r (fun j => 0 + j) (fun j => by have := j.isLt; beta_reduce; omega) (fun j => rfl)
  have p1 : Reads (post11 xa) r (fun j => 1 + j) (seedMid (FloatOps.ofBits (F := Ideal) .f32 0x3F800000#32) (fun t => xa (ix2 r t))) :=
    reads_ileave (left00 xa) (broadcast S128x1 (FloatOps.ofBits (F := Ideal) .f32 0x3F800000#32)) (post11 xa) r 1 (seedMid (FloatOps.ofBits (F := Ideal) .f32 0x3F800000#32) (fun t => xa (ix2 r t))) rfl
      (fun j e k hk => ileave0_apply (left00 xa) (broadcast S128x1 (FloatOps.ofBits (F := Ideal) .f32 0x3F800000#32)) r j e k hk) a0
      (reads_const_seedMid (broadcast S128x1 (FloatOps.ofBits (F := Ideal) .f32 0x3F800000#32)) (FloatOps.ofBits (F := Ideal) .f32 0x3F800000#32) (fun t => xa (ix2 r t)) r (fun j => 1 + 2 * j + 1) (fun j => by beta_reduce; omega) (fun j => rfl))
  have p2 : Reads (post12 xa) r (fun j => 3 + j) (seedMid (FloatOps.ofBits (F := Ideal) .f32 0x3F800000#32) (fun t => xa (ix2 r t))) :=
    reads_ileave (left01 xa) (broadcast S128x2 (FloatOps.ofBits (F := Ideal) .f32 0x3F800000#32)) (post12 xa) r 3 (seedMid (FloatOps.ofBits (F := Ideal) .f32 0x3F800000#32) (fun t => xa (ix2 r t))) rfl
      (fun j e k hk => ileave1_apply (left01 xa) (broadcast S128x2 (FloatOps.ofBits (F := Ideal) .f32 0x3F800000#32)) r j e k hk) a1
      (reads_const_seedMid (broadcast S128x2 (FloatOps.ofBits (F := Ideal) .f32 0x3F800000#32)) (FloatOps.ofBits (F := Ideal) .f32 0x3F800000#32) (fun t => xa (ix2 r t)) r (fun j => 3 + 2 * j + 1) (fun j => by beta_reduce; omega) (fun j => rfl))
  have p3 : Reads (post13 xa) r (fun j => 7 + j) (seedMid (FloatOps.ofBits (F := Ideal) .f32 0x3F800000#32) (fun t => xa (ix2 r t))) :=
    reads_ileave (left02 xa) (broadcast S128x4 (FloatOps.ofBits (F := Ideal) .f32 0x3F800000#32)) (post13 xa) r 7 (seedMid (FloatOps.ofBits (F := Ideal) .f32 0x3F800000#32) (fun t => xa (ix2 r t))) rfl
      (fun j e k hk => ileave2_apply (left02 xa) (broadcast S128x4 (FloatOps.ofBits (F := Ideal) .f32 0x3F800000#32)) r j e k hk) a2
      (reads_const_seedMid (broadcast S128x4 (FloatOps.ofBits (F := Ideal) .f32 0x3F800000#32)) (FloatOps.ofBits (F := Ideal) .f32 0x3F800000#32) (fun t => xa (ix2 r t)) r (fun j => 7 + 2 * j + 1) (fun j => by beta_reduce; omega) (fun j => rfl))
  have p4 : Reads (post14 xa) r (fun j => 15 + j) (seedMid (FloatOps.ofBits (F := Ideal) .f32 0x3F800000#32) (fun t => xa (ix2 r t))) :=
    reads_ileave (left03 xa) (broadcast S128x8 (FloatOps.ofBits (F := Ideal) .f32 0x3F800000#32)) (post14 xa) r 15 (seedMid (FloatOps.ofBits (F := Ideal) .f32 0x3F800000#32) (fun t => xa (ix2 r t))) rfl
      (fun j e k hk => ileave3_apply (left03 xa) (broadcast S128x8 (FloatOps.ofBits (F := Ideal) .f32 0x3F800000#32)) r j e k hk) a3
      (reads_const_seedMid (broadcast S128x8 (FloatOps.ofBits (F := Ideal) .f32 0x3F800000#32)) (FloatOps.ofBits (F := Ideal) .f32 0x3F800000#32) (fun t => xa (ix2 r t)) r (fun j => 15 + 2 * j + 1) (fun j => by beta_reduce; omega) (fun j => rfl))
  have p5 : Reads (post15 xa) r (fun j => 31 + j) (seedMid (FloatOps.ofBits (F := Ideal) .f32 0x3F800000#32) (fun t => xa (ix2 r t))) :=
    reads_ileave (left04 xa) (broadcast S128x16 (FloatOps.ofBits (F := Ideal) .f32 0x3F800000#32)) (post15 xa) r 31 (seedMid (FloatOps.ofBits (F := Ideal) .f32 0x3F800000#32) (fun t => xa (ix2 r t))) rfl
      (fun j e k hk => ileave4_apply (left04 xa) (broadcast S128x16 (FloatOps.ofBits (F := Ideal) .f32 0x3F800000#32)) r j e k hk) a4
      (reads_const_seedMid (broadcast S128x16 (FloatOps.ofBits (F := Ideal) .f32 0x3F800000#32)) (FloatOps.ofBits (F := Ideal) .f32 0x3F800000#32) (fun t => xa (ix2 r t)) r (fun j => 31 + 2 * j + 1) (fun j => by beta_reduce; omega) (fun j => rfl))
  -- the right children read the seeded row
  have b0 : Reads (right00 xa) r (fun j => 1 + 2 * j + 1) (seed (FloatOps.ofBits (F := Ideal) .f32 0x3F800000#32) (fun t => xa (ix2 r t))) :=
    reads_right0 (xs0 xa) (post10 xa) (right00 xa) xa (FloatOps.ofBits (F := Ideal) .f32 0x00000000#32) (FloatOps.ofBits (F := Ideal) .f32 0x3F800000#32) hz r 0 1 rfl (by omega) (fun j => rfl) p0 x0
  have b1 : Reads (right01 xa) r (fun j => 3 + 2 * j + 1) (seed (FloatOps.ofBits (F := Ideal) .f32 0x3F800000#32) (fun t => xa (ix2 r t))) :=
    reads_right0 (xs1 xa) (post11 xa) (right01 xa) xa (FloatOps.ofBits (F := Ideal) .f32 0x00000000#32) (FloatOps.ofBits (F := Ideal) .f32 0x3F800000#32) hz r 1 3 rfl (by omega) (fun j => rfl) p1 x1
  have b2 : Reads (right02 xa) r (fun j => 7 + 2 * j + 1) (seed (FloatOps.ofBits (F := Ideal) .f32 0x3F800000#32) (fun t => xa (ix2 r t))) :=
    reads_right0 (xs2 xa) (post12 xa) (right02 xa) xa (FloatOps.ofBits (F := Ideal) .f32 0x00000000#32) (FloatOps.ofBits (F := Ideal) .f32 0x3F800000#32) hz r 3 7 rfl (by omega) (fun j => rfl) p2 x2
  have b3 : Reads (right03 xa) r (fun j => 15 + 2 * j + 1) (seed (FloatOps.ofBits (F := Ideal) .f32 0x3F800000#32) (fun t => xa (ix2 r t))) :=
    reads_right0 (xs3 xa) (post13 xa) (right03 xa) xa (FloatOps.ofBits (F := Ideal) .f32 0x00000000#32) (FloatOps.ofBits (F := Ideal) .f32 0x3F800000#32) hz r 7 15 rfl (by omega) (fun j => rfl) p3 x3
  have b4 : Reads (right04 xa) r (fun j => 31 + 2 * j + 1) (seed (FloatOps.ofBits (F := Ideal) .f32 0x3F800000#32) (fun t => xa (ix2 r t))) :=
    reads_right0 (xs4 xa) (post14 xa) (right04 xa) xa (FloatOps.ofBits (F := Ideal) .f32 0x00000000#32) (FloatOps.ofBits (F := Ideal) .f32 0x3F800000#32) hz r 15 31 rfl (by omega) (fun j => rfl) p4 x4
  have b5 : Reads (right05 xa) r (fun j => 63 + 2 * j + 1) (seed (FloatOps.ofBits (F := Ideal) .f32 0x3F800000#32) (fun t => xa (ix2 r t))) :=
    reads_right0 (xs5 xa) (post15 xa) (right05 xa) xa (FloatOps.ofBits (F := Ideal) .f32 0x00000000#32) (FloatOps.ofBits (F := Ideal) .f32 0x3F800000#32) hz r 31 63 rfl (by omega) (fun j => rfl) p5 x5
  exact ⟨reads_const_seed_root (broadcast S128x1 (FloatOps.ofBits (F := Ideal) .f32 0x3F800000#32)) (FloatOps.ofBits (F := Ideal) .f32 0x3F800000#32) (fun t => xa (ix2 r t)) r (fun j => rfl),
    reads_ileave (left00 xa) (right00 xa) (ileave0 (left00 xa) (right00 xa)) r 1 (seed (FloatOps.ofBits (F := Ideal) .f32 0x3F800000#32) (fun t => xa (ix2 r t))) rfl
      (fun j e k hk => ileave0_apply (left00 xa) (right00 xa) r j e k hk)
      (reads_seed_of_odd (left00 xa) r (fun j => 1 + 2 * j) (FloatOps.ofBits (F := Ideal) .f32 0x3F800000#32) (fun t => xa (ix2 r t)) (fun j => by beta_reduce; omega) a0) b0,
    reads_ileave (left01 xa) (right01 xa) (ileave1 (left01 xa) (right01 xa)) r 3 (seed (FloatOps.ofBits (F := Ideal) .f32 0x3F800000#32) (fun t => xa (ix2 r t))) rfl
      (fun j e k hk => ileave1_apply (left01 xa) (right01 xa) r j e k hk)
      (reads_seed_of_odd (left01 xa) r (fun j => 3 + 2 * j) (FloatOps.ofBits (F := Ideal) .f32 0x3F800000#32) (fun t => xa (ix2 r t)) (fun j => by beta_reduce; omega) a1) b1,
    reads_ileave (left02 xa) (right02 xa) (ileave2 (left02 xa) (right02 xa)) r 7 (seed (FloatOps.ofBits (F := Ideal) .f32 0x3F800000#32) (fun t => xa (ix2 r t))) rfl
      (fun j e k hk => ileave2_apply (left02 xa) (right02 xa) r j e k hk)
      (reads_seed_of_odd (left02 xa) r (fun j => 7 + 2 * j) (FloatOps.ofBits (F := Ideal) .f32 0x3F800000#32) (fun t => xa (ix2 r t)) (fun j => by beta_reduce; omega) a2) b2,
    reads_ileave (left03 xa) (right03 xa) (ileave3 (left03 xa) (right03 xa)) r 15 (seed (FloatOps.ofBits (F := Ideal) .f32 0x3F800000#32) (fun t => xa (ix2 r t))) rfl
      (fun j e k hk => ileave3_apply (left03 xa) (right03 xa) r j e k hk)
      (reads_seed_of_odd (left03 xa) r (fun j => 15 + 2 * j) (FloatOps.ofBits (F := Ideal) .f32 0x3F800000#32) (fun t => xa (ix2 r t)) (fun j => by beta_reduce; omega) a3) b3,
    reads_ileave (left04 xa) (right04 xa) (ileave4 (left04 xa) (right04 xa)) r 31 (seed (FloatOps.ofBits (F := Ideal) .f32 0x3F800000#32) (fun t => xa (ix2 r t))) rfl
      (fun j e k hk => ileave4_apply (left04 xa) (right04 xa) r j e k hk)
      (reads_seed_of_odd (left04 xa) r (fun j => 31 + 2 * j) (FloatOps.ofBits (F := Ideal) .f32 0x3F800000#32) (fun t => xa (ix2 r t)) (fun j => by beta_reduce; omega) a4) b4,
    reads_ileave (left05 xa) (right05 xa) (ileave5 (left05 xa) (right05 xa)) r 63 (seed (FloatOps.ofBits (F := Ideal) .f32 0x3F800000#32) (fun t => xa (ix2 r t))) rfl
      (fun j e k hk => ileave5_apply (left05 xa) (right05 xa) r j e k hk)
      (reads_seed_of_odd (left05 xa) r (fun j => 63 + 2 * j) (FloatOps.ofBits (F := Ideal) .f32 0x3F800000#32) (fun t => xa (ix2 r t)) (fun j => by beta_reduce; omega) a5) b5⟩

/-- After the seed and s sweeps the levels read the specification's row after the seed and s sweeps. -/
theorem lev_agrees (xa : FVec Ideal S128x63 .f32) (r : Fin 128) (s : Nat) :
    Agrees (lev xa s) r (rowAfter (FloatOps.ofBits (F := Ideal) .f32 0x3F800000#32) (fun t => xa (ix2 r t)) s) := by
  induction s with
  | zero => exact kSeed_agrees xa r
  | succ s ih => exact kSweep_agrees (lev xa s) r _ ih

/-! ## The row and the clip -/

/-- The seven levels side by side are the row. -/
theorem kCat_apply (L : Levels Ideal) (r : Fin 128) (q : Row) (h : Agrees L r q) (n : Fin 127) :
    kCat L (ix2 r n) = q n := by
  have hn := n.isLt
  unfold kCat
  by_cases c0 : n.val < 1
  · refine (concatenate_apply_piece (1 : Fin S128x127.rank) _ _ (ix2 r n) 0 (by simp) S128x1 L.l0 rfl rfl 0 (by rfl)
      (ix2 r (⟨n.val - 0, by omega⟩ : Fin 1)) (fun b hb => ?_) ?_).trans (h.h0 _ n (by show n.val = 0 + (n.val - 0); omega))
    · match b with
      | ⟨0, _⟩ => rfl
      | ⟨1, _⟩ => exact absurd rfl hb
    · show 0 + (n.val - 0) = n.val
      omega
  by_cases c1 : n.val < 3
  · refine (concatenate_apply_piece (1 : Fin S128x127.rank) _ _ (ix2 r n) 1 (by simp) S128x2 L.l1 rfl rfl 1 (by rfl)
      (ix2 r (⟨n.val - 1, by omega⟩ : Fin 2)) (fun b hb => ?_) ?_).trans (h.h1 _ n (by show n.val = 1 + (n.val - 1); omega))
    · match b with
      | ⟨0, _⟩ => rfl
      | ⟨1, _⟩ => exact absurd rfl hb
    · show 1 + (n.val - 1) = n.val
      omega
  by_cases c2 : n.val < 7
  · refine (concatenate_apply_piece (1 : Fin S128x127.rank) _ _ (ix2 r n) 2 (by simp) S128x4 L.l2 rfl rfl 3 (by rfl)
      (ix2 r (⟨n.val - 3, by omega⟩ : Fin 4)) (fun b hb => ?_) ?_).trans (h.h2 _ n (by show n.val = 3 + (n.val - 3); omega))
    · match b with
      | ⟨0, _⟩ => rfl
      | ⟨1, _⟩ => exact absurd rfl hb
    · show 3 + (n.val - 3) = n.val
      omega
  by_cases c3 : n.val < 15
  · refine (concatenate_apply_piece (1 : Fin S128x127.rank) _ _ (ix2 r n) 3 (by simp) S128x8 L.l3 rfl rfl 7 (by rfl)
      (ix2 r (⟨n.val - 7, by omega⟩ : Fin 8)) (fun b hb => ?_) ?_).trans (h.h3 _ n (by show n.val = 7 + (n.val - 7); omega))
    · match b with
      | ⟨0, _⟩ => rfl
      | ⟨1, _⟩ => exact absurd rfl hb
    · show 7 + (n.val - 7) = n.val
      omega
  by_cases c4 : n.val < 31
  · refine (concatenate_apply_piece (1 : Fin S128x127.rank) _ _ (ix2 r n) 4 (by simp) S128x16 L.l4 rfl rfl 15 (by rfl)
      (ix2 r (⟨n.val - 15, by omega⟩ : Fin 16)) (fun b hb => ?_) ?_).trans (h.h4 _ n (by show n.val = 15 + (n.val - 15); omega))
    · match b with
      | ⟨0, _⟩ => rfl
      | ⟨1, _⟩ => exact absurd rfl hb
    · show 15 + (n.val - 15) = n.val
      omega
  by_cases c5 : n.val < 63
  · refine (concatenate_apply_piece (1 : Fin S128x127.rank) _ _ (ix2 r n) 5 (by simp) S128x32 L.l5 rfl rfl 31 (by rfl)
      (ix2 r (⟨n.val - 31, by omega⟩ : Fin 32)) (fun b hb => ?_) ?_).trans (h.h5 _ n (by show n.val = 31 + (n.val - 31); omega))
    · match b with
      | ⟨0, _⟩ => rfl
      | ⟨1, _⟩ => exact absurd rfl hb
    · show 31 + (n.val - 31) = n.val
      omega
  refine (concatenate_apply_piece (1 : Fin S128x127.rank) _ _ (ix2 r n) 6 (by simp) S128x64 L.l6 rfl rfl 63 (by rfl)
    (ix2 r (⟨n.val - 63, by omega⟩ : Fin 64)) (fun b hb => ?_) ?_).trans (h.h6 _ n (by show n.val = 63 + (n.val - 63); omega))
  · match b with
    | ⟨0, _⟩ => rfl
    | ⟨1, _⟩ => exact absurd rfl hb
  · show 63 + (n.val - 63) = n.val
    omega

/-- The clip, entrywise. -/
theorem kClip_apply (v : FVec Ideal S128x127 .f32) (i : S128x127.Idx) :
    kClip v i = clip (FloatOps.ofBits (F := Ideal) .f32 0x00000000#32) (FloatOps.ofBits (F := Ideal) .f32 0x3F800000#32) (v i) := rfl

/-- A constant word read at the ideal values is the extended real it encodes. -/
theorem ofBits_ideal (b : BitVec FTy.f32.bits) : (FloatOps.ofBits (F := Ideal) .f32 b : EReal) = Ideal.ofBits .f32 b := rfl

/-- THE STORED BLOCK AT AN ENTRY: the specification's result at node n for the split scores of row r. -/
theorem kOut_apply (x0 : Vec Ideal S128x512 .f32) (x1 : Vec Ideal S63x512 .f32) (r : Fin 128) (n : Fin 127) :
    kOut (F := Ideal) x0 x1 (ix2 r n)
      = Cert.Tree.result (Ideal.ofBits .f32 0x00000000#32) (Ideal.ofBits .f32 0x3F800000#32)
          (fun t : Fin 63 => ∑ k : Fin 512, x0 (ix2 r k) * x1 (ix2 t k)) n := by
  have ha : (fun t : Fin 63 => xaK x0 x1 (ix2 r t)) = fun t : Fin 63 => ∑ k : Fin 512, x0 (ix2 r k) * x1 (ix2 t k) :=
    funext fun t => pv2_apply x0 x1 r t
  unfold kOut
  rw [kClip_apply, kCat_apply _ r _ (lev_agrees (xaK x0 x1) r 6) n, ha, ofBits_ideal, ofBits_ideal]
  rfl

end Cert.KVal

end
-- ==== Proof.RefList.lean ====
/-
  The reference program as one list of operations.

  The program's statements, in order, cut where a new row array is written: the tables and masks, the seed's two
  writes, the two writes of each of the six sweeps, and the clip. A piece that the program's own division into
  parts of sixty statements cuts in two is given as its two halves. The list is shown to be the program
  (`main_eq`), every operation to touch only device buffers (`ops_sub`) and to leave nothing undetermined
  (`ops_fresh`), so that every execution ends with each buffer at the fold of the operations over the launch
  contents (`run_after`).
-/
import proofs.«119096_j25271587570082_2_alg».proof.ReferenceIdeal
import proofs.«119096_j25271587570082_2_alg».proof.Proof.Gen.ReferenceIdeal
import Idealize.ShloMosaic.Lib.StableHlo.Run

noncomputable section

namespace Cert.RVal

open Cert.ReferenceIdeal Cert.ReferenceIdeal.Gen Idealize.ShloMosaic Idealize.ShloMosaic.TcCoe Idealize.SL.Sem Idealize.ShloMosaic.StableHlo

variable {F : FTy → Type} [FloatOps F]

/-- The literal tables (inner nodes, their left children, their right children) and the forty constant-false masks. Statements 1 … 43. -/
abbrev g0a : List (HloOp τ sig (Elt F)) :=
  nullary main_c (fun i => lit0 (S63.rowMajor i)) ::
  nullary main_c_0 (constantI S63 1 0#1) ::
  nullary main_c_1 (fun i => lit1 (S63.rowMajor i)) ::
  nullary main_c_2 (constantI S63 1 0#1) ::
  nullary main_c_3 (constantI S63 1 0#1) ::
  nullary main_c_4 (fun i => lit2 (S63.rowMajor i)) ::
  nullary main_c_5 (constantI S63 1 0#1) ::
  nullary main_c_6 (constantI S63 1 0#1) ::
  nullary main_c_7 (constantI S63 1 0#1) ::
  nullary main_c_8 (constantI S63 1 0#1) ::
  nullary main_c_9 (constantI S63 1 0#1) ::
  nullary main_c_10 (constantI S63 1 0#1) ::
  nullary main_c_11 (constantI S63 1 0#1) ::
  nullary main_c_12 (constantI S63 1 0#1) ::
  nullary main_c_13 (constantI S63 1 0#1) ::
  nullary main_c_14 (constantI S63 1 0#1) ::
  nullary main_c_15 (constantI S63 1 0#1) ::
  nullary main_c_16 (constantI S63 1 0#1) ::
  nullary main_c_17 (constantI S63 1 0#1) ::
  nullary main_c_18 (constantI S63 1 0#1) ::
  nullary main_c_19 (constantI S63 1 0#1) ::
  nullary main_c_20 (constantI S63 1 0#1) ::
  nullary main_c_21 (constantI S63 1 0#1) ::
  nullary main_c_22 (constantI S63 1 0#1) ::
  nullary main_c_23 (constantI S63 1 0#1) ::
  nullary main_c_24 (constantI S63 1 0#1) ::
  nullary main_c_25 (constantI S63 1 0#1) ::
  nullary main_c_26 (constantI S63 1 0#1) ::
  nullary main_c_27 (constantI S63 1 0#1) ::
  nullary main_c_28 (constantI S63 1 0#1) ::
  nullary main_c_29 (constantI S63 1 0#1) ::
  nullary main_c_30 (constantI S63 1 0#1) ::
  nullary main_c_31 (constantI S63 1 0#1) ::
  nullary main_c_32 (constantI S63 1 0#1) ::
  nullary main_c_33 (constantI S63 1 0#1) ::
  nullary main_c_34 (constantI S63 1 0#1) ::
  nullary main_c_35 (constantI S63 1 0#1) ::
  nullary main_c_36 (constantI S63 1 0#1) ::
  nullary main_c_37 (constantI S63 1 0#1) ::
  nullary main_c_38 (constantI S63 1 0#1) ::
  nullary main_c_39 (constantI S63 1 0#1) ::
  nullary main_c_40 (constantI S63 1 0#1) ::
  nullary main_c_41 (constantI S63 1 0#1) :: []

/-- The split scores `x · Aᵀ`, the constant row of ones, and the seed's first write: the left children. Statements 44 … 60. -/
abbrev g0b : List (HloOp τ sig (Elt F)) :=
  unary main_arg1 main_v0 ((transpose S512x63 [1, 0] · transposes_S63x512_S512x63_1_0) : (⟨S63x512, .f32⟩ : BufTy).Contents (Elt F) → (⟨S512x63, .f32⟩ : BufTy).Contents (Elt F)) ::
  binary main_arg0 main_v0 main_v1 ((fun l r => Host.dotGeneral dot_S131072x512_S512x63_S131072x63_1_0_0_1_n_n none l r) : (⟨S131072x512, .f32⟩ : BufTy).Contents (Elt F) → (⟨S512x63, .f32⟩ : BufTy).Contents (Elt F) → (⟨S131072x63, .f32⟩ : BufTy).Contents (Elt F)) ::
  nullary main_cst (constant S_ .f32 0x3F800000#32) ::
  unary main_cst main_v2 (broadcastInDim S131072x127 ![] bcast_S_S131072x127 : (⟨S_, .f32⟩ : BufTy).Contents (Elt F) → (⟨S131072x127, .f32⟩ : BufTy).Contents (Elt F)) ::
  nullary main_c_42 (constantI S_ 32 127#32) ::
  unary main_c_42 main_v3 (broadcastInDim S63 ![] bcast_S_S63 : (⟨S_, .i32⟩ : BufTy).Contents (Elt F) → (⟨S63, .i32⟩ : BufTy).Contents (Elt F)) ::
  binary main_c main_v3 main_v4 (addi : (⟨S63, .i32⟩ : BufTy).Contents (Elt F) → (⟨S63, .i32⟩ : BufTy).Contents (Elt F) → (⟨S63, .i32⟩ : BufTy).Contents (Elt F)) ::
  ternary main_c_0 main_v4 main_c main_v5 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v5 main_v6 (broadcastInDim S63x1 ![0] bcast_S63_S63x1_0 : (⟨S63, .i32⟩ : BufTy).Contents (Elt F) → (⟨S63x1, .i32⟩ : BufTy).Contents (Elt F)) ::
  binary main_v2 main_v6 main_v7 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  binary main_v7 main_v1 main_v8 (minimumf : (⟨S131072x63, .f32⟩ : BufTy).Contents (Elt F) → (⟨S131072x63, .f32⟩ : BufTy).Contents (Elt F) → (⟨S131072x63, .f32⟩ : BufTy).Contents (Elt F)) ::
  nullary main_c_43 (constantI S_ 32 127#32) ::
  unary main_c_43 main_v9 (broadcastInDim S63 ![] bcast_S_S63 : (⟨S_, .i32⟩ : BufTy).Contents (Elt F) → (⟨S63, .i32⟩ : BufTy).Contents (Elt F)) ::
  binary main_c_1 main_v9 main_v10 (addi : (⟨S63, .i32⟩ : BufTy).Contents (Elt F) → (⟨S63, .i32⟩ : BufTy).Contents (Elt F) → (⟨S63, .i32⟩ : BufTy).Contents (Elt F)) ::
  ternary main_c_2 main_v10 main_c_1 main_v11 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v11 main_v12 (broadcastInDim S63x1 ![0] bcast_S63_S63x1_0 : (⟨S63, .i32⟩ : BufTy).Contents (Elt F) → (⟨S63x1, .i32⟩ : BufTy).Contents (Elt F)) ::
  ternary main_v2 main_v12 main_v8 main_v13 ((fun x i u => Host.scatter scatter_S131072x127_S63x1_S131072x63_0_1_1_1 (fun _ b => b) x i u) : (⟨S131072x127, .f32⟩ : BufTy).Contents (Elt F) → (⟨S63x1, .i32⟩ : BufTy).Contents (Elt F) → (⟨S131072x63, .f32⟩ : BufTy).Contents (Elt F) → (⟨S131072x127, .f32⟩ : BufTy).Contents (Elt F)) :: []

/-- The seed's second write: the right children, from the row after the first write. Statements 61 … 74. -/
abbrev g1 : List (HloOp τ sig (Elt F)) :=
  nullary main_c_44 (constantI S_ 32 127#32) ::
  unary main_c_44 main_v14 (broadcastInDim S63 ![] bcast_S_S63 : (⟨S_, .i32⟩ : BufTy).Contents (Elt F) → (⟨S63, .i32⟩ : BufTy).Contents (Elt F)) ::
  binary main_c main_v14 main_v15 (addi : (⟨S63, .i32⟩ : BufTy).Contents (Elt F) → (⟨S63, .i32⟩ : BufTy).Contents (Elt F) → (⟨S63, .i32⟩ : BufTy).Contents (Elt F)) ::
  ternary main_c_3 main_v15 main_c main_v16 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v16 main_v17 (broadcastInDim S63x1 ![0] bcast_S63_S63x1_0 : (⟨S63, .i32⟩ : BufTy).Contents (Elt F) → (⟨S63x1, .i32⟩ : BufTy).Contents (Elt F)) ::
  binary main_v13 main_v17 main_v18 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  unary main_v1 main_v19 (Host.negf : (⟨S131072x63, .f32⟩ : BufTy).Contents (Elt F) → (⟨S131072x63, .f32⟩ : BufTy).Contents (Elt F)) ::
  binary main_v18 main_v19 main_v20 (minimumf : (⟨S131072x63, .f32⟩ : BufTy).Contents (Elt F) → (⟨S131072x63, .f32⟩ : BufTy).Contents (Elt F) → (⟨S131072x63, .f32⟩ : BufTy).Contents (Elt F)) ::
  nullary main_c_45 (constantI S_ 32 127#32) ::
  unary main_c_45 main_v21 (broadcastInDim S63 ![] bcast_S_S63 : (⟨S_, .i32⟩ : BufTy).Contents (Elt F) → (⟨S63, .i32⟩ : BufTy).Contents (Elt F)) ::
  binary main_c_4 main_v21 main_v22 (addi : (⟨S63, .i32⟩ : BufTy).Contents (Elt F) → (⟨S63, .i32⟩ : BufTy).Contents (Elt F) → (⟨S63, .i32⟩ : BufTy).Contents (Elt F)) ::
  ternary main_c_5 main_v22 main_c_4 main_v23 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v23 main_v24 (broadcastInDim S63x1 ![0] bcast_S63_S63x1_0 : (⟨S63, .i32⟩ : BufTy).Contents (Elt F) → (⟨S63x1, .i32⟩ : BufTy).Contents (Elt F)) ::
  ternary main_v13 main_v24 main_v20 main_v25 ((fun x i u => Host.scatter scatter_S131072x127_S63x1_S131072x63_0_1_1_1 (fun _ b => b) x i u) : (⟨S131072x127, .f32⟩ : BufTy).Contents (Elt F) → (⟨S63x1, .i32⟩ : BufTy).Contents (Elt F) → (⟨S131072x63, .f32⟩ : BufTy).Contents (Elt F) → (⟨S131072x127, .f32⟩ : BufTy).Contents (Elt F)) :: []

/-- Sweep 1, the left children's write. Statements 75 … 93. -/
abbrev s1 : List (HloOp τ sig (Elt F)) :=
  nullary main_c_46 (constantI S_ 32 127#32) ::
  unary main_c_46 main_v26 (broadcastInDim S63 ![] bcast_S_S63 : (⟨S_, .i32⟩ : BufTy).Contents (Elt F) → (⟨S63, .i32⟩ : BufTy).Contents (Elt F)) ::
  binary main_c_1 main_v26 main_v27 (addi : (⟨S63, .i32⟩ : BufTy).Contents (Elt F) → (⟨S63, .i32⟩ : BufTy).Contents (Elt F) → (⟨S63, .i32⟩ : BufTy).Contents (Elt F)) ::
  ternary main_c_6 main_v27 main_c_1 main_v28 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v28 main_v29 (broadcastInDim S63x1 ![0] bcast_S63_S63x1_0 : (⟨S63, .i32⟩ : BufTy).Contents (Elt F) → (⟨S63x1, .i32⟩ : BufTy).Contents (Elt F)) ::
  binary main_v25 main_v29 main_v30 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  nullary main_c_47 (constantI S_ 32 127#32) ::
  unary main_c_47 main_v31 (broadcastInDim S63 ![] bcast_S_S63 : (⟨S_, .i32⟩ : BufTy).Contents (Elt F) → (⟨S63, .i32⟩ : BufTy).Contents (Elt F)) ::
  binary main_c main_v31 main_v32 (addi : (⟨S63, .i32⟩ : BufTy).Contents (Elt F) → (⟨S63, .i32⟩ : BufTy).Contents (Elt F) → (⟨S63, .i32⟩ : BufTy).Contents (Elt F)) ::
  ternary main_c_7 main_v32 main_c main_v33 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v33 main_v34 (broadcastInDim S63x1 ![0] bcast_S63_S63x1_0 : (⟨S63, .i32⟩ : BufTy).Contents (Elt F) → (⟨S63x1, .i32⟩ : BufTy).Contents (Elt F)) ::
  binary main_v25 main_v34 main_v35 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  binary main_v30 main_v35 main_v36 (minimumf : (⟨S131072x63, .f32⟩ : BufTy).Contents (Elt F) → (⟨S131072x63, .f32⟩ : BufTy).Contents (Elt F) → (⟨S131072x63, .f32⟩ : BufTy).Contents (Elt F)) ::
  nullary main_c_48 (constantI S_ 32 127#32) ::
  unary main_c_48 main_v37 (broadcastInDim S63 ![] bcast_S_S63 : (⟨S_, .i32⟩ : BufTy).Contents (Elt F) → (⟨S63, .i32⟩ : BufTy).Contents (Elt F)) ::
  binary main_c_1 main_v37 main_v38 (addi : (⟨S63, .i32⟩ : BufTy).Contents (Elt F) → (⟨S63, .i32⟩ : BufTy).Contents (Elt F) → (⟨S63, .i32⟩ : BufTy).Contents (Elt F)) ::
  ternary main_c_8 main_v38 main_c_1 main_v39 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v39 main_v40 (broadcastInDim S63x1 ![0] bcast_S63_S63x1_0 : (⟨S63, .i32⟩ : BufTy).Contents (Elt F) → (⟨S63x1, .i32⟩ : BufTy).Contents (Elt F)) ::
  ternary main_v25 main_v40 main_v36 main_v41 ((fun x i u => Host.scatter scatter_S131072x127_S63x1_S131072x63_0_1_1_1 (fun _ b => b) x i u) : (⟨S131072x127, .f32⟩ : BufTy).Contents (Elt F) → (⟨S63x1, .i32⟩ : BufTy).Contents (Elt F) → (⟨S131072x63, .f32⟩ : BufTy).Contents (Elt F) → (⟨S131072x127, .f32⟩ : BufTy).Contents (Elt F)) :: []

/-- Sweep 1, the right children's write. Statements 94 … 112. -/
abbrev s2 : List (HloOp τ sig (Elt F)) :=
  nullary main_c_49 (constantI S_ 32 127#32) ::
  unary main_c_49 main_v42 (broadcastInDim S63 ![] bcast_S_S63 : (⟨S_, .i32⟩ : BufTy).Contents (Elt F) → (⟨S63, .i32⟩ : BufTy).Contents (Elt F)) ::
  binary main_c_4 main_v42 main_v43 (addi : (⟨S63, .i32⟩ : BufTy).Contents (Elt F) → (⟨S63, .i32⟩ : BufTy).Contents (Elt F) → (⟨S63, .i32⟩ : BufTy).Contents (Elt F)) ::
  ternary main_c_9 main_v43 main_c_4 main_v44 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v44 main_v45 (broadcastInDim S63x1 ![0] bcast_S63_S63x1_0 : (⟨S63, .i32⟩ : BufTy).Contents (Elt F) → (⟨S63x1, .i32⟩ : BufTy).Contents (Elt F)) ::
  binary main_v41 main_v45 main_v46 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  nullary main_c_50 (constantI S_ 32 127#32) ::
  unary main_c_50 main_v47 (broadcastInDim S63 ![] bcast_S_S63 : (⟨S_, .i32⟩ : BufTy).Contents (Elt F) → (⟨S63, .i32⟩ : BufTy).Contents (Elt F)) ::
  binary main_c main_v47 main_v48 (addi : (⟨S63, .i32⟩ : BufTy).Contents (Elt F) → (⟨S63, .i32⟩ : BufTy).Contents (Elt F) → (⟨S63, .i32⟩ : BufTy).Contents (Elt F)) ::
  ternary main_c_10 main_v48 main_c main_v49 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v49 main_v50 (broadcastInDim S63x1 ![0] bcast_S63_S63x1_0 : (⟨S63, .i32⟩ : BufTy).Contents (Elt F) → (⟨S63x1, .i32⟩ : BufTy).Contents (Elt F)) ::
  binary main_v41 main_v50 main_v51 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  binary main_v46 main_v51 main_v52 (minimumf : (⟨S131072x63, .f32⟩ : BufTy).Contents (Elt F) → (⟨S131072x63, .f32⟩ : BufTy).Contents (Elt F) → (⟨S131072x63, .f32⟩ : BufTy).Contents (Elt F)) ::
  nullary main_c_51 (constantI S_ 32 127#32) ::
  unary main_c_51 main_v53 (broadcastInDim S63 ![] bcast_S_S63 : (⟨S_, .i32⟩ : BufTy).Contents (Elt F) → (⟨S63, .i32⟩ : BufTy).Contents (Elt F)) ::
  binary main_c_4 main_v53 main_v54 (addi : (⟨S63, .i32⟩ : BufTy).Contents (Elt F) → (⟨S63, .i32⟩ : BufTy).Contents (Elt F) → (⟨S63, .i32⟩ : BufTy).Contents (Elt F)) ::
  ternary main_c_11 main_v54 main_c_4 main_v55 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v55 main_v56 (broadcastInDim S63x1 ![0] bcast_S63_S63x1_0 : (⟨S63, .i32⟩ : BufTy).Contents (Elt F) → (⟨S63x1, .i32⟩ : BufTy).Contents (Elt F)) ::
  ternary main_v41 main_v56 main_v52 main_v57 ((fun x i u => Host.scatter scatter_S131072x127_S63x1_S131072x63_0_1_1_1 (fun _ b => b) x i u) : (⟨S131072x127, .f32⟩ : BufTy).Contents (Elt F) → (⟨S63x1, .i32⟩ : BufTy).Contents (Elt F) → (⟨S131072x63, .f32⟩ : BufTy).Contents (Elt F) → (⟨S131072x127, .f32⟩ : BufTy).Contents (Elt F)) :: []

/-- Sweep 2, the left children's write (first half). Statements 113 … 120. -/
abbrev s3a : List (HloOp τ sig (Elt F)) :=
  nullary main_c_52 (constantI S_ 32 127#32) ::
  unary main_c_52 main_v58 (broadcastInDim S63 ![] bcast_S_S63 : (⟨S_, .i32⟩ : BufTy).Contents (Elt F) → (⟨S63, .i32⟩ : BufTy).Contents (Elt F)) ::
  binary main_c_1 main_v58 main_v59 (addi : (⟨S63, .i32⟩ : BufTy).Contents (Elt F) → (⟨S63, .i32⟩ : BufTy).Contents (Elt F) → (⟨S63, .i32⟩ : BufTy).Contents (Elt F)) ::
  ternary main_c_12 main_v59 main_c_1 main_v60 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v60 main_v61 (broadcastInDim S63x1 ![0] bcast_S63_S63x1_0 : (⟨S63, .i32⟩ : BufTy).Contents (Elt F) → (⟨S63x1, .i32⟩ : BufTy).Contents (Elt F)) ::
  binary main_v57 main_v61 main_v62 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  nullary main_c_53 (constantI S_ 32 127#32) ::
  unary main_c_53 main_v63 (broadcastInDim S63 ![] bcast_S_S63 : (⟨S_, .i32⟩ : BufTy).Contents (Elt F) → (⟨S63, .i32⟩ : BufTy).Contents (Elt F)) :: []

/-- Sweep 2, the left children's write (second half). Statements 121 … 131. -/
abbrev s3b : List (HloOp τ sig (Elt F)) :=
  binary main_c main_v63 main_v64 (addi : (⟨S63, .i32⟩ : BufTy).Contents (Elt F) → (⟨S63, .i32⟩ : BufTy).Contents (Elt F) → (⟨S63, .i32⟩ : BufTy).Contents (Elt F)) ::
  ternary main_c_13 main_v64 main_c main_v65 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v65 main_v66 (broadcastInDim S63x1 ![0] bcast_S63_S63x1_0 : (⟨S63, .i32⟩ : BufTy).Contents (Elt F) → (⟨S63x1, .i32⟩ : BufTy).Contents (Elt F)) ::
  binary main_v57 main_v66 main_v67 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  binary main_v62 main_v67 main_v68 (minimumf : (⟨S131072x63, .f32⟩ : BufTy).Contents (Elt F) → (⟨S131072x63, .f32⟩ : BufTy).Contents (Elt F) → (⟨S131072x63, .f32⟩ : BufTy).Contents (Elt F)) ::
  nullary main_c_54 (constantI S_ 32 127#32) ::
  unary main_c_54 main_v69 (broadcastInDim S63 ![] bcast_S_S63 : (⟨S_, .i32⟩ : BufTy).Contents (Elt F) → (⟨S63, .i32⟩ : BufTy).Contents (Elt F)) ::
  binary main_c_1 main_v69 main_v70 (addi : (⟨S63, .i32⟩ : BufTy).Contents (Elt F) → (⟨S63, .i32⟩ : BufTy).Contents (Elt F) → (⟨S63, .i32⟩ : BufTy).Contents (Elt F)) ::
  ternary main_c_14 main_v70 main_c_1 main_v71 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v71 main_v72 (broadcastInDim S63x1 ![0] bcast_S63_S63x1_0 : (⟨S63, .i32⟩ : BufTy).Contents (Elt F) → (⟨S63x1, .i32⟩ : BufTy).Contents (Elt F)) ::
  ternary main_v57 main_v72 main_v68 main_v73 ((fun x i u => Host.scatter scatter_S131072x127_S63x1_S131072x63_0_1_1_1 (fun _ b => b) x i u) : (⟨S131072x127, .f32⟩ : BufTy).Contents (Elt F) → (⟨S63x1, .i32⟩ : BufTy).Contents (Elt F) → (⟨S131072x63, .f32⟩ : BufTy).Contents (Elt F) → (⟨S131072x127, .f32⟩ : BufTy).Contents (Elt F)) :: []

/-- Sweep 2, the right children's write. Statements 132 … 150. -/
abbrev s4 : List (HloOp τ sig (Elt F)) :=
  nullary main_c_55 (constantI S_ 32 127#32) ::
  unary main_c_55 main_v74 (broadcastInDim S63 ![] bcast_S_S63 : (⟨S_, .i32⟩ : BufTy).Contents (Elt F) → (⟨S63, .i32⟩ : BufTy).Contents (Elt F)) ::
  binary main_c_4 main_v74 main_v75 (addi : (⟨S63, .i32⟩ : BufTy).Contents (Elt F) → (⟨S63, .i32⟩ : BufTy).Contents (Elt F) → (⟨S63, .i32⟩ : BufTy).Contents (Elt F)) ::
  ternary main_c_15 main_v75 main_c_4 main_v76 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v76 main_v77 (broadcastInDim S63x1 ![0] bcast_S63_S63x1_0 : (⟨S63, .i32⟩ : BufTy).Contents (Elt F) → (⟨S63x1, .i32⟩ : BufTy).Contents (Elt F)) ::
  binary main_v73 main_v77 main_v78 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  nullary main_c_56 (constantI S_ 32 127#32) ::
  unary main_c_56 main_v79 (broadcastInDim S63 ![] bcast_S_S63 : (⟨S_, .i32⟩ : BufTy).Contents (Elt F) → (⟨S63, .i32⟩ : BufTy).Contents (Elt F)) ::
  binary main_c main_v79 main_v80 (addi : (⟨S63, .i32⟩ : BufTy).Contents (Elt F) → (⟨S63, .i32⟩ : BufTy).Contents (Elt F) → (⟨S63, .i32⟩ : BufTy).Contents (Elt F)) ::
  ternary main_c_16 main_v80 main_c main_v81 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v81 main_v82 (broadcastInDim S63x1 ![0] bcast_S63_S63x1_0 : (⟨S63, .i32⟩ : BufTy).Contents (Elt F) → (⟨S63x1, .i32⟩ : BufTy).Contents (Elt F)) ::
  binary main_v73 main_v82 main_v83 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  binary main_v78 main_v83 main_v84 (minimumf : (⟨S131072x63, .f32⟩ : BufTy).Contents (Elt F) → (⟨S131072x63, .f32⟩ : BufTy).Contents (Elt F) → (⟨S131072x63, .f32⟩ : BufTy).Contents (Elt F)) ::
  nullary main_c_57 (constantI S_ 32 127#32) ::
  unary main_c_57 main_v85 (broadcastInDim S63 ![] bcast_S_S63 : (⟨S_, .i32⟩ : BufTy).Contents (Elt F) → (⟨S63, .i32⟩ : BufTy).Contents (Elt F)) ::
  binary main_c_4 main_v85 main_v86 (addi : (⟨S63, .i32⟩ : BufTy).Contents (Elt F) → (⟨S63, .i32⟩ : BufTy).Contents (Elt F) → (⟨S63, .i32⟩ : BufTy).Contents (Elt F)) ::
  ternary main_c_17 main_v86 main_c_4 main_v87 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v87 main_v88 (broadcastInDim S63x1 ![0] bcast_S63_S63x1_0 : (⟨S63, .i32⟩ : BufTy).Contents (Elt F) → (⟨S63x1, .i32⟩ : BufTy).Contents (Elt F)) ::
  ternary main_v73 main_v88 main_v84 main_v89 ((fun x i u => Host.scatter scatter_S131072x127_S63x1_S131072x63_0_1_1_1 (fun _ b => b) x i u) : (⟨S131072x127, .f32⟩ : BufTy).Contents (Elt F) → (⟨S63x1, .i32⟩ : BufTy).Contents (Elt F) → (⟨S131072x63, .f32⟩ : BufTy).Contents (Elt F) → (⟨S131072x127, .f32⟩ : BufTy).Contents (Elt F)) :: []

/-- Sweep 3, the left children's write. Statements 151 … 169. -/
abbrev s5 : List (HloOp τ sig (Elt F)) :=
  nullary main_c_58 (constantI S_ 32 127#32) ::
  unary main_c_58 main_v90 (broadcastInDim S63 ![] bcast_S_S63 : (⟨S_, .i32⟩ : BufTy).Contents (Elt F) → (⟨S63, .i32⟩ : BufTy).Contents (Elt F)) ::
  binary main_c_1 main_v90 main_v91 (addi : (⟨S63, .i32⟩ : BufTy).Contents (Elt F) → (⟨S63, .i32⟩ : BufTy).Contents (Elt F) → (⟨S63, .i32⟩ : BufTy).Contents (Elt F)) ::
  ternary main_c_18 main_v91 main_c_1 main_v92 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v92 main_v93 (broadcastInDim S63x1 ![0] bcast_S63_S63x1_0 : (⟨S63, .i32⟩ : BufTy).Contents (Elt F) → (⟨S63x1, .i32⟩ : BufTy).Contents (Elt F)) ::
  binary main_v89 main_v93 main_v94 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  nullary main_c_59 (constantI S_ 32 127#32) ::
  unary main_c_59 main_v95 (broadcastInDim S63 ![] bcast_S_S63 : (⟨S_, .i32⟩ : BufTy).Contents (Elt F) → (⟨S63, .i32⟩ : BufTy).Contents (Elt F)) ::
  binary main_c main_v95 main_v96 (addi : (⟨S63, .i32⟩ : BufTy).Contents (Elt F) → (⟨S63, .i32⟩ : BufTy).Contents (Elt F) → (⟨S63, .i32⟩ : BufTy).Contents (Elt F)) ::
  ternary main_c_19 main_v96 main_c main_v97 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v97 main_v98 (broadcastInDim S63x1 ![0] bcast_S63_S63x1_0 : (⟨S63, .i32⟩ : BufTy).Contents (Elt F) → (⟨S63x1, .i32⟩ : BufTy).Contents (Elt F)) ::
  binary main_v89 main_v98 main_v99 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  binary main_v94 main_v99 main_v100 (minimumf : (⟨S131072x63, .f32⟩ : BufTy).Contents (Elt F) → (⟨S131072x63, .f32⟩ : BufTy).Contents (Elt F) → (⟨S131072x63, .f32⟩ : BufTy).Contents (Elt F)) ::
  nullary main_c_60 (constantI S_ 32 127#32) ::
  unary main_c_60 main_v101 (broadcastInDim S63 ![] bcast_S_S63 : (⟨S_, .i32⟩ : BufTy).Contents (Elt F) → (⟨S63, .i32⟩ : BufTy).Contents (Elt F)) ::
  binary main_c_1 main_v101 main_v102 (addi : (⟨S63, .i32⟩ : BufTy).Contents (Elt F) → (⟨S63, .i32⟩ : BufTy).Contents (Elt F) → (⟨S63, .i32⟩ : BufTy).Contents (Elt F)) ::
  ternary main_c_20 main_v102 main_c_1 main_v103 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v103 main_v104 (broadcastInDim S63x1 ![0] bcast_S63_S63x1_0 : (⟨S63, .i32⟩ : BufTy).Contents (Elt F) → (⟨S63x1, .i32⟩ : BufTy).Contents (Elt F)) ::
  ternary main_v89 main_v104 main_v100 main_v105 ((fun x i u => Host.scatter scatter_S131072x127_S63x1_S131072x63_0_1_1_1 (fun _ b => b) x i u) : (⟨S131072x127, .f32⟩ : BufTy).Contents (Elt F) → (⟨S63x1, .i32⟩ : BufTy).Contents (Elt F) → (⟨S131072x63, .f32⟩ : BufTy).Contents (Elt F) → (⟨S131072x127, .f32⟩ : BufTy).Contents (Elt F)) :: []

/-- Sweep 3, the right children's write (first half). Statements 170 … 180. -/
abbrev s6a : List (HloOp τ sig (Elt F)) :=
  nullary main_c_61 (constantI S_ 32 127#32) ::
  unary main_c_61 main_v106 (broadcastInDim S63 ![] bcast_S_S63 : (⟨S_, .i32⟩ : BufTy).Contents (Elt F) → (⟨S63, .i32⟩ : BufTy).Contents (Elt F)) ::
  binary main_c_4 main_v106 main_v107 (addi : (⟨S63, .i32⟩ : BufTy).Contents (Elt F) → (⟨S63, .i32⟩ : BufTy).Contents (Elt F) → (⟨S63, .i32⟩ : BufTy).Contents (Elt F)) ::
  ternary main_c_21 main_v107 main_c_4 main_v108 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v108 main_v109 (broadcastInDim S63x1 ![0] bcast_S63_S63x1_0 : (⟨S63, .i32⟩ : BufTy).Contents (Elt F) → (⟨S63x1, .i32⟩ : BufTy).Contents (Elt F)) ::
  binary main_v105 main_v109 main_v110 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  nullary main_c_62 (constantI S_ 32 127#32) ::
  unary main_c_62 main_v111 (broadcastInDim S63 ![] bcast_S_S63 : (⟨S_, .i32⟩ : BufTy).Contents (Elt F) → (⟨S63, .i32⟩ : BufTy).Contents (Elt F)) ::
  binary main_c main_v111 main_v112 (addi : (⟨S63, .i32⟩ : BufTy).Contents (Elt F) → (⟨S63, .i32⟩ : BufTy).Contents (Elt F) → (⟨S63, .i32⟩ : BufTy).Contents (Elt F)) ::
  ternary main_c_22 main_v112 main_c main_v113 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v113 main_v114 (broadcastInDim S63x1 ![0] bcast_S63_S63x1_0 : (⟨S63, .i32⟩ : BufTy).Contents (Elt F) → (⟨S63x1, .i32⟩ : BufTy).Contents (Elt F)) :: []

/-- Sweep 3, the right children's write (second half). Statements 181 … 188. -/
abbrev s6b : List (HloOp τ sig (Elt F)) :=
  binary main_v105 main_v114 main_v115 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  binary main_v110 main_v115 main_v116 (minimumf : (⟨S131072x63, .f32⟩ : BufTy).Contents (Elt F) → (⟨S131072x63, .f32⟩ : BufTy).Contents (Elt F) → (⟨S131072x63, .f32⟩ : BufTy).Contents (Elt F)) ::
  nullary main_c_63 (constantI S_ 32 127#32) ::
  unary main_c_63 main_v117 (broadcastInDim S63 ![] bcast_S_S63 : (⟨S_, .i32⟩ : BufTy).Contents (Elt F) → (⟨S63, .i32⟩ : BufTy).Contents (Elt F)) ::
  binary main_c_4 main_v117 main_v118 (addi : (⟨S63, .i32⟩ : BufTy).Contents (Elt F) → (⟨S63, .i32⟩ : BufTy).Contents (Elt F) → (⟨S63, .i32⟩ : BufTy).Contents (Elt F)) ::
  ternary main_c_23 main_v118 main_c_4 main_v119 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v119 main_v120 (broadcastInDim S63x1 ![0] bcast_S63_S63x1_0 : (⟨S63, .i32⟩ : BufTy).Contents (Elt F) → (⟨S63x1, .i32⟩ : BufTy).Contents (Elt F)) ::
  ternary main_v105 main_v120 main_v116 main_v121 ((fun x i u => Host.scatter scatter_S131072x127_S63x1_S131072x63_0_1_1_1 (fun _ b => b) x i u) : (⟨S131072x127, .f32⟩ : BufTy).Contents (Elt F) → (⟨S63x1, .i32⟩ : BufTy).Contents (Elt F) → (⟨S131072x63, .f32⟩ : BufTy).Contents (Elt F) → (⟨S131072x127, .f32⟩ : BufTy).Contents (Elt F)) :: []

/-- Sweep 4, the left children's write. Statements 189 … 207. -/
abbrev s7 : List (HloOp τ sig (Elt F)) :=
  nullary main_c_64 (constantI S_ 32 127#32) ::
  unary main_c_64 main_v122 (broadcastInDim S63 ![] bcast_S_S63 : (⟨S_, .i32⟩ : BufTy).Contents (Elt F) → (⟨S63, .i32⟩ : BufTy).Contents (Elt F)) ::
  binary main_c_1 main_v122 main_v123 (addi : (⟨S63, .i32⟩ : BufTy).Contents (Elt F) → (⟨S63, .i32⟩ : BufTy).Contents (Elt F) → (⟨S63, .i32⟩ : BufTy).Contents (Elt F)) ::
  ternary main_c_24 main_v123 main_c_1 main_v124 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v124 main_v125 (broadcastInDim S63x1 ![0] bcast_S63_S63x1_0 : (⟨S63, .i32⟩ : BufTy).Contents (Elt F) → (⟨S63x1, .i32⟩ : BufTy).Contents (Elt F)) ::
  binary main_v121 main_v125 main_v126 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  nullary main_c_65 (constantI S_ 32 127#32) ::
  unary main_c_65 main_v127 (broadcastInDim S63 ![] bcast_S_S63 : (⟨S_, .i32⟩ : BufTy).Contents (Elt F) → (⟨S63, .i32⟩ : BufTy).Contents (Elt F)) ::
  binary main_c main_v127 main_v128 (addi : (⟨S63, .i32⟩ : BufTy).Contents (Elt F) → (⟨S63, .i32⟩ : BufTy).Contents (Elt F) → (⟨S63, .i32⟩ : BufTy).Contents (Elt F)) ::
  ternary main_c_25 main_v128 main_c main_v129 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v129 main_v130 (broadcastInDim S63x1 ![0] bcast_S63_S63x1_0 : (⟨S63, .i32⟩ : BufTy).Contents (Elt F) → (⟨S63x1, .i32⟩ : BufTy).Contents (Elt F)) ::
  binary main_v121 main_v130 main_v131 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  binary main_v126 main_v131 main_v132 (minimumf : (⟨S131072x63, .f32⟩ : BufTy).Contents (Elt F) → (⟨S131072x63, .f32⟩ : BufTy).Contents (Elt F) → (⟨S131072x63, .f32⟩ : BufTy).Contents (Elt F)) ::
  nullary main_c_66 (constantI S_ 32 127#32) ::
  unary main_c_66 main_v133 (broadcastInDim S63 ![] bcast_S_S63 : (⟨S_, .i32⟩ : BufTy).Contents (Elt F) → (⟨S63, .i32⟩ : BufTy).Contents (Elt F)) ::
  binary main_c_1 main_v133 main_v134 (addi : (⟨S63, .i32⟩ : BufTy).Contents (Elt F) → (⟨S63, .i32⟩ : BufTy).Contents (Elt F) → (⟨S63, .i32⟩ : BufTy).Contents (Elt F)) ::
  ternary main_c_26 main_v134 main_c_1 main_v135 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v135 main_v136 (broadcastInDim S63x1 ![0] bcast_S63_S63x1_0 : (⟨S63, .i32⟩ : BufTy).Contents (Elt F) → (⟨S63x1, .i32⟩ : BufTy).Contents (Elt F)) ::
  ternary main_v121 main_v136 main_v132 main_v137 ((fun x i u => Host.scatter scatter_S131072x127_S63x1_S131072x63_0_1_1_1 (fun _ b => b) x i u) : (⟨S131072x127, .f32⟩ : BufTy).Contents (Elt F) → (⟨S63x1, .i32⟩ : BufTy).Contents (Elt F) → (⟨S131072x63, .f32⟩ : BufTy).Contents (Elt F) → (⟨S131072x127, .f32⟩ : BufTy).Contents (Elt F)) :: []

/-- Sweep 4, the right children's write. Statements 208 … 226. -/
abbrev s8 : List (HloOp τ sig (Elt F)) :=
  nullary main_c_67 (constantI S_ 32 127#32) ::
  unary main_c_67 main_v138 (broadcastInDim S63 ![] bcast_S_S63 : (⟨S_, .i32⟩ : BufTy).Contents (Elt F) → (⟨S63, .i32⟩ : BufTy).Contents (Elt F)) ::
  binary main_c_4 main_v138 main_v139 (addi : (⟨S63, .i32⟩ : BufTy).Contents (Elt F) → (⟨S63, .i32⟩ : BufTy).Contents (Elt F) → (⟨S63, .i32⟩ : BufTy).Contents (Elt F)) ::
  ternary main_c_27 main_v139 main_c_4 main_v140 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v140 main_v141 (broadcastInDim S63x1 ![0] bcast_S63_S63x1_0 : (⟨S63, .i32⟩ : BufTy).Contents (Elt F) → (⟨S63x1, .i32⟩ : BufTy).Contents (Elt F)) ::
  binary main_v137 main_v141 main_v142 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  nullary main_c_68 (constantI S_ 32 127#32) ::
  unary main_c_68 main_v143 (broadcastInDim S63 ![] bcast_S_S63 : (⟨S_, .i32⟩ : BufTy).Contents (Elt F) → (⟨S63, .i32⟩ : BufTy).Contents (Elt F)) ::
  binary main_c main_v143 main_v144 (addi : (⟨S63, .i32⟩ : BufTy).Contents (Elt F) → (⟨S63, .i32⟩ : BufTy).Contents (Elt F) → (⟨S63, .i32⟩ : BufTy).Contents (Elt F)) ::
  ternary main_c_28 main_v144 main_c main_v145 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v145 main_v146 (broadcastInDim S63x1 ![0] bcast_S63_S63x1_0 : (⟨S63, .i32⟩ : BufTy).Contents (Elt F) → (⟨S63x1, .i32⟩ : BufTy).Contents (Elt F)) ::
  binary main_v137 main_v146 main_v147 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  binary main_v142 main_v147 main_v148 (minimumf : (⟨S131072x63, .f32⟩ : BufTy).Contents (Elt F) → (⟨S131072x63, .f32⟩ : BufTy).Contents (Elt F) → (⟨S131072x63, .f32⟩ : BufTy).Contents (Elt F)) ::
  nullary main_c_69 (constantI S_ 32 127#32) ::
  unary main_c_69 main_v149 (broadcastInDim S63 ![] bcast_S_S63 : (⟨S_, .i32⟩ : BufTy).Contents (Elt F) → (⟨S63, .i32⟩ : BufTy).Contents (Elt F)) ::
  binary main_c_4 main_v149 main_v150 (addi : (⟨S63, .i32⟩ : BufTy).Contents (Elt F) → (⟨S63, .i32⟩ : BufTy).Contents (Elt F) → (⟨S63, .i32⟩ : BufTy).Contents (Elt F)) ::
  ternary main_c_29 main_v150 main_c_4 main_v151 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v151 main_v152 (broadcastInDim S63x1 ![0] bcast_S63_S63x1_0 : (⟨S63, .i32⟩ : BufTy).Contents (Elt F) → (⟨S63x1, .i32⟩ : BufTy).Contents (Elt F)) ::
  ternary main_v137 main_v152 main_v148 main_v153 ((fun x i u => Host.scatter scatter_S131072x127_S63x1_S131072x63_0_1_1_1 (fun _ b => b) x i u) : (⟨S131072x127, .f32⟩ : BufTy).Contents (Elt F) → (⟨S63x1, .i32⟩ : BufTy).Contents (Elt F) → (⟨S131072x63, .f32⟩ : BufTy).Contents (Elt F) → (⟨S131072x127, .f32⟩ : BufTy).Contents (Elt F)) :: []

/-- Sweep 5, the left children's write (first half). Statements 227 … 240. -/
abbrev s9a : List (HloOp τ sig (Elt F)) :=
  nullary main_c_70 (constantI S_ 32 127#32) ::
  unary main_c_70 main_v154 (broadcastInDim S63 ![] bcast_S_S63 : (⟨S_, .i32⟩ : BufTy).Contents (Elt F) → (⟨S63, .i32⟩ : BufTy).Contents (Elt F)) ::
  binary main_c_1 main_v154 main_v155 (addi : (⟨S63, .i32⟩ : BufTy).Contents (Elt F) → (⟨S63, .i32⟩ : BufTy).Contents (Elt F) → (⟨S63, .i32⟩ : BufTy).Contents (Elt F)) ::
  ternary main_c_30 main_v155 main_c_1 main_v156 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v156 main_v157 (broadcastInDim S63x1 ![0] bcast_S63_S63x1_0 : (⟨S63, .i32⟩ : BufTy).Contents (Elt F) → (⟨S63x1, .i32⟩ : BufTy).Contents (Elt F)) ::
  binary main_v153 main_v157 main_v158 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  nullary main_c_71 (constantI S_ 32 127#32) ::
  unary main_c_71 main_v159 (broadcastInDim S63 ![] bcast_S_S63 : (⟨S_, .i32⟩ : BufTy).Contents (Elt F) → (⟨S63, .i32⟩ : BufTy).Contents (Elt F)) ::
  binary main_c main_v159 main_v160 (addi : (⟨S63, .i32⟩ : BufTy).Contents (Elt F) → (⟨S63, .i32⟩ : BufTy).Contents (Elt F) → (⟨S63, .i32⟩ : BufTy).Contents (Elt F)) ::
  ternary main_c_31 main_v160 main_c main_v161 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v161 main_v162 (broadcastInDim S63x1 ![0] bcast_S63_S63x1_0 : (⟨S63, .i32⟩ : BufTy).Contents (Elt F) → (⟨S63x1, .i32⟩ : BufTy).Contents (Elt F)) ::
  binary main_v153 main_v162 main_v163 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  binary main_v158 main_v163 main_v164 (minimumf : (⟨S131072x63, .f32⟩ : BufTy).Contents (Elt F) → (⟨S131072x63, .f32⟩ : BufTy).Contents (Elt F) → (⟨S131072x63, .f32⟩ : BufTy).Contents (Elt F)) ::
  nullary main_c_72 (constantI S_ 32 127#32) :: []

/-- Sweep 5, the left children's write (second half). Statements 241 … 245. -/
abbrev s9b : List (HloOp τ sig (Elt F)) :=
  unary main_c_72 main_v165 (broadcastInDim S63 ![] bcast_S_S63 : (⟨S_, .i32⟩ : BufTy).Contents (Elt F) → (⟨S63, .i32⟩ : BufTy).Contents (Elt F)) ::
  binary main_c_1 main_v165 main_v166 (addi : (⟨S63, .i32⟩ : BufTy).Contents (Elt F) → (⟨S63, .i32⟩ : BufTy).Contents (Elt F) → (⟨S63, .i32⟩ : BufTy).Contents (Elt F)) ::
  ternary main_c_32 main_v166 main_c_1 main_v167 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v167 main_v168 (broadcastInDim S63x1 ![0] bcast_S63_S63x1_0 : (⟨S63, .i32⟩ : BufTy).Contents (Elt F) → (⟨S63x1, .i32⟩ : BufTy).Contents (Elt F)) ::
  ternary main_v153 main_v168 main_v164 main_v169 ((fun x i u => Host.scatter scatter_S131072x127_S63x1_S131072x63_0_1_1_1 (fun _ b => b) x i u) : (⟨S131072x127, .f32⟩ : BufTy).Contents (Elt F) → (⟨S63x1, .i32⟩ : BufTy).Contents (Elt F) → (⟨S131072x63, .f32⟩ : BufTy).Contents (Elt F) → (⟨S131072x127, .f32⟩ : BufTy).Contents (Elt F)) :: []

/-- Sweep 5, the right children's write. Statements 246 … 264. -/
abbrev s10 : List (HloOp τ sig (Elt F)) :=
  nullary main_c_73 (constantI S_ 32 127#32) ::
  unary main_c_73 main_v170 (broadcastInDim S63 ![] bcast_S_S63 : (⟨S_, .i32⟩ : BufTy).Contents (Elt F) → (⟨S63, .i32⟩ : BufTy).Contents (Elt F)) ::
  binary main_c_4 main_v170 main_v171 (addi : (⟨S63, .i32⟩ : BufTy).Contents (Elt F) → (⟨S63, .i32⟩ : BufTy).Contents (Elt F) → (⟨S63, .i32⟩ : BufTy).Contents (Elt F)) ::
  ternary main_c_33 main_v171 main_c_4 main_v172 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v172 main_v173 (broadcastInDim S63x1 ![0] bcast_S63_S63x1_0 : (⟨S63, .i32⟩ : BufTy).Contents (Elt F) → (⟨S63x1, .i32⟩ : BufTy).Contents (Elt F)) ::
  binary main_v169 main_v173 main_v174 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  nullary main_c_74 (constantI S_ 32 127#32) ::
  unary main_c_74 main_v175 (broadcastInDim S63 ![] bcast_S_S63 : (⟨S_, .i32⟩ : BufTy).Contents (Elt F) → (⟨S63, .i32⟩ : BufTy).Contents (Elt F)) ::
  binary main_c main_v175 main_v176 (addi : (⟨S63, .i32⟩ : BufTy).Contents (Elt F) → (⟨S63, .i32⟩ : BufTy).Contents (Elt F) → (⟨S63, .i32⟩ : BufTy).Contents (Elt F)) ::
  ternary main_c_34 main_v176 main_c main_v177 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v177 main_v178 (broadcastInDim S63x1 ![0] bcast_S63_S63x1_0 : (⟨S63, .i32⟩ : BufTy).Contents (Elt F) → (⟨S63x1, .i32⟩ : BufTy).Contents (Elt F)) ::
  binary main_v169 main_v178 main_v179 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  binary main_v174 main_v179 main_v180 (minimumf : (⟨S131072x63, .f32⟩ : BufTy).Contents (Elt F) → (⟨S131072x63, .f32⟩ : BufTy).Contents (Elt F) → (⟨S131072x63, .f32⟩ : BufTy).Contents (Elt F)) ::
  nullary main_c_75 (constantI S_ 32 127#32) ::
  unary main_c_75 main_v181 (broadcastInDim S63 ![] bcast_S_S63 : (⟨S_, .i32⟩ : BufTy).Contents (Elt F) → (⟨S63, .i32⟩ : BufTy).Contents (Elt F)) ::
  binary main_c_4 main_v181 main_v182 (addi : (⟨S63, .i32⟩ : BufTy).Contents (Elt F) → (⟨S63, .i32⟩ : BufTy).Contents (Elt F) → (⟨S63, .i32⟩ : BufTy).Contents (Elt F)) ::
  ternary main_c_35 main_v182 main_c_4 main_v183 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v183 main_v184 (broadcastInDim S63x1 ![0] bcast_S63_S63x1_0 : (⟨S63, .i32⟩ : BufTy).Contents (Elt F) → (⟨S63x1, .i32⟩ : BufTy).Contents (Elt F)) ::
  ternary main_v169 main_v184 main_v180 main_v185 ((fun x i u => Host.scatter scatter_S131072x127_S63x1_S131072x63_0_1_1_1 (fun _ b => b) x i u) : (⟨S131072x127, .f32⟩ : BufTy).Contents (Elt F) → (⟨S63x1, .i32⟩ : BufTy).Contents (Elt F) → (⟨S131072x63, .f32⟩ : BufTy).Contents (Elt F) → (⟨S131072x127, .f32⟩ : BufTy).Contents (Elt F)) :: []

/-- Sweep 6, the left children's write. Statements 265 … 283. -/
abbrev s11 : List (HloOp τ sig (Elt F)) :=
  nullary main_c_76 (constantI S_ 32 127#32) ::
  unary main_c_76 main_v186 (broadcastInDim S63 ![] bcast_S_S63 : (⟨S_, .i32⟩ : BufTy).Contents (Elt F) → (⟨S63, .i32⟩ : BufTy).Contents (Elt F)) ::
  binary main_c_1 main_v186 main_v187 (addi : (⟨S63, .i32⟩ : BufTy).Contents (Elt F) → (⟨S63, .i32⟩ : BufTy).Contents (Elt F) → (⟨S63, .i32⟩ : BufTy).Contents (Elt F)) ::
  ternary main_c_36 main_v187 main_c_1 main_v188 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v188 main_v189 (broadcastInDim S63x1 ![0] bcast_S63_S63x1_0 : (⟨S63, .i32⟩ : BufTy).Contents (Elt F) → (⟨S63x1, .i32⟩ : BufTy).Contents (Elt F)) ::
  binary main_v185 main_v189 main_v190 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  nullary main_c_77 (constantI S_ 32 127#32) ::
  unary main_c_77 main_v191 (broadcastInDim S63 ![] bcast_S_S63 : (⟨S_, .i32⟩ : BufTy).Contents (Elt F) → (⟨S63, .i32⟩ : BufTy).Contents (Elt F)) ::
  binary main_c main_v191 main_v192 (addi : (⟨S63, .i32⟩ : BufTy).Contents (Elt F) → (⟨S63, .i32⟩ : BufTy).Contents (Elt F) → (⟨S63, .i32⟩ : BufTy).Contents (Elt F)) ::
  ternary main_c_37 main_v192 main_c main_v193 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v193 main_v194 (broadcastInDim S63x1 ![0] bcast_S63_S63x1_0 : (⟨S63, .i32⟩ : BufTy).Contents (Elt F) → (⟨S63x1, .i32⟩ : BufTy).Contents (Elt F)) ::
  binary main_v185 main_v194 main_v195 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  binary main_v190 main_v195 main_v196 (minimumf : (⟨S131072x63, .f32⟩ : BufTy).Contents (Elt F) → (⟨S131072x63, .f32⟩ : BufTy).Contents (Elt F) → (⟨S131072x63, .f32⟩ : BufTy).Contents (Elt F)) ::
  nullary main_c_78 (constantI S_ 32 127#32) ::
  unary main_c_78 main_v197 (broadcastInDim S63 ![] bcast_S_S63 : (⟨S_, .i32⟩ : BufTy).Contents (Elt F) → (⟨S63, .i32⟩ : BufTy).Contents (Elt F)) ::
  binary main_c_1 main_v197 main_v198 (addi : (⟨S63, .i32⟩ : BufTy).Contents (Elt F) → (⟨S63, .i32⟩ : BufTy).Contents (Elt F) → (⟨S63, .i32⟩ : BufTy).Contents (Elt F)) ::
  ternary main_c_38 main_v198 main_c_1 main_v199 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v199 main_v200 (broadcastInDim S63x1 ![0] bcast_S63_S63x1_0 : (⟨S63, .i32⟩ : BufTy).Contents (Elt F) → (⟨S63x1, .i32⟩ : BufTy).Contents (Elt F)) ::
  ternary main_v185 main_v200 main_v196 main_v201 ((fun x i u => Host.scatter scatter_S131072x127_S63x1_S131072x63_0_1_1_1 (fun _ b => b) x i u) : (⟨S131072x127, .f32⟩ : BufTy).Contents (Elt F) → (⟨S63x1, .i32⟩ : BufTy).Contents (Elt F) → (⟨S131072x63, .f32⟩ : BufTy).Contents (Elt F) → (⟨S131072x127, .f32⟩ : BufTy).Contents (Elt F)) :: []

/-- Sweep 6, the right children's write (first half). Statements 284 … 300. -/
abbrev s12a : List (HloOp τ sig (Elt F)) :=
  nullary main_c_79 (constantI S_ 32 127#32) ::
  unary main_c_79 main_v202 (broadcastInDim S63 ![] bcast_S_S63 : (⟨S_, .i32⟩ : BufTy).Contents (Elt F) → (⟨S63, .i32⟩ : BufTy).Contents (Elt F)) ::
  binary main_c_4 main_v202 main_v203 (addi : (⟨S63, .i32⟩ : BufTy).Contents (Elt F) → (⟨S63, .i32⟩ : BufTy).Contents (Elt F) → (⟨S63, .i32⟩ : BufTy).Contents (Elt F)) ::
  ternary main_c_39 main_v203 main_c_4 main_v204 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v204 main_v205 (broadcastInDim S63x1 ![0] bcast_S63_S63x1_0 : (⟨S63, .i32⟩ : BufTy).Contents (Elt F) → (⟨S63x1, .i32⟩ : BufTy).Contents (Elt F)) ::
  binary main_v201 main_v205 main_v206 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  nullary main_c_80 (constantI S_ 32 127#32) ::
  unary main_c_80 main_v207 (broadcastInDim S63 ![] bcast_S_S63 : (⟨S_, .i32⟩ : BufTy).Contents (Elt F) → (⟨S63, .i32⟩ : BufTy).Contents (Elt F)) ::
  binary main_c main_v207 main_v208 (addi : (⟨S63, .i32⟩ : BufTy).Contents (Elt F) → (⟨S63, .i32⟩ : BufTy).Contents (Elt F) → (⟨S63, .i32⟩ : BufTy).Contents (Elt F)) ::
  ternary main_c_40 main_v208 main_c main_v209 (select : (⟨S63, .i1⟩ : BufTy).Contents (Elt F) → (⟨S63, .i32⟩ : BufTy).Contents (Elt F) → (⟨S63, .i32⟩ : BufTy).Contents (Elt F) → (⟨S63, .i32⟩ : BufTy).Contents (Elt F)) ::
  unary main_v209 main_v210 (broadcastInDim S63x1 ![0] bcast_S63_S63x1_0 : (⟨S63, .i32⟩ : BufTy).Contents (Elt F) → (⟨S63x1, .i32⟩ : BufTy).Contents (Elt F)) ::
  binary main_v201 main_v210 main_v211 ((fun x i => Host.gather gather_S131072x127_S63x1_S131072x63_0_1_n_n_1_1_1310721 x i) : (⟨S131072x127, .f32⟩ : BufTy).Contents (Elt F) → (⟨S63x1, .i32⟩ : BufTy).Contents (Elt F) → (⟨S131072x63, .f32⟩ : BufTy).Contents (Elt F)) ::
  binary main_v206 main_v211 main_v212 (minimumf : (⟨S131072x63, .f32⟩ : BufTy).Contents (Elt F) → (⟨S131072x63, .f32⟩ : BufTy).Contents (Elt F) → (⟨S131072x63, .f32⟩ : BufTy).Contents (Elt F)) ::
  nullary main_c_81 (constantI S_ 32 127#32) ::
  unary main_c_81 main_v213 (broadcastInDim S63 ![] bcast_S_S63 : (⟨S_, .i32⟩ : BufTy).Contents (Elt F) → (⟨S63, .i32⟩ : BufTy).Contents (Elt F)) ::
  binary main_c_4 main_v213 main_v214 (addi : (⟨S63, .i32⟩ : BufTy).Contents (Elt F) → (⟨S63, .i32⟩ : BufTy).Contents (Elt F) → (⟨S63, .i32⟩ : BufTy).Contents (Elt F)) ::
  ternary main_c_41 main_v214 main_c_4 main_v215 (select : (⟨S63, .i1⟩ : BufTy).Contents (Elt F) → (⟨S63, .i32⟩ : BufTy).Contents (Elt F) → (⟨S63, .i32⟩ : BufTy).Contents (Elt F) → (⟨S63, .i32⟩ : BufTy).Contents (Elt F)) :: []

/-- Sweep 6, the right children's write (second half). Statements 301 … 302. -/
abbrev s12b : List (HloOp τ sig (Elt F)) :=
  unary main_v215 main_v216 (broadcastInDim S63x1 ![0] bcast_S63_S63x1_0 : (⟨S63, .i32⟩ : BufTy).Contents (Elt F) → (⟨S63x1, .i32⟩ : BufTy).Contents (Elt F)) ::
  ternary main_v201 main_v216 main_v212 main_v217 ((fun x i u => Host.scatter scatter_S131072x127_S63x1_S131072x63_0_1_1_1 (fun _ b => b) x i u) : (⟨S131072x127, .f32⟩ : BufTy).Contents (Elt F) → (⟨S63x1, .i32⟩ : BufTy).Contents (Elt F) → (⟨S131072x63, .f32⟩ : BufTy).Contents (Elt F) → (⟨S131072x127, .f32⟩ : BufTy).Contents (Elt F)) :: []

/-- The two bounds and the clip. Statements 303 … 310. -/
abbrev fin : List (HloOp τ sig (Elt F)) :=
  nullary main_cst_82 (constant S_ .f32 0x00000000#32) ::
  nullary main_cst_83 (constant S_ .f32 0x3F800000#32) ::
  TRef.unary (.of main_cst_82 : TRef sig ⟨S_, .f32⟩) main_call0.v0 id ::
  TRef.unary main_call0.v0 main_call0.v1 (broadcastInDim S131072x127 ![] bcast_S_S131072x127) ::
  TRef.binary main_call0.v1 (.of main_v217 : TRef sig ⟨S131072x127, .f32⟩) main_call0.v2 maximumf ::
  TRef.unary (.of main_cst_83 : TRef sig ⟨S_, .f32⟩) main_call0.v3 id ::
  TRef.unary main_call0.v3 main_call0.v4 (broadcastInDim S131072x127 ![] bcast_S_S131072x127) ::
  TRef.binary main_call0.v4 main_call0.v2 main_call0.v5 minimumf :: []

/-- The whole steps that the program's parts cut in two. -/
abbrev s3 : List (HloOp τ sig (Elt F)) := s3a ++ s3b
abbrev s6 : List (HloOp τ sig (Elt F)) := s6a ++ s6b
abbrev s9 : List (HloOp τ sig (Elt F)) := s9a ++ s9b
abbrev s12 : List (HloOp τ sig (Elt F)) := s12a ++ s12b

/-- The program's six parts. -/
abbrev p0 : List (HloOp τ sig (Elt F)) := g0a ++ g0b
abbrev p1 : List (HloOp τ sig (Elt F)) := g1 ++ (s1 ++ (s2 ++ s3a))
abbrev p2 : List (HloOp τ sig (Elt F)) := s3b ++ (s4 ++ (s5 ++ s6a))
abbrev p3 : List (HloOp τ sig (Elt F)) := s6b ++ (s7 ++ (s8 ++ s9a))
abbrev p4 : List (HloOp τ sig (Elt F)) := s9b ++ (s10 ++ (s11 ++ s12a))
abbrev p5 : List (HloOp τ sig (Elt F)) := s12b ++ fin

/-- The program's 310 operations, in order. -/
abbrev ops : List (HloOp τ sig (Elt F)) := p0 ++ (p1 ++ (p2 ++ (p3 ++ (p4 ++ p5))))

/-! ## The list is the program -/

set_option maxRecDepth 8192 in
theorem main_part0_eq (c : Dev nD) : main_part0 (F := F) c = seq p0 := rfl
set_option maxRecDepth 8192 in
theorem main_part1_eq (c : Dev nD) : main_part1 (F := F) c = seq p1 := rfl
set_option maxRecDepth 8192 in
theorem main_part2_eq (c : Dev nD) : main_part2 (F := F) c = seq p2 := rfl
set_option maxRecDepth 8192 in
theorem main_part3_eq (c : Dev nD) : main_part3 (F := F) c = seq p3 := rfl
set_option maxRecDepth 8192 in
theorem main_part4_eq (c : Dev nD) : main_part4 (F := F) c = seq p4 := rfl
set_option maxRecDepth 8192 in
/-- The last part calls the clip: with its body unfolded at the call and the sequencing reassociated, the part is
    the chain of its four statements and the body's six. -/
theorem main_part5_eq (c : Dev nD) : main_part5 (F := F) c = seq p5 := by
  simp only [main_part5, fn_clip.body, bind_assoc, pure_bind]
  rfl

set_option maxRecDepth 8192 in
/-- The program runs its parts in order, and a list's run is its pieces' runs in order. -/
theorem main_eq (c : Dev nD) : main (F := F) c = seq ops := by
  simp only [ops, seq_append, ← main_part0_eq c, ← main_part1_eq c, ← main_part2_eq c, ← main_part3_eq c,
    ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches only device buffers, piece by piece -/

set_option maxRecDepth 8192 in
theorem g0a_sub : (g0a : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub ..⟩
set_option maxRecDepth 8192 in
theorem g0b_sub : (g0b : List (HloOp τ sig (Elt F))).Forall fun op => op.bufs ⊆ tcRefs τ sig :=
  ⟨unary_bufs_sub .., binary_bufs_sub .., nullary_bufs_sub .., unary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub ..⟩
set_option maxRecDepth 8192 in
theorem g1_sub : (g1 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., unary_bufs_sub .., ternary_bufs_sub ..⟩
set_option maxRecDepth 8192 in
theorem s1_sub : (s1 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub ..⟩
set_option maxRecDepth 8192 in
theorem s2_sub : (s2 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub ..⟩
set_option maxRecDepth 8192 in
theorem s3a_sub : (s3a : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub ..⟩
set_option maxRecDepth 8192 in
theorem s3b_sub : (s3b : List (HloOp τ sig (Elt F))).Forall fun op => op.bufs ⊆ tcRefs τ sig :=
  ⟨binary_bufs_sub .., ternary_bufs_sub .., unary_bufs_sub .., binary_bufs_sub .., binary_bufs_sub .., nullary_bufs_sub .., unary_bufs_sub .., binary_bufs_sub .., ternary_bufs_sub .., unary_bufs_sub .., ternary_bufs_sub ..⟩
set_option maxRecDepth 8192 in
theorem s4_sub : (s4 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub ..⟩
set_option maxRecDepth 8192 in
theorem s5_sub : (s5 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub ..⟩
set_option maxRecDepth 8192 in
theorem s6a_sub : (s6a : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub ..⟩
set_option maxRecDepth 8192 in
theorem s6b_sub : (s6b : List (HloOp τ sig (Elt F))).Forall fun op => op.bufs ⊆ tcRefs τ sig :=
  ⟨binary_bufs_sub .., binary_bufs_sub .., nullary_bufs_sub .., unary_bufs_sub .., binary_bufs_sub .., ternary_bufs_sub .., unary_bufs_sub .., ternary_bufs_sub ..⟩
set_option maxRecDepth 8192 in
theorem s7_sub : (s7 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub ..⟩
set_option maxRecDepth 8192 in
theorem s8_sub : (s8 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub ..⟩
set_option maxRecDepth 8192 in
theorem s9a_sub : (s9a : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub ..⟩
set_option maxRecDepth 8192 in
theorem s9b_sub : (s9b : List (HloOp τ sig (Elt F))).Forall fun op => op.bufs ⊆ tcRefs τ sig :=
  ⟨unary_bufs_sub .., binary_bufs_sub .., ternary_bufs_sub .., unary_bufs_sub .., ternary_bufs_sub ..⟩
set_option maxRecDepth 8192 in
theorem s10_sub : (s10 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub ..⟩
set_option maxRecDepth 8192 in
theorem s11_sub : (s11 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub ..⟩
set_option maxRecDepth 8192 in
theorem s12a_sub : (s12a : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub ..⟩
set_option maxRecDepth 8192 in
theorem s12b_sub : (s12b : List (HloOp τ sig (Elt F))).Forall fun op => op.bufs ⊆ tcRefs τ sig :=
  ⟨unary_bufs_sub .., ternary_bufs_sub ..⟩
set_option maxRecDepth 8192 in
theorem fin_sub : (fin : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub ..⟩

/-- A property of every operation of two lists is one of every operation of their concatenation. -/
theorem forall_mem_append {p : HloOp τ sig (Elt F) → Prop} {l₁ l₂ : List (HloOp τ sig (Elt F))}
    (h₁ : ∀ op ∈ l₁, p op) (h₂ : ∀ op ∈ l₂, p op) : ∀ op ∈ l₁ ++ l₂, p op :=
  fun op h => (List.mem_append.mp h).elim (h₁ op) (h₂ op)

theorem ops_sub : (ops : List (HloOp τ sig (Elt F))).Forall fun op => op.bufs ⊆ tcRefs τ sig := by
  simp only [ops, p0, p1, p2, p3, p4, p5, List.forall_append]
  exact ⟨⟨g0a_sub, g0b_sub⟩, ⟨g1_sub, s1_sub, s2_sub, s3a_sub⟩, ⟨s3b_sub, s4_sub, s5_sub, s6a_sub⟩,
    ⟨s6b_sub, s7_sub, s8_sub, s9a_sub⟩, ⟨s9b_sub, s10_sub, s11_sub, s12a_sub⟩, s12b_sub, fin_sub⟩

/-! ## No operation leaves a buffer undetermined, piece by piece -/

theorem g0a_fresh : ∀ op ∈ (g0a : List (HloOp τ sig (Elt F))), op.fresh = ∅ := by
  intro _ h; (repeat (cases h with | head => rfl | tail _ h => ?_)); exact nomatch h
theorem g0b_fresh : ∀ op ∈ (g0b : List (HloOp τ sig (Elt F))), op.fresh = ∅ := by
  intro _ h; (repeat (cases h with | head => rfl | tail _ h => ?_)); exact nomatch h
theorem g1_fresh : ∀ op ∈ (g1 : List (HloOp τ sig (Elt F))), op.fresh = ∅ := by
  intro _ h; (repeat (cases h with | head => rfl | tail _ h => ?_)); exact nomatch h
theorem s1_fresh : ∀ op ∈ (s1 : List (HloOp τ sig (Elt F))), op.fresh = ∅ := by
  intro _ h; (repeat (cases h with | head => rfl | tail _ h => ?_)); exact nomatch h
theorem s2_fresh : ∀ op ∈ (s2 : List (HloOp τ sig (Elt F))), op.fresh = ∅ := by
  intro _ h; (repeat (cases h with | head => rfl | tail _ h => ?_)); exact nomatch h
theorem s3a_fresh : ∀ op ∈ (s3a : List (HloOp τ sig (Elt F))), op.fresh = ∅ := by
  intro _ h; (repeat (cases h with | head => rfl | tail _ h => ?_)); exact nomatch h
theorem s3b_fresh : ∀ op ∈ (s3b : List (HloOp τ sig (Elt F))), op.fresh = ∅ := by
  intro _ h; (repeat (cases h with | head => rfl | tail _ h => ?_)); exact nomatch h
theorem s4_fresh : ∀ op ∈ (s4 : List (HloOp τ sig (Elt F))), op.fresh = ∅ := by
  intro _ h; (repeat (cases h with | head => rfl | tail _ h => ?_)); exact nomatch h
theorem s5_fresh : ∀ op ∈ (s5 : List (HloOp τ sig (Elt F))), op.fresh = ∅ := by
  intro _ h; (repeat (cases h with | head => rfl | tail _ h => ?_)); exact nomatch h
theorem s6a_fresh : ∀ op ∈ (s6a : List (HloOp τ sig (Elt F))), op.fresh = ∅ := by
  intro _ h; (repeat (cases h with | head => rfl | tail _ h => ?_)); exact nomatch h
theorem s6b_fresh : ∀ op ∈ (s6b : List (HloOp τ sig (Elt F))), op.fresh = ∅ := by
  intro _ h; (repeat (cases h with | head => rfl | tail _ h => ?_)); exact nomatch h
theorem s7_fresh : ∀ op ∈ (s7 : List (HloOp τ sig (Elt F))), op.fresh = ∅ := by
  intro _ h; (repeat (cases h with | head => rfl | tail _ h => ?_)); exact nomatch h
theorem s8_fresh : ∀ op ∈ (s8 : List (HloOp τ sig (Elt F))), op.fresh = ∅ := by
  intro _ h; (repeat (cases h with | head => rfl | tail _ h => ?_)); exact nomatch h
theorem s9a_fresh : ∀ op ∈ (s9a : List (HloOp τ sig (Elt F))), op.fresh = ∅ := by
  intro _ h; (repeat (cases h with | head => rfl | tail _ h => ?_)); exact nomatch h
theorem s9b_fresh : ∀ op ∈ (s9b : List (HloOp τ sig (Elt F))), op.fresh = ∅ := by
  intro _ h; (repeat (cases h with | head => rfl | tail _ h => ?_)); exact nomatch h
theorem s10_fresh : ∀ op ∈ (s10 : List (HloOp τ sig (Elt F))), op.fresh = ∅ := by
  intro _ h; (repeat (cases h with | head => rfl | tail _ h => ?_)); exact nomatch h
theorem s11_fresh : ∀ op ∈ (s11 : List (HloOp τ sig (Elt F))), op.fresh = ∅ := by
  intro _ h; (repeat (cases h with | head => rfl | tail _ h => ?_)); exact nomatch h
theorem s12a_fresh : ∀ op ∈ (s12a : List (HloOp τ sig (Elt F))), op.fresh = ∅ := by
  intro _ h; (repeat (cases h with | head => rfl | tail _ h => ?_)); exact nomatch h
theorem s12b_fresh : ∀ op ∈ (s12b : List (HloOp τ sig (Elt F))), op.fresh = ∅ := by
  intro _ h; (repeat (cases h with | head => rfl | tail _ h => ?_)); exact nomatch h
theorem fin_fresh : ∀ op ∈ (fin : List (HloOp τ sig (Elt F))), op.fresh = ∅ := by
  intro _ h; (repeat (cases h with | head => rfl | tail _ h => ?_)); exact nomatch h

theorem ops_fresh : ∀ op ∈ (ops : List (HloOp τ sig (Elt F))), op.fresh = ∅ :=
  forall_mem_append (forall_mem_append g0a_fresh g0b_fresh)
    (forall_mem_append (forall_mem_append g1_fresh (forall_mem_append s1_fresh (forall_mem_append s2_fresh s3a_fresh)))
      (forall_mem_append (forall_mem_append s3b_fresh (forall_mem_append s4_fresh (forall_mem_append s5_fresh s6a_fresh)))
        (forall_mem_append (forall_mem_append s6b_fresh (forall_mem_append s7_fresh (forall_mem_append s8_fresh s9a_fresh)))
          (forall_mem_append (forall_mem_append s9b_fresh (forall_mem_append s10_fresh (forall_mem_append s11_fresh s12a_fresh)))
            (forall_mem_append s12b_fresh fin_fresh)))))

/-- On every device, for any float values, from any memory with zero counters: every weakly fair execution of the
    program terminates, and every final state has each device buffer at the fold of the operations over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.RVal

end
-- ==== Proof.RefKeep.lean ====
/-
  What each piece of the reference program writes, and what it therefore leaves alone.

  Each piece of the operation list writes a known list of buffers (one per operation: its result). A buffer not in
  that list has, after the piece, the contents it had before. The two input arrays are in no piece's list, so the
  whole program leaves them as they were (`frame`).
-/
import proofs.«119096_j25271587570082_2_alg».proof.Proof.RefList

noncomputable section

namespace Cert.RVal

open Cert.ReferenceIdeal Cert.ReferenceIdeal.Gen Idealize.ShloMosaic Idealize.ShloMosaic.TcCoe Idealize.SL.Sem Idealize.ShloMosaic.StableHlo

variable {F : FTy → Type} [FloatOps F]

/-- One operation's written set is the singleton of its result buffer, which is in the list. -/
local macro "writes_one" : tactic =>
  `(tactic| (simp only [nullary_writes, unary_writes, binary_writes, ternary_writes, Finset.singleton_subset_iff,
      List.mem_toFinset]; exact List.mem_map_of_mem (by decide)))

/-- The buffer contents after piece `g0a` from contents `V`. -/
def aft_g0a (V : Valuation τ sig (Elt F)) : Valuation τ sig (Elt F) := after g0a V
/-- The buffers piece `g0a` writes. -/
abbrev g0a_W : List (Ref sig .tc) := [main_c, main_c_0, main_c_1, main_c_2, main_c_3, main_c_4, main_c_5, main_c_6, main_c_7, main_c_8, main_c_9, main_c_10, main_c_11, main_c_12, main_c_13, main_c_14, main_c_15, main_c_16, main_c_17, main_c_18, main_c_19, main_c_20, main_c_21, main_c_22, main_c_23, main_c_24, main_c_25, main_c_26, main_c_27, main_c_28, main_c_29, main_c_30, main_c_31, main_c_32, main_c_33, main_c_34, main_c_35, main_c_36, main_c_37, main_c_38, main_c_39, main_c_40, main_c_41]
set_option maxRecDepth 8192 in
theorem g0a_writes : (g0a : List (HloOp τ sig (Elt F))).Forall fun op => op.writes ⊆ (g0a_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer piece `g0a` does not write keeps its contents through it. -/
theorem aft_g0a_keep (V : Valuation τ sig (Elt F)) (r : Ref sig .tc) (h : r ∉ g0a_W) :
    aft_g0a V (no_index (Proc.devRef .tc r)) = V (Proc.devRef .tc r) :=
  after_of_writes_sub g0a V g0a_writes h

/-- The buffer contents after piece `g0b` from contents `V`. -/
def aft_g0b (V : Valuation τ sig (Elt F)) : Valuation τ sig (Elt F) := after g0b V
/-- The buffers piece `g0b` writes. -/
abbrev g0b_W : List (Ref sig .tc) := [main_v0, main_v1, main_cst, main_v2, main_c_42, main_v3, main_v4, main_v5, main_v6, main_v7, main_v8, main_c_43, main_v9, main_v10, main_v11, main_v12, main_v13]
set_option maxRecDepth 8192 in
theorem g0b_writes : (g0b : List (HloOp τ sig (Elt F))).Forall fun op => op.writes ⊆ (g0b_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one⟩
/-- A buffer piece `g0b` does not write keeps its contents through it. -/
theorem aft_g0b_keep (V : Valuation τ sig (Elt F)) (r : Ref sig .tc) (h : r ∉ g0b_W) :
    aft_g0b V (no_index (Proc.devRef .tc r)) = V (Proc.devRef .tc r) :=
  after_of_writes_sub g0b V g0b_writes h

/-- The buffer contents after piece `g1` from contents `V`. -/
def aft_g1 (V : Valuation τ sig (Elt F)) : Valuation τ sig (Elt F) := after g1 V
/-- The buffers piece `g1` writes. -/
abbrev g1_W : List (Ref sig .tc) := [main_c_44, main_v14, main_v15, main_v16, main_v17, main_v18, main_v19, main_v20, main_c_45, main_v21, main_v22, main_v23, main_v24, main_v25]
set_option maxRecDepth 8192 in
theorem g1_writes : (g1 : List (HloOp τ sig (Elt F))).Forall fun op => op.writes ⊆ (g1_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one⟩
/-- A buffer piece `g1` does not write keeps its contents through it. -/
theorem aft_g1_keep (V : Valuation τ sig (Elt F)) (r : Ref sig .tc) (h : r ∉ g1_W) :
    aft_g1 V (no_index (Proc.devRef .tc r)) = V (Proc.devRef .tc r) :=
  after_of_writes_sub g1 V g1_writes h

/-- The buffer contents after piece `s1` from contents `V`. -/
def aft_s1 (V : Valuation τ sig (Elt F)) : Valuation τ sig (Elt F) := after s1 V
/-- The buffers piece `s1` writes. -/
abbrev s1_W : List (Ref sig .tc) := [main_c_46, main_v26, main_v27, main_v28, main_v29, main_v30, main_c_47, main_v31, main_v32, main_v33, main_v34, main_v35, main_v36, main_c_48, main_v37, main_v38, main_v39, main_v40, main_v41]
set_option maxRecDepth 8192 in
theorem s1_writes : (s1 : List (HloOp τ sig (Elt F))).Forall fun op => op.writes ⊆ (s1_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one⟩
/-- A buffer piece `s1` does not write keeps its contents through it. -/
theorem aft_s1_keep (V : Valuation τ sig (Elt F)) (r : Ref sig .tc) (h : r ∉ s1_W) :
    aft_s1 V (no_index (Proc.devRef .tc r)) = V (Proc.devRef .tc r) :=
  after_of_writes_sub s1 V s1_writes h

/-- The buffer contents after piece `s2` from contents `V`. -/
def aft_s2 (V : Valuation τ sig (Elt F)) : Valuation τ sig (Elt F) := after s2 V
/-- The buffers piece `s2` writes. -/
abbrev s2_W : List (Ref sig .tc) := [main_c_49, main_v42, main_v43, main_v44, main_v45, main_v46, main_c_50, main_v47, main_v48, main_v49, main_v50, main_v51, main_v52, main_c_51, main_v53, main_v54, main_v55, main_v56, main_v57]
set_option maxRecDepth 8192 in
theorem s2_writes : (s2 : List (HloOp τ sig (Elt F))).Forall fun op => op.writes ⊆ (s2_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one⟩
/-- A buffer piece `s2` does not write keeps its contents through it. -/
theorem aft_s2_keep (V : Valuation τ sig (Elt F)) (r : Ref sig .tc) (h : r ∉ s2_W) :
    aft_s2 V (no_index (Proc.devRef .tc r)) = V (Proc.devRef .tc r) :=
  after_of_writes_sub s2 V s2_writes h

/-- The buffer contents after piece `s3` from contents `V`. -/
def aft_s3 (V : Valuation τ sig (Elt F)) : Valuation τ sig (Elt F) := after s3 V
/-- The buffers piece `s3` writes. -/
abbrev s3_W : List (Ref sig .tc) := [main_c_52, main_v58, main_v59, main_v60, main_v61, main_v62, main_c_53, main_v63, main_v64, main_v65, main_v66, main_v67, main_v68, main_c_54, main_v69, main_v70, main_v71, main_v72, main_v73]
set_option maxRecDepth 8192 in
theorem s3_writes : (s3 : List (HloOp τ sig (Elt F))).Forall fun op => op.writes ⊆ (s3_W.map (Proc.devRef (τ := τ) .tc)).toFinset := by
  simp only [s3, s3a, s3b, List.cons_append, List.nil_append, List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one⟩
/-- A buffer piece `s3` does not write keeps its contents through it. -/
theorem aft_s3_keep (V : Valuation τ sig (Elt F)) (r : Ref sig .tc) (h : r ∉ s3_W) :
    aft_s3 V (no_index (Proc.devRef .tc r)) = V (Proc.devRef .tc r) :=
  after_of_writes_sub s3 V s3_writes h

/-- The buffer contents after piece `s4` from contents `V`. -/
def aft_s4 (V : Valuation τ sig (Elt F)) : Valuation τ sig (Elt F) := after s4 V
/-- The buffers piece `s4` writes. -/
abbrev s4_W : List (Ref sig .tc) := [main_c_55, main_v74, main_v75, main_v76, main_v77, main_v78, main_c_56, main_v79, main_v80, main_v81, main_v82, main_v83, main_v84, main_c_57, main_v85, main_v86, main_v87, main_v88, main_v89]
set_option maxRecDepth 8192 in
theorem s4_writes : (s4 : List (HloOp τ sig (Elt F))).Forall fun op => op.writes ⊆ (s4_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one⟩
/-- A buffer piece `s4` does not write keeps its contents through it. -/
theorem aft_s4_keep (V : Valuation τ sig (Elt F)) (r : Ref sig .tc) (h : r ∉ s4_W) :
    aft_s4 V (no_index (Proc.devRef .tc r)) = V (Proc.devRef .tc r) :=
  after_of_writes_sub s4 V s4_writes h

/-- The buffer contents after piece `s5` from contents `V`. -/
def aft_s5 (V : Valuation τ sig (Elt F)) : Valuation τ sig (Elt F) := after s5 V
/-- The buffers piece `s5` writes. -/
abbrev s5_W : List (Ref sig .tc) := [main_c_58, main_v90, main_v91, main_v92, main_v93, main_v94, main_c_59, main_v95, main_v96, main_v97, main_v98, main_v99, main_v100, main_c_60, main_v101, main_v102, main_v103, main_v104, main_v105]
set_option maxRecDepth 8192 in
theorem s5_writes : (s5 : List (HloOp τ sig (Elt F))).Forall fun op => op.writes ⊆ (s5_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one⟩
/-- A buffer piece `s5` does not write keeps its contents through it. -/
theorem aft_s5_keep (V : Valuation τ sig (Elt F)) (r : Ref sig .tc) (h : r ∉ s5_W) :
    aft_s5 V (no_index (Proc.devRef .tc r)) = V (Proc.devRef .tc r) :=
  after_of_writes_sub s5 V s5_writes h

/-- The buffer contents after piece `s6` from contents `V`. -/
def aft_s6 (V : Valuation τ sig (Elt F)) : Valuation τ sig (Elt F) := after s6 V
/-- The buffers piece `s6` writes. -/
abbrev s6_W : List (Ref sig .tc) := [main_c_61, main_v106, main_v107, main_v108, main_v109, main_v110, main_c_62, main_v111, main_v112, main_v113, main_v114, main_v115, main_v116, main_c_63, main_v117, main_v118, main_v119, main_v120, main_v121]
set_option maxRecDepth 8192 in
theorem s6_writes : (s6 : List (HloOp τ sig (Elt F))).Forall fun op => op.writes ⊆ (s6_W.map (Proc.devRef (τ := τ) .tc)).toFinset := by
  simp only [s6, s6a, s6b, List.cons_append, List.nil_append, List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one⟩
/-- A buffer piece `s6` does not write keeps its contents through it. -/
theorem aft_s6_keep (V : Valuation τ sig (Elt F)) (r : Ref sig .tc) (h : r ∉ s6_W) :
    aft_s6 V (no_index (Proc.devRef .tc r)) = V (Proc.devRef .tc r) :=
  after_of_writes_sub s6 V s6_writes h

/-- The buffer contents after piece `s7` from contents `V`. -/
def aft_s7 (V : Valuation τ sig (Elt F)) : Valuation τ sig (Elt F) := after s7 V
/-- The buffers piece `s7` writes. -/
abbrev s7_W : List (Ref sig .tc) := [main_c_64, main_v122, main_v123, main_v124, main_v125, main_v126, main_c_65, main_v127, main_v128, main_v129, main_v130, main_v131, main_v132, main_c_66, main_v133, main_v134, main_v135, main_v136, main_v137]
set_option maxRecDepth 8192 in
theorem s7_writes : (s7 : List (HloOp τ sig (Elt F))).Forall fun op => op.writes ⊆ (s7_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one⟩
/-- A buffer piece `s7` does not write keeps its contents through it. -/
theorem aft_s7_keep (V : Valuation τ sig (Elt F)) (r : Ref sig .tc) (h : r ∉ s7_W) :
    aft_s7 V (no_index (Proc.devRef .tc r)) = V (Proc.devRef .tc r) :=
  after_of_writes_sub s7 V s7_writes h

/-- The buffer contents after piece `s8` from contents `V`. -/
def aft_s8 (V : Valuation τ sig (Elt F)) : Valuation τ sig (Elt F) := after s8 V
/-- The buffers piece `s8` writes. -/
abbrev s8_W : List (Ref sig .tc) := [main_c_67, main_v138, main_v139, main_v140, main_v141, main_v142, main_c_68, main_v143, main_v144, main_v145, main_v146, main_v147, main_v148, main_c_69, main_v149, main_v150, main_v151, main_v152, main_v153]
set_option maxRecDepth 8192 in
theorem s8_writes : (s8 : List (HloOp τ sig (Elt F))).Forall fun op => op.writes ⊆ (s8_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one⟩
/-- A buffer piece `s8` does not write keeps its contents through it. -/
theorem aft_s8_keep (V : Valuation τ sig (Elt F)) (r : Ref sig .tc) (h : r ∉ s8_W) :
    aft_s8 V (no_index (Proc.devRef .tc r)) = V (Proc.devRef .tc r) :=
  after_of_writes_sub s8 V s8_writes h

/-- The buffer contents after piece `s9` from contents `V`. -/
def aft_s9 (V : Valuation τ sig (Elt F)) : Valuation τ sig (Elt F) := after s9 V
/-- The buffers piece `s9` writes. -/
abbrev s9_W : List (Ref sig .tc) := [main_c_70, main_v154, main_v155, main_v156, main_v157, main_v158, main_c_71, main_v159, main_v160, main_v161, main_v162, main_v163, main_v164, main_c_72, main_v165, main_v166, main_v167, main_v168, main_v169]
set_option maxRecDepth 8192 in
theorem s9_writes : (s9 : List (HloOp τ sig (Elt F))).Forall fun op => op.writes ⊆ (s9_W.map (Proc.devRef (τ := τ) .tc)).toFinset := by
  simp only [s9, s9a, s9b, List.cons_append, List.nil_append, List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one⟩
/-- A buffer piece `s9` does not write keeps its contents through it. -/
theorem aft_s9_keep (V : Valuation τ sig (Elt F)) (r : Ref sig .tc) (h : r ∉ s9_W) :
    aft_s9 V (no_index (Proc.devRef .tc r)) = V (Proc.devRef .tc r) :=
  after_of_writes_sub s9 V s9_writes h

/-- The buffer contents after piece `s10` from contents `V`. -/
def aft_s10 (V : Valuation τ sig (Elt F)) : Valuation τ sig (Elt F) := after s10 V
/-- The buffers piece `s10` writes. -/
abbrev s10_W : List (Ref sig .tc) := [main_c_73, main_v170, main_v171, main_v172, main_v173, main_v174, main_c_74, main_v175, main_v176, main_v177, main_v178, main_v179, main_v180, main_c_75, main_v181, main_v182, main_v183, main_v184, main_v185]
set_option maxRecDepth 8192 in
theorem s10_writes : (s10 : List (HloOp τ sig (Elt F))).Forall fun op => op.writes ⊆ (s10_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one⟩
/-- A buffer piece `s10` does not write keeps its contents through it. -/
theorem aft_s10_keep (V : Valuation τ sig (Elt F)) (r : Ref sig .tc) (h : r ∉ s10_W) :
    aft_s10 V (no_index (Proc.devRef .tc r)) = V (Proc.devRef .tc r) :=
  after_of_writes_sub s10 V s10_writes h

/-- The buffer contents after piece `s11` from contents `V`. -/
def aft_s11 (V : Valuation τ sig (Elt F)) : Valuation τ sig (Elt F) := after s11 V
/-- The buffers piece `s11` writes. -/
abbrev s11_W : List (Ref sig .tc) := [main_c_76, main_v186, main_v187, main_v188, main_v189, main_v190, main_c_77, main_v191, main_v192, main_v193, main_v194, main_v195, main_v196, main_c_78, main_v197, main_v198, main_v199, main_v200, main_v201]
set_option maxRecDepth 8192 in
theorem s11_writes : (s11 : List (HloOp τ sig (Elt F))).Forall fun op => op.writes ⊆ (s11_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one⟩
/-- A buffer piece `s11` does not write keeps its contents through it. -/
theorem aft_s11_keep (V : Valuation τ sig (Elt F)) (r : Ref sig .tc) (h : r ∉ s11_W) :
    aft_s11 V (no_index (Proc.devRef .tc r)) = V (Proc.devRef .tc r) :=
  after_of_writes_sub s11 V s11_writes h

/-- The buffer contents after piece `s12` from contents `V`. -/
def aft_s12 (V : Valuation τ sig (Elt F)) : Valuation τ sig (Elt F) := after s12 V
/-- The buffers piece `s12` writes. -/
abbrev s12_W : List (Ref sig .tc) := [main_c_79, main_v202, main_v203, main_v204, main_v205, main_v206, main_c_80, main_v207, main_v208, main_v209, main_v210, main_v211, main_v212, main_c_81, main_v213, main_v214, main_v215, main_v216, main_v217]
set_option maxRecDepth 8192 in
theorem s12_writes : (s12 : List (HloOp τ sig (Elt F))).Forall fun op => op.writes ⊆ (s12_W.map (Proc.devRef (τ := τ) .tc)).toFinset := by
  simp only [s12, s12a, s12b, List.cons_append, List.nil_append, List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one⟩
/-- A buffer piece `s12` does not write keeps its contents through it. -/
theorem aft_s12_keep (V : Valuation τ sig (Elt F)) (r : Ref sig .tc) (h : r ∉ s12_W) :
    aft_s12 V (no_index (Proc.devRef .tc r)) = V (Proc.devRef .tc r) :=
  after_of_writes_sub s12 V s12_writes h

/-- The buffer contents after piece `fin` from contents `V`. -/
def aft_fin (V : Valuation τ sig (Elt F)) : Valuation τ sig (Elt F) := after fin V
/-- The buffers piece `fin` writes. -/
abbrev fin_W : List (Ref sig .tc) := [main_cst_82, main_cst_83, main_call0_v0, main_call0_v1, main_call0_v2, main_call0_v3, main_call0_v4, main_v218]
set_option maxRecDepth 8192 in
theorem fin_writes : (fin : List (HloOp τ sig (Elt F))).Forall fun op => op.writes ⊆ (fin_W.map (Proc.devRef (τ := τ) .tc)).toFinset := by
  simp only [List.Forall]
  exact ⟨by writes_one, by writes_one, by writes_one, by writes_one, by writes_one, by writes_one, by writes_one, by writes_one⟩
/-- A buffer piece `fin` does not write keeps its contents through it. -/
theorem aft_fin_keep (V : Valuation τ sig (Elt F)) (r : Ref sig .tc) (h : r ∉ fin_W) :
    aft_fin V (no_index (Proc.devRef .tc r)) = V (Proc.devRef .tc r) :=
  after_of_writes_sub fin V fin_writes h

/-- The fold over a concatenation is the fold over its second list from the fold over its first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The whole program's fold is the pieces' folds, one after the other. -/
def aftAll (V : Valuation τ sig (Elt F)) : Valuation τ sig (Elt F) :=
  aft_fin (aft_s12 (aft_s11 (aft_s10 (aft_s9 (aft_s8 (aft_s7 (aft_s6 (aft_s5 (aft_s4 (aft_s3 (aft_s2 (aft_s1 (aft_g1 (aft_g0b (aft_g0a (V))))))))))))))))

theorem after_ops (V : Valuation τ sig (Elt F)) : after ops V = aftAll V := by
  simp only [ops, p0, p1, p2, p3, p4, p5, aftAll, aft_g0a, aft_g0b, aft_g1, aft_s1, aft_s2, aft_s3, aft_s4, aft_s5, aft_s6, aft_s7, aft_s8, aft_s9, aft_s10, aft_s11, aft_s12, aft_fin, s3, s6, s9, s12, after_app]

/-- No piece writes an input array. -/
theorem aftAll_arg0 (V : Valuation τ sig (Elt F)) : aftAll V (Proc.devRef .tc main_arg0) = V (Proc.devRef .tc main_arg0) := by
  unfold aftAll
  simp (disch := decide) only [aft_g0a_keep, aft_g0b_keep, aft_g1_keep, aft_s1_keep, aft_s2_keep, aft_s3_keep, aft_s4_keep, aft_s5_keep, aft_s6_keep, aft_s7_keep, aft_s8_keep, aft_s9_keep, aft_s10_keep, aft_s11_keep, aft_s12_keep, aft_fin_keep]
theorem aftAll_arg1 (V : Valuation τ sig (Elt F)) : aftAll V (Proc.devRef .tc main_arg1) = V (Proc.devRef .tc main_arg1) := by
  unfold aftAll
  simp (disch := decide) only [aft_g0a_keep, aft_g0b_keep, aft_g1_keep, aft_s1_keep, aft_s2_keep, aft_s3_keep, aft_s4_keep, aft_s5_keep, aft_s6_keep, aft_s7_keep, aft_s8_keep, aft_s9_keep, aft_s10_keep, aft_s11_keep, aft_s12_keep, aft_fin_keep]

/-- On every device, for any float values, from any memory with zero counters: every weakly fair execution of the
    program terminates with the two input arrays unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_arg0).trans (by rw [after_ops]; exact aftAll_arg0 (launchContents m c)),
       (h c main_arg1).trans (by rw [after_ops]; exact aftAll_arg1 (launchContents m c))⟩)
    (run_after m ρ)

end Cert.RVal

end
-- ==== Proof.RefStages.lean ====
/-
  The reference program's value as pure functions of its two inputs.

  Each definition repeats, with the same operations, records and operand orders, what a run of the
  reference's statements computes: the index column built from a literal table, the gather and the
  scatter at that column, the seed, one sweep, the clip, and their composition.
-/
import proofs.«119096_j25271587570082_2_alg».proof.ReferenceIdeal
import proofs.«119096_j25271587570082_2_alg».proof.Proof.Gen.ReferenceIdeal

noncomputable section

namespace Cert.RVal

open Cert.ReferenceIdeal Cert.ReferenceIdeal.Gen Idealize.ShloMosaic

variable {F : FTy → Type} [FloatOps F]

/-- The index column of a literal table: the table itself (the select's condition is the constant
    false, so the wrapped-around alternative `lit + 127` is never taken), as a `[63, 1]` array. -/
def idxCol (lit : Fin 63 → BitVec 32) : IVec S63x1 32 :=
  broadcastInDim S63x1 ![0] bcast_S63_S63x1_0
    (select (constantI S63 1 0#1)
      (addi (fun i => lit (S63.rowMajor i)) (broadcastInDim S63 ![] bcast_S_S63 (constantI S_ 32 127#32)))
      (fun i => lit (S63.rowMajor i)))

/-- The columns of `q` named by the table, one per inner node. -/
def gat (lit : Fin 63 → BitVec 32) (q : FVec F S131072x127 .f32) : FVec F S131072x63 .f32 :=
  Host.gather gather_S131072x127_S63x1_S131072x63_0_1_n_n_1_1_1310721 q (idxCol lit)

/-- `q` with the columns named by the table overwritten by `u`. -/
def sca (lit : Fin 63 → BitVec 32) (q : FVec F S131072x127 .f32) (u : FVec F S131072x63 .f32) :
    FVec F S131072x127 .f32 :=
  Host.scatter scatter_S131072x127_S63x1_S131072x63_0_1_1_1 (fun _ b => b) q (idxCol lit) u

/-- The split scores: `x · Aᵀ`. -/
def xaRef (x : FVec F S131072x512 .f32) (A : FVec F S63x512 .f32) : FVec F S131072x63 .f32 :=
  Host.dotGeneral dot_S131072x512_S512x63_S131072x63_1_0_0_1_n_n none x
    (transpose S512x63 [1, 0] A transposes_S63x512_S512x63_1_0)

/-- The constant row of ones. -/
def ones : FVec F S131072x127 .f32 :=
  broadcastInDim S131072x127 ![] bcast_S_S131072x127 (constant S_ .f32 0x3F800000#32)

/-- The seed: the left children from the constant row, then the right children from the row so far. -/
def refSeed (xa : FVec F S131072x63 .f32) : FVec F S131072x127 .f32 :=
  sca lit2 (sca lit1 ones (minimumf (gat lit0 ones) xa))
    (minimumf (gat lit0 (sca lit1 ones (minimumf (gat lit0 ones) xa))) (Host.negf xa))

/-- One sweep: the left children against their parents, then the right children against theirs. -/
def refSweep (q : FVec F S131072x127 .f32) : FVec F S131072x127 .f32 :=
  sca lit2 (sca lit1 q (minimumf (gat lit1 q) (gat lit0 q)))
    (minimumf (gat lit2 (sca lit1 q (minimumf (gat lit1 q) (gat lit0 q))))
      (gat lit0 (sca lit1 q (minimumf (gat lit1 q) (gat lit0 q)))))

/-- The clip: the upper bound against the maximum of the lower bound and the row. -/
def refClip (q : FVec F S131072x127 .f32) : FVec F S131072x127 .f32 :=
  minimumf (broadcastInDim S131072x127 ![] bcast_S_S131072x127 (id (constant S_ .f32 0x3F800000#32)))
    (maximumf (broadcastInDim S131072x127 ![] bcast_S_S131072x127 (id (constant S_ .f32 0x00000000#32))) q)

/-- The row after the seed and `s` sweeps. -/
def refAfter (xa : FVec F S131072x63 .f32) : Nat → FVec F S131072x127 .f32
  | 0 => refSeed xa
  | s + 1 => refSweep (refAfter xa s)

/-- The reference's result. -/
def refTerm (x : FVec F S131072x512 .f32) (A : FVec F S63x512 .f32) : FVec F S131072x127 .f32 :=
  refClip (refAfter (xaRef x A) 6)

end Cert.RVal

end
-- ==== Proof.RefRun.lean ====
/-
  The reference program's value.

  Piece by piece, from any buffer contents `V`: the buffer a piece ends by writing holds a pure function of the
  buffers the piece reads, and that function is the matching stage of `RefStages` — the split scores, the seed's
  two writes, a sweep's left write `sweepL`, a sweep's right write `sweepR`, the clip. The literal tables and the
  constant-false masks are written once, at the start, and no later piece writes them; the row array is the one
  buffer each piece passes to the next. Chaining the pieces from the launch contents gives the program's result
  as `refTerm` of the two inputs (`run`).
-/
import proofs.«119096_j25271587570082_2_alg».proof.Proof.RefKeep
import proofs.«119096_j25271587570082_2_alg».proof.Proof.RefStages

noncomputable section

namespace Cert.RVal

open Cert.ReferenceIdeal Cert.ReferenceIdeal.Gen Idealize.ShloMosaic Idealize.ShloMosaic.TcCoe Idealize.SL.Sem Idealize.ShloMosaic.StableHlo

variable {F : FTy → Type} [FloatOps F]

/-! ## The stages between two writes of the row array -/

/-- The seed's first write: every left child becomes the minimum of its parent (in the row of ones) and the
    split score. -/
def seedL (xa : FVec F S131072x63 .f32) : FVec F S131072x127 .f32 :=
  sca lit1 ones (minimumf (gat lit0 ones) xa)

/-- The seed's second write, from the row `q` after the first: every right child becomes the minimum of its
    parent and the negated split score. -/
def seedR (q : FVec F S131072x127 .f32) (xa : FVec F S131072x63 .f32) : FVec F S131072x127 .f32 :=
  sca lit2 q (minimumf (gat lit0 q) (Host.negf xa))

/-- A sweep's first write: every left child becomes the minimum of itself and its parent. -/
def sweepL (q : FVec F S131072x127 .f32) : FVec F S131072x127 .f32 :=
  sca lit1 q (minimumf (gat lit1 q) (gat lit0 q))

/-- A sweep's second write: every right child becomes the minimum of itself and its parent. -/
def sweepR (q : FVec F S131072x127 .f32) : FVec F S131072x127 .f32 :=
  sca lit2 q (minimumf (gat lit2 q) (gat lit0 q))

theorem seedR_seedL (xa : FVec F S131072x63 .f32) : seedR (seedL xa) xa = refSeed xa := rfl
theorem sweepR_sweepL (q : FVec F S131072x127 .f32) : sweepR (sweepL q) = refSweep q := rfl
theorem refAfter_succ (xa : FVec F S131072x63 .f32) (s : Nat) : refAfter xa (s + 1) = refSweep (refAfter xa s) := rfl

/-! ## Each piece's last write, from any contents -/

/-- The split scores after the second piece. -/
theorem aft_g0b_xa (V : Valuation τ sig (Elt F)) :
    aft_g0b V (no_index (Proc.devRef .tc main_v1)) = xaRef (V (Proc.devRef .tc main_arg0)) (V (Proc.devRef .tc main_arg1)) := by
  unfold aft_g0b
  simp only [g0b]
  after_results_simp
  rfl

/-- The row after the seed's first write. -/
theorem aft_g0b_q (V : Valuation τ sig (Elt F))
    (h0 : V (Proc.devRef .tc main_c) = fun i => lit0 (S63.rowMajor i))
    (h1 : V (Proc.devRef .tc main_c_1) = fun i => lit1 (S63.rowMajor i))
    (ha : V (Proc.devRef .tc main_c_0) = constantI S63 1 0#1)
    (hb : V (Proc.devRef .tc main_c_2) = constantI S63 1 0#1) :
    aft_g0b V (no_index (Proc.devRef .tc main_v13)) = seedL (xaRef (V (Proc.devRef .tc main_arg0)) (V (Proc.devRef .tc main_arg1))) := by
  unfold aft_g0b
  simp only [g0b]
  after_results_simp
  simp only [h0, h1, ha, hb]
  rfl

/-- The row after the seed's second write. -/
theorem aft_g1_q (V : Valuation τ sig (Elt F)) (q : FVec F S131072x127 .f32) (xa : FVec F S131072x63 .f32)
    (hq : V (Proc.devRef .tc main_v13) = q) (hxa : V (Proc.devRef .tc main_v1) = xa)
    (h0 : V (Proc.devRef .tc main_c) = fun i => lit0 (S63.rowMajor i))
    (h2 : V (Proc.devRef .tc main_c_4) = fun i => lit2 (S63.rowMajor i))
    (ha : V (Proc.devRef .tc main_c_3) = constantI S63 1 0#1)
    (hb : V (Proc.devRef .tc main_c_5) = constantI S63 1 0#1) :
    aft_g1 V (no_index (Proc.devRef .tc main_v25)) = seedR q xa := by
  unfold aft_g1
  simp only [g1]
  after_results_simp
  simp only [hq, hxa, h0, h2, ha, hb]
  rfl

/-- The row after sweep 1's first write. -/
theorem aft_s1_q (V : Valuation τ sig (Elt F)) (q : FVec F S131072x127 .f32)
    (hq : V (Proc.devRef .tc main_v25) = q)
    (h0 : V (Proc.devRef .tc main_c) = fun i => lit0 (S63.rowMajor i))
    (h1 : V (Proc.devRef .tc main_c_1) = fun i => lit1 (S63.rowMajor i))
    (ha : V (Proc.devRef .tc main_c_6) = constantI S63 1 0#1)
    (hb : V (Proc.devRef .tc main_c_7) = constantI S63 1 0#1)
    (hc : V (Proc.devRef .tc main_c_8) = constantI S63 1 0#1) :
    aft_s1 V (no_index (Proc.devRef .tc main_v41)) = sweepL q := by
  unfold aft_s1
  simp only [s1]
  after_results_simp
  simp only [hq, h0, h1, ha, hb, hc]
  rfl

/-- The row after sweep 1's second write. -/
theorem aft_s2_q (V : Valuation τ sig (Elt F)) (q : FVec F S131072x127 .f32)
    (hq : V (Proc.devRef .tc main_v41) = q)
    (h0 : V (Proc.devRef .tc main_c) = fun i => lit0 (S63.rowMajor i))
    (h1 : V (Proc.devRef .tc main_c_4) = fun i => lit2 (S63.rowMajor i))
    (ha : V (Proc.devRef .tc main_c_9) = constantI S63 1 0#1)
    (hb : V (Proc.devRef .tc main_c_10) = constantI S63 1 0#1)
    (hc : V (Proc.devRef .tc main_c_11) = constantI S63 1 0#1) :
    aft_s2 V (no_index (Proc.devRef .tc main_v57)) = sweepR q := by
  unfold aft_s2
  simp only [s2]
  after_results_simp
  simp only [hq, h0, h1, ha, hb, hc]
  rfl

/-- The row after sweep 2's first write. -/
theorem aft_s3_q (V : Valuation τ sig (Elt F)) (q : FVec F S131072x127 .f32)
    (hq : V (Proc.devRef .tc main_v57) = q)
    (h0 : V (Proc.devRef .tc main_c) = fun i => lit0 (S63.rowMajor i))
    (h1 : V (Proc.devRef .tc main_c_1) = fun i => lit1 (S63.rowMajor i))
    (ha : V (Proc.devRef .tc main_c_12) = constantI S63 1 0#1)
    (hb : V (Proc.devRef .tc main_c_13) = constantI S63 1 0#1)
    (hc : V (Proc.devRef .tc main_c_14) = constantI S63 1 0#1) :
    aft_s3 V (no_index (Proc.devRef .tc main_v73)) = sweepL q := by
  unfold aft_s3
  simp only [s3, s3a, s3b, List.cons_append, List.nil_append]
  after_results_simp
  simp only [hq, h0, h1, ha, hb, hc]
  rfl

/-- The row after sweep 2's second write. -/
theorem aft_s4_q (V : Valuation τ sig (Elt F)) (q : FVec F S131072x127 .f32)
    (hq : V (Proc.devRef .tc main_v73) = q)
    (h0 : V (Proc.devRef .tc main_c) = fun i => lit0 (S63.rowMajor i))
    (h1 : V (Proc.devRef .tc main_c_4) = fun i => lit2 (S63.rowMajor i))
    (ha : V (Proc.devRef .tc main_c_15) = constantI S63 1 0#1)
    (hb : V (Proc.devRef .tc main_c_16) = constantI S63 1 0#1)
    (hc : V (Proc.devRef .tc main_c_17) = constantI S63 1 0#1) :
    aft_s4 V (no_index (Proc.devRef .tc main_v89)) = sweepR q := by
  unfold aft_s4
  simp only [s4]
  after_results_simp
  simp only [hq, h0, h1, ha, hb, hc]
  rfl

/-- The row after sweep 3's first write. -/
theorem aft_s5_q (V : Valuation τ sig (Elt F)) (q : FVec F S131072x127 .f32)
    (hq : V (Proc.devRef .tc main_v89) = q)
    (h0 : V (Proc.devRef .tc main_c) = fun i => lit0 (S63.rowMajor i))
    (h1 : V (Proc.devRef .tc main_c_1) = fun i => lit1 (S63.rowMajor i))
    (ha : V (Proc.devRef .tc main_c_18) = constantI S63 1 0#1)
    (hb : V (Proc.devRef .tc main_c_19) = constantI S63 1 0#1)
    (hc : V (Proc.devRef .tc main_c_20) = constantI S63 1 0#1) :
    aft_s5 V (no_index (Proc.devRef .tc main_v105)) = sweepL q := by
  unfold aft_s5
  simp only [s5]
  after_results_simp
  simp only [hq, h0, h1, ha, hb, hc]
  rfl

/-- The row after sweep 3's second write. -/
theorem aft_s6_q (V : Valuation τ sig (Elt F)) (q : FVec F S131072x127 .f32)
    (hq : V (Proc.devRef .tc main_v105) = q)
    (h0 : V (Proc.devRef .tc main_c) = fun i => lit0 (S63.rowMajor i))
    (h1 : V (Proc.devRef .tc main_c_4) = fun i => lit2 (S63.rowMajor i))
    (ha : V (Proc.devRef .tc main_c_21) = constantI S63 1 0#1)
    (hb : V (Proc.devRef .tc main_c_22) = constantI S63 1 0#1)
    (hc : V (Proc.devRef .tc main_c_23) = constantI S63 1 0#1) :
    aft_s6 V (no_index (Proc.devRef .tc main_v121)) = sweepR q := by
  unfold aft_s6
  simp only [s6, s6a, s6b, List.cons_append, List.nil_append]
  after_results_simp
  simp only [hq, h0, h1, ha, hb, hc]
  rfl

/-- The row after sweep 4's first write. -/
theorem aft_s7_q (V : Valuation τ sig (Elt F)) (q : FVec F S131072x127 .f32)
    (hq : V (Proc.devRef .tc main_v121) = q)
    (h0 : V (Proc.devRef .tc main_c) = fun i => lit0 (S63.rowMajor i))
    (h1 : V (Proc.devRef .tc main_c_1) = fun i => lit1 (S63.rowMajor i))
    (ha : V (Proc.devRef .tc main_c_24) = constantI S63 1 0#1)
    (hb : V (Proc.devRef .tc main_c_25) = constantI S63 1 0#1)
    (hc : V (Proc.devRef .tc main_c_26) = constantI S63 1 0#1) :
    aft_s7 V (no_index (Proc.devRef .tc main_v137)) = sweepL q := by
  unfold aft_s7
  simp only [s7]
  after_results_simp
  simp only [hq, h0, h1, ha, hb, hc]
  rfl

/-- The row after sweep 4's second write. -/
theorem aft_s8_q (V : Valuation τ sig (Elt F)) (q : FVec F S131072x127 .f32)
    (hq : V (Proc.devRef .tc main_v137) = q)
    (h0 : V (Proc.devRef .tc main_c) = fun i => lit0 (S63.rowMajor i))
    (h1 : V (Proc.devRef .tc main_c_4) = fun i => lit2 (S63.rowMajor i))
    (ha : V (Proc.devRef .tc main_c_27) = constantI S63 1 0#1)
    (hb : V (Proc.devRef .tc main_c_28) = constantI S63 1 0#1)
    (hc : V (Proc.devRef .tc main_c_29) = constantI S63 1 0#1) :
    aft_s8 V (no_index (Proc.devRef .tc main_v153)) = sweepR q := by
  unfold aft_s8
  simp only [s8]
  after_results_simp
  simp only [hq, h0, h1, ha, hb, hc]
  rfl

/-- The row after sweep 5's first write. -/
theorem aft_s9_q (V : Valuation τ sig (Elt F)) (q : FVec F S131072x127 .f32)
    (hq : V (Proc.devRef .tc main_v153) = q)
    (h0 : V (Proc.devRef .tc main_c) = fun i => lit0 (S63.rowMajor i))
    (h1 : V (Proc.devRef .tc main_c_1) = fun i => lit1 (S63.rowMajor i))
    (ha : V (Proc.devRef .tc main_c_30) = constantI S63 1 0#1)
    (hb : V (Proc.devRef .tc main_c_31) = constantI S63 1 0#1)
    (hc : V (Proc.devRef .tc main_c_32) = constantI S63 1 0#1) :
    aft_s9 V (no_index (Proc.devRef .tc main_v169)) = sweepL q := by
  unfold aft_s9
  simp only [s9, s9a, s9b, List.cons_append, List.nil_append]
  after_results_simp
  simp only [hq, h0, h1, ha, hb, hc]
  rfl

/-- The row after sweep 5's second write. -/
theorem aft_s10_q (V : Valuation τ sig (Elt F)) (q : FVec F S131072x127 .f32)
    (hq : V (Proc.devRef .tc main_v169) = q)
    (h0 : V (Proc.devRef .tc main_c) = fun i => lit0 (S63.rowMajor i))
    (h1 : V (Proc.devRef .tc main_c_4) = fun i => lit2 (S63.rowMajor i))
    (ha : V (Proc.devRef .tc main_c_33) = constantI S63 1 0#1)
    (hb : V (Proc.devRef .tc main_c_34) = constantI S63 1 0#1)
    (hc : V (Proc.devRef .tc main_c_35) = constantI S63 1 0#1) :
    aft_s10 V (no_index (Proc.devRef .tc main_v185)) = sweepR q := by
  unfold aft_s10
  simp only [s10]
  after_results_simp
  simp only [hq, h0, h1, ha, hb, hc]
  rfl

/-- The row after sweep 6's first write. -/
theorem aft_s11_q (V : Valuation τ sig (Elt F)) (q : FVec F S131072x127 .f32)
    (hq : V (Proc.devRef .tc main_v185) = q)
    (h0 : V (Proc.devRef .tc main_c) = fun i => lit0 (S63.rowMajor i))
    (h1 : V (Proc.devRef .tc main_c_1) = fun i => lit1 (S63.rowMajor i))
    (ha : V (Proc.devRef .tc main_c_36) = constantI S63 1 0#1)
    (hb : V (Proc.devRef .tc main_c_37) = constantI S63 1 0#1)
    (hc : V (Proc.devRef .tc main_c_38) = constantI S63 1 0#1) :
    aft_s11 V (no_index (Proc.devRef .tc main_v201)) = sweepL q := by
  unfold aft_s11
  simp only [s11]
  after_results_simp
  simp only [hq, h0, h1, ha, hb, hc]
  rfl

/-- The row after sweep 6's second write. -/
theorem aft_s12_q (V : Valuation τ sig (Elt F)) (q : FVec F S131072x127 .f32)
    (hq : V (Proc.devRef .tc main_v201) = q)
    (h0 : V (Proc.devRef .tc main_c) = fun i => lit0 (S63.rowMajor i))
    (h1 : V (Proc.devRef .tc main_c_4) = fun i => lit2 (S63.rowMajor i))
    (ha : V (Proc.devRef .tc main_c_39) = constantI S63 1 0#1)
    (hb : V (Proc.devRef .tc main_c_40) = constantI S63 1 0#1)
    (hc : V (Proc.devRef .tc main_c_41) = constantI S63 1 0#1) :
    aft_s12 V (no_index (Proc.devRef .tc main_v217)) = sweepR q := by
  unfold aft_s12
  simp only [s12, s12a, s12b, List.cons_append, List.nil_append]
  after_results_simp
  simp only [hq, h0, h1, ha, hb, hc]
  rfl

/-- The result after the clip. -/
theorem aft_fin_q (V : Valuation τ sig (Elt F)) (q : FVec F S131072x127 .f32)
    (hq : V (Proc.devRef .tc main_v217) = q) :
    aft_fin V (no_index (Proc.devRef .tc main_v218)) = refClip q := by
  unfold aft_fin
  simp only [fin]
  after_results_simp
  simp only [hq]
  rfl

/-! ## The contents after each piece, from the contents `V0` at launch -/

/-- The contents after the first 1 piece. -/
def st0 (V0 : Valuation τ sig (Elt F)) : Valuation τ sig (Elt F) := aft_g0a (V0)
/-- The contents after the first 2 pieces. -/
def st1 (V0 : Valuation τ sig (Elt F)) : Valuation τ sig (Elt F) := aft_g0b (st0 V0)
/-- The contents after the first 3 pieces. -/
def st2 (V0 : Valuation τ sig (Elt F)) : Valuation τ sig (Elt F) := aft_g1 (st1 V0)
/-- The contents after the first 4 pieces. -/
def st3 (V0 : Valuation τ sig (Elt F)) : Valuation τ sig (Elt F) := aft_s1 (st2 V0)
/-- The contents after the first 5 pieces. -/
def st4 (V0 : Valuation τ sig (Elt F)) : Valuation τ sig (Elt F) := aft_s2 (st3 V0)
/-- The contents after the first 6 pieces. -/
def st5 (V0 : Valuation τ sig (Elt F)) : Valuation τ sig (Elt F) := aft_s3 (st4 V0)
/-- The contents after the first 7 pieces. -/
def st6 (V0 : Valuation τ sig (Elt F)) : Valuation τ sig (Elt F) := aft_s4 (st5 V0)
/-- The contents after the first 8 pieces. -/
def st7 (V0 : Valuation τ sig (Elt F)) : Valuation τ sig (Elt F) := aft_s5 (st6 V0)
/-- The contents after the first 9 pieces. -/
def st8 (V0 : Valuation τ sig (Elt F)) : Valuation τ sig (Elt F) := aft_s6 (st7 V0)
/-- The contents after the first 10 pieces. -/
def st9 (V0 : Valuation τ sig (Elt F)) : Valuation τ sig (Elt F) := aft_s7 (st8 V0)
/-- The contents after the first 11 pieces. -/
def st10 (V0 : Valuation τ sig (Elt F)) : Valuation τ sig (Elt F) := aft_s8 (st9 V0)
/-- The contents after the first 12 pieces. -/
def st11 (V0 : Valuation τ sig (Elt F)) : Valuation τ sig (Elt F) := aft_s9 (st10 V0)
/-- The contents after the first 13 pieces. -/
def st12 (V0 : Valuation τ sig (Elt F)) : Valuation τ sig (Elt F) := aft_s10 (st11 V0)
/-- The contents after the first 14 pieces. -/
def st13 (V0 : Valuation τ sig (Elt F)) : Valuation τ sig (Elt F) := aft_s11 (st12 V0)
/-- The contents after the first 15 pieces. -/
def st14 (V0 : Valuation τ sig (Elt F)) : Valuation τ sig (Elt F) := aft_s12 (st13 V0)
/-- The contents after the first 16 pieces. -/
def st15 (V0 : Valuation τ sig (Elt F)) : Valuation τ sig (Elt F) := aft_fin (st14 V0)

theorem aftAll_eq (V0 : Valuation τ sig (Elt F)) : aftAll V0 = st15 V0 := rfl

/-! ## The tables and the masks: written by the first piece, kept by every later one -/

theorem st0_arg0 (V0 : Valuation τ sig (Elt F)) : st0 V0 (no_index (Proc.devRef .tc main_arg0)) = V0 (Proc.devRef .tc main_arg0) :=
  aft_g0a_keep V0 main_arg0 (by decide)
theorem st0_arg1 (V0 : Valuation τ sig (Elt F)) : st0 V0 (no_index (Proc.devRef .tc main_arg1)) = V0 (Proc.devRef .tc main_arg1) :=
  aft_g0a_keep V0 main_arg1 (by decide)

set_option maxRecDepth 8192 in
theorem st0_main_c (V0 : Valuation τ sig (Elt F)) : st0 V0 (no_index (Proc.devRef .tc main_c)) = fun i => lit0 (S63.rowMajor i) := by
  unfold st0 aft_g0a; simp only [g0a]; after_results_simp
  rfl
set_option maxRecDepth 8192 in
theorem st0_main_c_1 (V0 : Valuation τ sig (Elt F)) : st0 V0 (no_index (Proc.devRef .tc main_c_1)) = fun i => lit1 (S63.rowMajor i) := by
  unfold st0 aft_g0a; simp only [g0a]; after_results_simp
  rfl
set_option maxRecDepth 8192 in
theorem st0_main_c_4 (V0 : Valuation τ sig (Elt F)) : st0 V0 (no_index (Proc.devRef .tc main_c_4)) = fun i => lit2 (S63.rowMajor i) := by
  unfold st0 aft_g0a; simp only [g0a]; after_results_simp
  rfl
set_option maxRecDepth 8192 in
theorem st0_main_c_0 (V0 : Valuation τ sig (Elt F)) : st0 V0 (no_index (Proc.devRef .tc main_c_0)) = constantI S63 1 0#1 := by
  unfold st0 aft_g0a; simp only [g0a]; after_results_simp
set_option maxRecDepth 8192 in
theorem st0_main_c_2 (V0 : Valuation τ sig (Elt F)) : st0 V0 (no_index (Proc.devRef .tc main_c_2)) = constantI S63 1 0#1 := by
  unfold st0 aft_g0a; simp only [g0a]; after_results_simp
set_option maxRecDepth 8192 in
theorem st0_main_c_3 (V0 : Valuation τ sig (Elt F)) : st0 V0 (no_index (Proc.devRef .tc main_c_3)) = constantI S63 1 0#1 := by
  unfold st0 aft_g0a; simp only [g0a]; after_results_simp
set_option maxRecDepth 8192 in
theorem st0_main_c_5 (V0 : Valuation τ sig (Elt F)) : st0 V0 (no_index (Proc.devRef .tc main_c_5)) = constantI S63 1 0#1 := by
  unfold st0 aft_g0a; simp only [g0a]; after_results_simp
set_option maxRecDepth 8192 in
theorem st0_main_c_6 (V0 : Valuation τ sig (Elt F)) : st0 V0 (no_index (Proc.devRef .tc main_c_6)) = constantI S63 1 0#1 := by
  unfold st0 aft_g0a; simp only [g0a]; after_results_simp
set_option maxRecDepth 8192 in
theorem st0_main_c_7 (V0 : Valuation τ sig (Elt F)) : st0 V0 (no_index (Proc.devRef .tc main_c_7)) = constantI S63 1 0#1 := by
  unfold st0 aft_g0a; simp only [g0a]; after_results_simp
set_option maxRecDepth 8192 in
theorem st0_main_c_8 (V0 : Valuation τ sig (Elt F)) : st0 V0 (no_index (Proc.devRef .tc main_c_8)) = constantI S63 1 0#1 := by
  unfold st0 aft_g0a; simp only [g0a]; after_results_simp
set_option maxRecDepth 8192 in
theorem st0_main_c_9 (V0 : Valuation τ sig (Elt F)) : st0 V0 (no_index (Proc.devRef .tc main_c_9)) = constantI S63 1 0#1 := by
  unfold st0 aft_g0a; simp only [g0a]; after_results_simp
set_option maxRecDepth 8192 in
theorem st0_main_c_10 (V0 : Valuation τ sig (Elt F)) : st0 V0 (no_index (Proc.devRef .tc main_c_10)) = constantI S63 1 0#1 := by
  unfold st0 aft_g0a; simp only [g0a]; after_results_simp
set_option maxRecDepth 8192 in
theorem st0_main_c_11 (V0 : Valuation τ sig (Elt F)) : st0 V0 (no_index (Proc.devRef .tc main_c_11)) = constantI S63 1 0#1 := by
  unfold st0 aft_g0a; simp only [g0a]; after_results_simp
set_option maxRecDepth 8192 in
theorem st0_main_c_12 (V0 : Valuation τ sig (Elt F)) : st0 V0 (no_index (Proc.devRef .tc main_c_12)) = constantI S63 1 0#1 := by
  unfold st0 aft_g0a; simp only [g0a]; after_results_simp
set_option maxRecDepth 8192 in
theorem st0_main_c_13 (V0 : Valuation τ sig (Elt F)) : st0 V0 (no_index (Proc.devRef .tc main_c_13)) = constantI S63 1 0#1 := by
  unfold st0 aft_g0a; simp only [g0a]; after_results_simp
set_option maxRecDepth 8192 in
theorem st0_main_c_14 (V0 : Valuation τ sig (Elt F)) : st0 V0 (no_index (Proc.devRef .tc main_c_14)) = constantI S63 1 0#1 := by
  unfold st0 aft_g0a; simp only [g0a]; after_results_simp
set_option maxRecDepth 8192 in
theorem st0_main_c_15 (V0 : Valuation τ sig (Elt F)) : st0 V0 (no_index (Proc.devRef .tc main_c_15)) = constantI S63 1 0#1 := by
  unfold st0 aft_g0a; simp only [g0a]; after_results_simp
set_option maxRecDepth 8192 in
theorem st0_main_c_16 (V0 : Valuation τ sig (Elt F)) : st0 V0 (no_index (Proc.devRef .tc main_c_16)) = constantI S63 1 0#1 := by
  unfold st0 aft_g0a; simp only [g0a]; after_results_simp
set_option maxRecDepth 8192 in
theorem st0_main_c_17 (V0 : Valuation τ sig (Elt F)) : st0 V0 (no_index (Proc.devRef .tc main_c_17)) = constantI S63 1 0#1 := by
  unfold st0 aft_g0a; simp only [g0a]; after_results_simp
set_option maxRecDepth 8192 in
theorem st0_main_c_18 (V0 : Valuation τ sig (Elt F)) : st0 V0 (no_index (Proc.devRef .tc main_c_18)) = constantI S63 1 0#1 := by
  unfold st0 aft_g0a; simp only [g0a]; after_results_simp
set_option maxRecDepth 8192 in
theorem st0_main_c_19 (V0 : Valuation τ sig (Elt F)) : st0 V0 (no_index (Proc.devRef .tc main_c_19)) = constantI S63 1 0#1 := by
  unfold st0 aft_g0a; simp only [g0a]; after_results_simp
set_option maxRecDepth 8192 in
theorem st0_main_c_20 (V0 : Valuation τ sig (Elt F)) : st0 V0 (no_index (Proc.devRef .tc main_c_20)) = constantI S63 1 0#1 := by
  unfold st0 aft_g0a; simp only [g0a]; after_results_simp
set_option maxRecDepth 8192 in
theorem st0_main_c_21 (V0 : Valuation τ sig (Elt F)) : st0 V0 (no_index (Proc.devRef .tc main_c_21)) = constantI S63 1 0#1 := by
  unfold st0 aft_g0a; simp only [g0a]; after_results_simp
set_option maxRecDepth 8192 in
theorem st0_main_c_22 (V0 : Valuation τ sig (Elt F)) : st0 V0 (no_index (Proc.devRef .tc main_c_22)) = constantI S63 1 0#1 := by
  unfold st0 aft_g0a; simp only [g0a]; after_results_simp
set_option maxRecDepth 8192 in
theorem st0_main_c_23 (V0 : Valuation τ sig (Elt F)) : st0 V0 (no_index (Proc.devRef .tc main_c_23)) = constantI S63 1 0#1 := by
  unfold st0 aft_g0a; simp only [g0a]; after_results_simp
set_option maxRecDepth 8192 in
theorem st0_main_c_24 (V0 : Valuation τ sig (Elt F)) : st0 V0 (no_index (Proc.devRef .tc main_c_24)) = constantI S63 1 0#1 := by
  unfold st0 aft_g0a; simp only [g0a]; after_results_simp
set_option maxRecDepth 8192 in
theorem st0_main_c_25 (V0 : Valuation τ sig (Elt F)) : st0 V0 (no_index (Proc.devRef .tc main_c_25)) = constantI S63 1 0#1 := by
  unfold st0 aft_g0a; simp only [g0a]; after_results_simp
set_option maxRecDepth 8192 in
theorem st0_main_c_26 (V0 : Valuation τ sig (Elt F)) : st0 V0 (no_index (Proc.devRef .tc main_c_26)) = constantI S63 1 0#1 := by
  unfold st0 aft_g0a; simp only [g0a]; after_results_simp
set_option maxRecDepth 8192 in
theorem st0_main_c_27 (V0 : Valuation τ sig (Elt F)) : st0 V0 (no_index (Proc.devRef .tc main_c_27)) = constantI S63 1 0#1 := by
  unfold st0 aft_g0a; simp only [g0a]; after_results_simp
set_option maxRecDepth 8192 in
theorem st0_main_c_28 (V0 : Valuation τ sig (Elt F)) : st0 V0 (no_index (Proc.devRef .tc main_c_28)) = constantI S63 1 0#1 := by
  unfold st0 aft_g0a; simp only [g0a]; after_results_simp
set_option maxRecDepth 8192 in
theorem st0_main_c_29 (V0 : Valuation τ sig (Elt F)) : st0 V0 (no_index (Proc.devRef .tc main_c_29)) = constantI S63 1 0#1 := by
  unfold st0 aft_g0a; simp only [g0a]; after_results_simp
set_option maxRecDepth 8192 in
theorem st0_main_c_30 (V0 : Valuation τ sig (Elt F)) : st0 V0 (no_index (Proc.devRef .tc main_c_30)) = constantI S63 1 0#1 := by
  unfold st0 aft_g0a; simp only [g0a]; after_results_simp
set_option maxRecDepth 8192 in
theorem st0_main_c_31 (V0 : Valuation τ sig (Elt F)) : st0 V0 (no_index (Proc.devRef .tc main_c_31)) = constantI S63 1 0#1 := by
  unfold st0 aft_g0a; simp only [g0a]; after_results_simp
set_option maxRecDepth 8192 in
theorem st0_main_c_32 (V0 : Valuation τ sig (Elt F)) : st0 V0 (no_index (Proc.devRef .tc main_c_32)) = constantI S63 1 0#1 := by
  unfold st0 aft_g0a; simp only [g0a]; after_results_simp
set_option maxRecDepth 8192 in
theorem st0_main_c_33 (V0 : Valuation τ sig (Elt F)) : st0 V0 (no_index (Proc.devRef .tc main_c_33)) = constantI S63 1 0#1 := by
  unfold st0 aft_g0a; simp only [g0a]; after_results_simp
set_option maxRecDepth 8192 in
theorem st0_main_c_34 (V0 : Valuation τ sig (Elt F)) : st0 V0 (no_index (Proc.devRef .tc main_c_34)) = constantI S63 1 0#1 := by
  unfold st0 aft_g0a; simp only [g0a]; after_results_simp
set_option maxRecDepth 8192 in
theorem st0_main_c_35 (V0 : Valuation τ sig (Elt F)) : st0 V0 (no_index (Proc.devRef .tc main_c_35)) = constantI S63 1 0#1 := by
  unfold st0 aft_g0a; simp only [g0a]; after_results_simp
set_option maxRecDepth 8192 in
theorem st0_main_c_36 (V0 : Valuation τ sig (Elt F)) : st0 V0 (no_index (Proc.devRef .tc main_c_36)) = constantI S63 1 0#1 := by
  unfold st0 aft_g0a; simp only [g0a]; after_results_simp
set_option maxRecDepth 8192 in
theorem st0_main_c_37 (V0 : Valuation τ sig (Elt F)) : st0 V0 (no_index (Proc.devRef .tc main_c_37)) = constantI S63 1 0#1 := by
  unfold st0 aft_g0a; simp only [g0a]; after_results_simp
set_option maxRecDepth 8192 in
theorem st0_main_c_38 (V0 : Valuation τ sig (Elt F)) : st0 V0 (no_index (Proc.devRef .tc main_c_38)) = constantI S63 1 0#1 := by
  unfold st0 aft_g0a; simp only [g0a]; after_results_simp
set_option maxRecDepth 8192 in
theorem st0_main_c_39 (V0 : Valuation τ sig (Elt F)) : st0 V0 (no_index (Proc.devRef .tc main_c_39)) = constantI S63 1 0#1 := by
  unfold st0 aft_g0a; simp only [g0a]; after_results_simp
set_option maxRecDepth 8192 in
theorem st0_main_c_40 (V0 : Valuation τ sig (Elt F)) : st0 V0 (no_index (Proc.devRef .tc main_c_40)) = constantI S63 1 0#1 := by
  unfold st0 aft_g0a; simp only [g0a]; after_results_simp
set_option maxRecDepth 8192 in
theorem st0_main_c_41 (V0 : Valuation τ sig (Elt F)) : st0 V0 (no_index (Proc.devRef .tc main_c_41)) = constantI S63 1 0#1 := by
  unfold st0 aft_g0a; simp only [g0a]; after_results_simp

/-- A table or a mask read after later pieces: each later piece keeps it (it is not in the piece's written list),
    and the first piece wrote it. -/
local macro "kept" : tactic =>
  `(tactic| simp (disch := decide) only [st1, st2, st3, st4, st5, st6, st7, st8, st9, st10, st11, st12, st13, st14, st15,
      aft_g0b_keep, aft_g1_keep, aft_s1_keep, aft_s2_keep, aft_s3_keep, aft_s4_keep, aft_s5_keep, aft_s6_keep, aft_s7_keep, aft_s8_keep, aft_s9_keep, aft_s10_keep, aft_s11_keep, aft_s12_keep, aft_fin_keep,
      st0_main_c, st0_main_c_1, st0_main_c_4, st0_main_c_0, st0_main_c_2, st0_main_c_3, st0_main_c_5, st0_main_c_6, st0_main_c_7, st0_main_c_8, st0_main_c_9, st0_main_c_10, st0_main_c_11, st0_main_c_12, st0_main_c_13, st0_main_c_14, st0_main_c_15, st0_main_c_16, st0_main_c_17, st0_main_c_18, st0_main_c_19, st0_main_c_20, st0_main_c_21, st0_main_c_22, st0_main_c_23, st0_main_c_24, st0_main_c_25, st0_main_c_26, st0_main_c_27, st0_main_c_28, st0_main_c_29, st0_main_c_30, st0_main_c_31, st0_main_c_32, st0_main_c_33, st0_main_c_34, st0_main_c_35, st0_main_c_36, st0_main_c_37, st0_main_c_38, st0_main_c_39, st0_main_c_40, st0_main_c_41])

/-! ## The row array, piece after piece -/

/-- The split scores of the launch contents. -/
abbrev xa0 (V0 : Valuation τ sig (Elt F)) : FVec F S131072x63 .f32 :=
  xaRef (V0 (Proc.devRef .tc main_arg0)) (V0 (Proc.devRef .tc main_arg1))

theorem st1_xa (V0 : Valuation τ sig (Elt F)) : st1 V0 (Proc.devRef .tc main_v1) = xa0 V0 := by
  unfold st1
  refine (aft_g0b_xa (st0 V0)).trans ?_
  rw [st0_arg0, st0_arg1]

theorem st1_q (V0 : Valuation τ sig (Elt F)) : st1 V0 (Proc.devRef .tc main_v13) = seedL (xa0 V0) := by
  unfold st1
  refine (aft_g0b_q (st0 V0) (st0_main_c V0) (st0_main_c_1 V0) (st0_main_c_0 V0) (st0_main_c_2 V0)).trans ?_
  rw [st0_arg0, st0_arg1]

theorem st2_xa (V0 : Valuation τ sig (Elt F)) : st2 V0 (Proc.devRef .tc main_v1) = xa0 V0 := by
  unfold st2
  exact (aft_g1_keep (st1 V0) main_v1 (by decide)).trans (st1_xa V0)

theorem st2_q (V0 : Valuation τ sig (Elt F)) : st2 V0 (Proc.devRef .tc main_v25) = refAfter (xa0 V0) 0 := by
  unfold st2
  exact (aft_g1_q (st1 V0) _ _ (st1_q V0) (st1_xa V0) (by kept) (by kept) (by kept) (by kept)).trans (seedR_seedL _)

theorem st3_q (V0 : Valuation τ sig (Elt F)) : st3 V0 (Proc.devRef .tc main_v41) = sweepL (refAfter (xa0 V0) 0) := by
  unfold st3
  exact aft_s1_q (st2 V0) _ (st2_q V0) (by kept) (by kept) (by kept) (by kept) (by kept)

theorem st4_q (V0 : Valuation τ sig (Elt F)) : st4 V0 (Proc.devRef .tc main_v57) = refAfter (xa0 V0) 1 := by
  unfold st4
  exact (aft_s2_q (st3 V0) _ (st3_q V0) (by kept) (by kept) (by kept) (by kept) (by kept)).trans
    (sweepR_sweepL _)

theorem st5_q (V0 : Valuation τ sig (Elt F)) : st5 V0 (Proc.devRef .tc main_v73) = sweepL (refAfter (xa0 V0) 1) := by
  unfold st5
  exact aft_s3_q (st4 V0) _ (st4_q V0) (by kept) (by kept) (by kept) (by kept) (by kept)

theorem st6_q (V0 : Valuation τ sig (Elt F)) : st6 V0 (Proc.devRef .tc main_v89) = refAfter (xa0 V0) 2 := by
  unfold st6
  exact (aft_s4_q (st5 V0) _ (st5_q V0) (by kept) (by kept) (by kept) (by kept) (by kept)).trans
    (sweepR_sweepL _)

theorem st7_q (V0 : Valuation τ sig (Elt F)) : st7 V0 (Proc.devRef .tc main_v105) = sweepL (refAfter (xa0 V0) 2) := by
  unfold st7
  exact aft_s5_q (st6 V0) _ (st6_q V0) (by kept) (by kept) (by kept) (by kept) (by kept)

theorem st8_q (V0 : Valuation τ sig (Elt F)) : st8 V0 (Proc.devRef .tc main_v121) = refAfter (xa0 V0) 3 := by
  unfold st8
  exact (aft_s6_q (st7 V0) _ (st7_q V0) (by kept) (by kept) (by kept) (by kept) (by kept)).trans
    (sweepR_sweepL _)

theorem st9_q (V0 : Valuation τ sig (Elt F)) : st9 V0 (Proc.devRef .tc main_v137) = sweepL (refAfter (xa0 V0) 3) := by
  unfold st9
  exact aft_s7_q (st8 V0) _ (st8_q V0) (by kept) (by kept) (by kept) (by kept) (by kept)

theorem st10_q (V0 : Valuation τ sig (Elt F)) : st10 V0 (Proc.devRef .tc main_v153) = refAfter (xa0 V0) 4 := by
  unfold st10
  exact (aft_s8_q (st9 V0) _ (st9_q V0) (by kept) (by kept) (by kept) (by kept) (by kept)).trans
    (sweepR_sweepL _)

theorem st11_q (V0 : Valuation τ sig (Elt F)) : st11 V0 (Proc.devRef .tc main_v169) = sweepL (refAfter (xa0 V0) 4) := by
  unfold st11
  exact aft_s9_q (st10 V0) _ (st10_q V0) (by kept) (by kept) (by kept) (by kept) (by kept)

theorem st12_q (V0 : Valuation τ sig (Elt F)) : st12 V0 (Proc.devRef .tc main_v185) = refAfter (xa0 V0) 5 := by
  unfold st12
  exact (aft_s10_q (st11 V0) _ (st11_q V0) (by kept) (by kept) (by kept) (by kept) (by kept)).trans
    (sweepR_sweepL _)

theorem st13_q (V0 : Valuation τ sig (Elt F)) : st13 V0 (Proc.devRef .tc main_v201) = sweepL (refAfter (xa0 V0) 5) := by
  unfold st13
  exact aft_s11_q (st12 V0) _ (st12_q V0) (by kept) (by kept) (by kept) (by kept) (by kept)

theorem st14_q (V0 : Valuation τ sig (Elt F)) : st14 V0 (Proc.devRef .tc main_v217) = refAfter (xa0 V0) 6 := by
  unfold st14
  exact (aft_s12_q (st13 V0) _ (st13_q V0) (by kept) (by kept) (by kept) (by kept) (by kept)).trans
    (sweepR_sweepL _)

/-- The program's result buffer after the last piece. -/
theorem st15_out (V0 : Valuation τ sig (Elt F)) :
    st15 V0 (Proc.devRef .tc main_v218) = refTerm (V0 (Proc.devRef .tc main_arg0)) (V0 (Proc.devRef .tc main_arg1)) := by
  unfold st15
  exact aft_fin_q (st14 V0) _ (st14_q V0)

/-! ## The run -/

/-- On every device, for any float values, from any memory with zero counters: every weakly fair execution of the
    program terminates with the result buffer at `refTerm` of the two input arrays' launch contents, and the
    input arrays unchanged. -/
theorem run (m : (ℓ : Loc nD τ sig) → Buf (Elt F) ℓ) (ρ : Dev nD → PrngReg) :
    θ_run Cert.ReferenceIdeal.defs (onTc (τ := τ) (Cert.ReferenceIdeal.main (F := F))) ⟨m, fun _ => 0, ρ⟩ fun r => ∀ c : Dev nD,
      r.2.mem ((c.tc : Thread nD τ).loc main_v218)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v218).trans (by rw [after_ops, aftAll_eq]; exact st15_out (launchContents m c)),
       (h c main_arg0).trans (by rw [after_ops]; exact aftAll_arg0 (launchContents m c)),
       (h c main_arg1).trans (by rw [after_ops]; exact aftAll_arg1 (launchContents m c))⟩)
    (run_after m ρ)

end Cert.RVal

end
-- ==== Proof.RefOps.lean ====
/-
  The reference's operations read at one index.

  The reference keeps a whole `[131072, 127]` array; its gathers and scatters act on the node axis only, at
  three constant tables of node numbers (the inner nodes `t`, their left children `2t+1`, their right children
  `2t+2`). This file reads each operation at an index `(r, n)`: a gather reads the row at the table's node, a
  scatter overwrites the row at the table's nodes and keeps the others, the contraction is the row's sum of
  products.
-/
import proofs.«119096_j25271587570082_2_alg».proof.Proof.RefStages
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Idealize.ShloMosaic.Lib.StackMember

noncomputable section

open scoped BigOperators

namespace Cert.RVal

open Cert.ReferenceIdeal Cert.ReferenceIdeal.Gen Idealize.ShloMosaic Idealize.ShloMosaic.ValueIdx

/-! ## A fold of overwrites, read at one place

A scatter that sets is a left fold, over the update positions in order, of "overwrite the landing place with the
update" (a position that lands nowhere changes nothing). Read at one place `i`: if every position landing on `i`
carries the value `v` and the start already holds `v` at `i`, the result holds `v` there; hence, if no position lands
on `i` the start's value survives, and if some position lands on `i` and all that do carry its value, that value
is the result. -/

section Fold
variable {ι α β : Type} [DecidableEq ι]

/-- The invariant: the value at `i` stays `v` along the fold when every position landing on `i` writes `v`. -/
theorem foldl_set_inv (step : (ι → α) → β → (ι → α)) (land : β → Option ι) (val : β → α)
    (hsome : ∀ r n i, land n = some i → step r n = fun i' => if i' = i then val n else r i')
    (hnone : ∀ r n, land n = none → step r n = r)
    (i : ι) (v : α) (l : List β) (x : ι → α) (hx : x i = v) (hl : ∀ n ∈ l, land n = some i → val n = v) :
    l.foldl step x i = v := by
  induction l generalizing x with
  | nil => exact hx
  | cons n l ih =>
    rw [List.foldl_cons]
    refine ih (step x n) ?_ (fun m hm => hl m (List.mem_cons_of_mem _ hm))
    cases hn : land n with
    | none => rw [hnone x n hn]; exact hx
    | some i' =>
      rw [hsome x n i' hn]
      by_cases hii : i = i'
      · subst hii
        simp only [if_true]
        exact hl n List.mem_cons_self hn
      · simp only [if_neg hii]; exact hx

/-- A position `n0` of the list lands on `i`, and every position landing on `i` carries `n0`'s value: the result at
    `i` is that value. -/
theorem foldl_set_hit (step : (ι → α) → β → (ι → α)) (land : β → Option ι) (val : β → α)
    (hsome : ∀ r n i, land n = some i → step r n = fun i' => if i' = i then val n else r i')
    (hnone : ∀ r n, land n = none → step r n = r)
    (i : ι) (n0 : β) (h0 : land n0 = some i) (l : List β) (hmem : n0 ∈ l) (x : ι → α)
    (hl : ∀ n ∈ l, land n = some i → val n = val n0) :
    l.foldl step x i = val n0 := by
  induction l generalizing x with
  | nil => exact absurd hmem List.not_mem_nil
  | cons n l ih =>
    rw [List.foldl_cons]
    by_cases hin : n0 ∈ l
    · exact ih hin (step x n) (fun m hm => hl m (List.mem_cons_of_mem _ hm))
    · have hn : n0 = n := by
        rcases List.mem_cons.mp hmem with h | h
        · exact h
        · exact absurd h hin
      subst hn
      refine foldl_set_inv step land val hsome hnone i (val n0) l (step x n0) ?_
        (fun m hm => hl m (List.mem_cons_of_mem _ hm))
      rw [hsome x n0 i h0]
      simp only [if_true]

end Fold

/-! ## A setting scatter read at one index -/

section ScatterSet
variable {α : Type} {s si u : Shape} {w : Nat}

/-- An update index `j0` lands on `i`, and every update index landing on `i` carries `j0`'s update: the scatter
    holds that update at `i`. -/
theorem scatter_set_apply_hit (d : ScatterDims s si u) (x : s.Idx → α) (idx : IVec si w) (upd : u.Idx → α)
    (i : s.Idx) (j0 : u.Idx) (h0 : d.resultIdx? j0 idx = some i)
    (huniq : ∀ j, d.resultIdx? j idx = some i → upd j = upd j0) :
    Host.scatter d (fun _ b => b) x idx upd i = upd j0 := by
  unfold Host.scatter
  refine (foldl_set_hit _ (fun n => d.resultIdx? (u.rowMajor.symm n) idx) (fun n => upd (u.rowMajor.symm n))
    ?_ ?_ i (u.rowMajor j0) ?_ _ (List.mem_finRange _) x ?_).trans ?_
  · intro r n i' h
    dsimp only
    rw [h]
  · intro r n h
    dsimp only
    rw [h]
  · rw [Equiv.symm_apply_apply]; exact h0
  · intro n _ hn
    rw [Equiv.symm_apply_apply]
    exact huniq _ hn
  · rw [Equiv.symm_apply_apply]

/-- No update index lands on `i`: the scatter keeps the operand's element at `i`. -/
theorem scatter_set_apply_miss (d : ScatterDims s si u) (x : s.Idx → α) (idx : IVec si w) (upd : u.Idx → α)
    (i : s.Idx) (hmiss : ∀ j, d.resultIdx? j idx ≠ some i) :
    Host.scatter d (fun _ b => b) x idx upd i = x i := by
  unfold Host.scatter
  refine foldl_set_inv _ (fun n => d.resultIdx? (u.rowMajor.symm n) idx) (fun n => upd (u.rowMajor.symm n))
    ?_ ?_ i (x i) _ x rfl ?_
  · intro r n i' h
    dsimp only
    rw [h]
  · intro r n h
    dsimp only
    rw [h]
  · intro n _ hn
    exact absurd hn (hmiss _)

end ScatterSet

/-! ## The index column, the gather and the scatter of the reference, read at an index -/

section Ops
variable {F : FTy → Type} [FloatOps F]

local notation "gatherD" => gather_S131072x127_S63x1_S131072x63_0_1_n_n_1_1_1310721
local notation "scatterD" => scatter_S131072x127_S63x1_S131072x63_0_1_1_1

/-- The index column at row `t` holds the table's `t`-th word: the select's condition is the constant false bit,
    so the alternative is taken, the table itself. -/
theorem idxCol_apply (lit : Fin 63 → BitVec 32) (j : S63x1.Idx) : idxCol lit j = lit ⟨(j 0).val, idx2_lt0 j⟩ := by
  unfold idxCol
  refine (broadcastInDim_apply (![0]) bcast_S63_S63x1_0 _ j (ix1 ⟨(j 0).val, idx2_lt0 j⟩) ?_).trans ?_
  · intro a
    obtain rfl : a = 0 := Subsingleton.elim _ _
    rfl
  · rw [select_apply, constantI_apply, select_zero]
    exact congrArg lit (Fin.ext (Shape.rowMajor_val_one _))

/-- A gather at the column of a table reads, at `(r, t)`, the operand's row `r` at the table's `t`-th word, read
    signed and clamped into the node range. -/
theorem gat_apply (lit : Fin 63 → BitVec 32) (q : FVec F S131072x127 .f32) (r : Fin 131072) (t : Fin 63) :
    gat lit q (ix2 r t) = q (ix2 r ⟨min (lit t).toInt.toNat 126, by omega⟩) := by
  unfold gat Host.gather
  refine congrArg q (funext fun a => Fin.ext ?_)
  show GatherDims.start gatherD (ix2 r t) (idxCol lit) a + GatherDims.batchCoord gatherD (ix2 r t) a
    + GatherDims.offCoord gatherD (ix2 r t) a = _
  rw [GatherDims.batchCoord_eq_zero _ _ _ List.not_mem_nil, Nat.add_zero]
  fin_cases a
  · unfold GatherDims.start GatherDims.offCoord
    rw [dif_neg (by decide), dif_pos (by decide), Nat.zero_add]
    rfl
  · unfold GatherDims.start GatherDims.offCoord
    rw [dif_pos (by decide), dif_neg (by decide), Nat.add_zero, idxCol_apply]
    rfl

end Ops

section Ops2
variable {F : FTy → Type} [FloatOps F]

local notation "scatterD" => scatter_S131072x127_S63x1_S131072x63_0_1_1_1

/-- The update at `(r', t)` lands on row `r'` at the node `m` the table's `t`-th word, read signed, names: the row
    axis is the window's, the node axis the scattered one. -/
theorem sca_resultIdx (lit : Fin 63 → BitVec 32) (r' : Fin 131072) (t : Fin 63) (m : Fin 127)
    (hm : (lit t).toInt = (m.val : ℤ)) :
    ScatterDims.resultIdx? scatterD (ix2 r' t) (idxCol lit) = some (ix2 r' m) := by
  have hs0 : ScatterDims.start scatterD (ix2 r' t) (idxCol lit) 0 = 0 := by
    unfold ScatterDims.start; rw [dif_neg (by decide)]
  have hw0 : ScatterDims.window scatterD (ix2 r' t) 0 = r'.val := by
    unfold ScatterDims.window; rw [dif_pos (by decide)]; rfl
  have hs1 : ScatterDims.start scatterD (ix2 r' t) (idxCol lit) 1 = (m.val : ℤ) := by
    unfold ScatterDims.start; rw [dif_pos (by decide), idxCol_apply]; exact hm
  have hw1 : ScatterDims.window scatterD (ix2 r' t) 1 = 0 := by
    unfold ScatterDims.window; rw [dif_neg (by decide)]
  have hall : ∀ a, 0 ≤ ScatterDims.start scatterD (ix2 r' t) (idxCol lit) a + ScatterDims.window scatterD (ix2 r' t) a
      ∧ ScatterDims.start scatterD (ix2 r' t) (idxCol lit) a + ScatterDims.window scatterD (ix2 r' t) a
        < S131072x127.size a := by
    intro a
    fin_cases a
    · show 0 ≤ ScatterDims.start scatterD (ix2 r' t) (idxCol lit) 0 + ScatterDims.window scatterD (ix2 r' t) 0
        ∧ ScatterDims.start scatterD (ix2 r' t) (idxCol lit) 0 + ScatterDims.window scatterD (ix2 r' t) 0 < ((131072 : ℕ) : ℤ)
      rw [hs0, hw0]; have := r'.isLt; omega
    · show 0 ≤ ScatterDims.start scatterD (ix2 r' t) (idxCol lit) 1 + ScatterDims.window scatterD (ix2 r' t) 1
        ∧ ScatterDims.start scatterD (ix2 r' t) (idxCol lit) 1 + ScatterDims.window scatterD (ix2 r' t) 1 < ((127 : ℕ) : ℤ)
      rw [hs1, hw1]; have := m.isLt; omega
  unfold ScatterDims.resultIdx?
  rw [dif_pos hall]
  refine congrArg some (funext fun a => Fin.ext ?_)
  fin_cases a
  · show (ScatterDims.start scatterD (ix2 r' t) (idxCol lit) 0 + ScatterDims.window scatterD (ix2 r' t) 0).toNat = r'.val
    rw [hs0, hw0]; omega
  · show (ScatterDims.start scatterD (ix2 r' t) (idxCol lit) 1 + ScatterDims.window scatterD (ix2 r' t) 1).toNat = m.val
    rw [hs1, hw1]; omega

/-- A scatter at the column of a table whose words name the nodes `node t`, one node per `t`: at a named node the
    update of its `t` … -/
theorem sca_apply_hit (lit : Fin 63 → BitVec 32) (node : Fin 63 → Fin 127)
    (hnode : ∀ t, (lit t).toInt = ((node t).val : ℤ)) (hinj : Function.Injective node)
    (q : FVec F S131072x127 .f32) (u : FVec F S131072x63 .f32) (r : Fin 131072) (t : Fin 63) :
    sca lit q u (ix2 r (node t)) = u (ix2 r t) := by
  unfold sca
  refine scatter_set_apply_hit _ q _ u _ (ix2 r t) (sca_resultIdx lit r t (node t) (hnode t)) ?_
  intro j hj
  obtain ⟨r', t', rfl⟩ : ∃ (r' : Fin 131072) (t' : Fin 63), j = ix2 r' t' := ⟨j 0, j 1, eq_ix2 j⟩
  rw [sca_resultIdx lit r' t' (node t') (hnode t')] at hj
  have h := Option.some.inj hj
  have h0 : r' = r := congrFun h 0
  have h1 : node t' = node t := congrFun h 1
  rw [h0, hinj h1]

/-- … and at a node no word names the operand's element. -/
theorem sca_apply_miss (lit : Fin 63 → BitVec 32) (node : Fin 63 → Fin 127)
    (hnode : ∀ t, (lit t).toInt = ((node t).val : ℤ))
    (q : FVec F S131072x127 .f32) (u : FVec F S131072x63 .f32) (r : Fin 131072) (n : Fin 127)
    (hn : ∀ t, node t ≠ n) :
    sca lit q u (ix2 r n) = q (ix2 r n) := by
  unfold sca
  refine scatter_set_apply_miss _ q _ u _ ?_
  intro j hj
  obtain ⟨r', t', rfl⟩ : ∃ (r' : Fin 131072) (t' : Fin 63), j = ix2 r' t' := ⟨j 0, j 1, eq_ix2 j⟩
  rw [sca_resultIdx lit r' t' (node t') (hnode t')] at hj
  exact hn t' (congrFun (Option.some.inj hj) 1)

/-- A gather at such a table reads the row at the named node. -/
theorem gat_node (lit : Fin 63 → BitVec 32) (node : Fin 63 → Fin 127)
    (hnode : ∀ t, (lit t).toInt = ((node t).val : ℤ))
    (q : FVec F S131072x127 .f32) (r : Fin 131072) (t : Fin 63) :
    gat lit q (ix2 r t) = q (ix2 r (node t)) := by
  rw [gat_apply]
  refine congrArg (fun m => q (ix2 r m)) (Fin.ext ?_)
  show min (lit t).toInt.toNat 126 = (node t).val
  rw [hnode t, Int.toNat_natCast]
  have := (node t).isLt
  omega

end Ops2

/-! ## The three tables name the inner nodes, their left children and their right children -/

/-- Inner node `t` as a node. -/
def node0 (t : Fin 63) : Fin 127 := ⟨t.val, by have := t.isLt; omega⟩
/-- The left child of inner node `t`. -/
def node1 (t : Fin 63) : Fin 127 := ⟨2 * t.val + 1, by have := t.isLt; omega⟩
/-- The right child of inner node `t`. -/
def node2 (t : Fin 63) : Fin 127 := ⟨2 * t.val + 2, by have := t.isLt; omega⟩

theorem lit0_node : ∀ t : Fin 63, (lit0 t).toInt = ((node0 t).val : ℤ) := by decide
theorem lit1_node : ∀ t : Fin 63, (lit1 t).toInt = ((node1 t).val : ℤ) := by decide
theorem lit2_node : ∀ t : Fin 63, (lit2 t).toInt = ((node2 t).val : ℤ) := by decide

theorem node1_injective : Function.Injective node1 := by
  intro a b h
  have := congrArg Fin.val h
  simp only [node1] at this
  exact Fin.ext (by omega)

theorem node2_injective : Function.Injective node2 := by
  intro a b h
  have := congrArg Fin.val h
  simp only [node2] at this
  exact Fin.ext (by omega)

/-! ## The contraction read at an index -/

/-- The split scores at `(r, t)`: the sum over the 512 features of row `r` of `x` times row `t` of `A`. -/
theorem xaRef_apply (x : FVec Ideal S131072x512 .f32) (A : FVec Ideal S63x512 .f32) (r : Fin 131072) (t : Fin 63) :
    xaRef (F := Ideal) x A (ix2 r t) = ∑ k : Fin 512, x (ix2 r k) * A (ix2 t k) := by
  unfold xaRef
  refine (StackMember.dotGeneral_plain_apply (m := 131072) (n := 63) (k := 512) none x _ r t).trans ?_
  refine Finset.sum_congr rfl fun k _ => ?_
  rw [transpose_ix2_apply]

end Cert.RVal

end
-- ==== Proof.RefValue.lean ====
/-
  The reference's value read at one index.

  The reference's gathers and scatters act on the node axis only, at the tables of the inner nodes, their left
  children and their right children, so every row of its `[131072, 127]` array evolves on its own. Row by row the
  seed, a sweep and the clip are the tree operations of `Cert.Tree`; six sweeps are an induction; the split scores
  are the row's sums of products.
-/
import proofs.«119096_j25271587570082_2_alg».proof.Proof.RefOps
import proofs.«119096_j25271587570082_2_alg».proof.Proof.Spec

noncomputable section

open scoped BigOperators

namespace Cert.RVal

open Cert.ReferenceIdeal Cert.ReferenceIdeal.Gen Idealize.ShloMosaic Idealize.ShloMosaic.ValueIdx

/-! ## Row by row: the arrays' operations are the tree's -/

-- from here on the gather and the scatter are used through their lemmas at an index only
attribute [local irreducible] sca gat

/-- Row `r` of a node array. -/
def rowOf (q : FVec Ideal S131072x127 .f32) (r : Fin 131072) : Cert.Tree.Row := fun n => q (ix2 r n)
/-- Row `r` of an inner-node array. -/
def colOf (u : FVec Ideal S131072x63 .f32) (r : Fin 131072) : Fin 63 → EReal := fun t => u (ix2 r t)

/-- A row's element. -/
theorem rowOf_apply (q : FVec Ideal S131072x127 .f32) (r : Fin 131072) (n : Fin 127) : rowOf q r n = q (ix2 r n) := rfl

/-- Scattering at the left-child table writes the odd nodes of every row. -/
theorem rowOf_sca1 (q : FVec Ideal S131072x127 .f32) (u : FVec Ideal S131072x63 .f32) (r : Fin 131072) :
    rowOf (sca lit1 q u) r = Cert.Tree.putOdd (rowOf q r) (colOf u r) := by
  funext n
  unfold Cert.Tree.putOdd rowOf
  by_cases h : n.val % 2 = 1
  · rw [dif_pos h]
    have hn : n = node1 ⟨n.val / 2, by have := n.isLt; omega⟩ := Fin.ext (by simp only [node1]; omega)
    refine (congrArg (fun m => sca lit1 q u (ix2 r m)) hn).trans ?_
    exact sca_apply_hit lit1 node1 lit1_node node1_injective q u r _
  · rw [dif_neg h]
    exact sca_apply_miss lit1 node1 lit1_node q u r n
      (fun t ht => h (by have := congrArg Fin.val ht; simp only [node1] at this; omega))

/-- Scattering at the right-child table writes the even nodes but the root of every row. -/
theorem rowOf_sca2 (q : FVec Ideal S131072x127 .f32) (u : FVec Ideal S131072x63 .f32) (r : Fin 131072) :
    rowOf (sca lit2 q u) r = Cert.Tree.putEven (rowOf q r) (colOf u r) := by
  funext n
  unfold Cert.Tree.putEven rowOf
  by_cases h : n.val % 2 = 0 ∧ 0 < n.val
  · rw [dif_pos h]
    have hn : n = node2 ⟨n.val / 2 - 1, by have := n.isLt; omega⟩ := Fin.ext (by simp only [node2]; omega)
    refine (congrArg (fun m => sca lit2 q u (ix2 r m)) hn).trans ?_
    exact sca_apply_hit lit2 node2 lit2_node node2_injective q u r _
  · rw [dif_neg h]
    exact sca_apply_miss lit2 node2 lit2_node q u r n
      (fun t ht => h (by have := congrArg Fin.val ht; simp only [node2] at this; omega))

/-- Gathering at the inner-node table reads every row at the inner nodes … -/
theorem colOf_gat0 (q : FVec Ideal S131072x127 .f32) (r : Fin 131072) :
    colOf (gat lit0 q) r = Cert.Tree.par (rowOf q r) :=
  funext fun t => gat_node lit0 node0 lit0_node q r t
/-- … at the left-child table at their left children … -/
theorem colOf_gat1 (q : FVec Ideal S131072x127 .f32) (r : Fin 131072) :
    colOf (gat lit1 q) r = Cert.Tree.lft (rowOf q r) :=
  funext fun t => gat_node lit1 node1 lit1_node q r t
/-- … and at the right-child table at their right children. -/
theorem colOf_gat2 (q : FVec Ideal S131072x127 .f32) (r : Fin 131072) :
    colOf (gat lit2 q) r = Cert.Tree.rgt (rowOf q r) :=
  funext fun t => gat_node lit2 node2 lit2_node q r t

/-- Every row of the array of ones is the constant row. -/
theorem rowOf_ones (r : Fin 131072) :
    rowOf (ones (F := Ideal)) r = fun _ => Ideal.ofBits .f32 0x3F800000#32 := by
  funext n
  unfold rowOf ones
  rw [broadcastInDim_scalar_apply]
  exact constant_apply _ _

/-- A minimum of arrays at an element of a row. -/
theorem colOf_min_apply (a b : FVec Ideal S131072x63 .f32) (r : Fin 131072) (t : Fin 63) :
    colOf (minimumf a b) r t = min (colOf a r t) (colOf b r t) := rfl
/-- A negated array at an element of a row. -/
theorem colOf_neg_apply (a : FVec Ideal S131072x63 .f32) (r : Fin 131072) (t : Fin 63) :
    colOf (Host.negf a) r t = -(colOf a r t) := rfl

/-- The seed's two scatters, from any start array `q0`, row by row: the left children from the start row, then the
    right children from the row so far. -/
theorem rowOf_seedStep (q0 : FVec Ideal S131072x127 .f32) (xa : FVec Ideal S131072x63 .f32) (r : Fin 131072) :
    rowOf (sca lit2 (sca lit1 q0 (minimumf (gat lit0 q0) xa))
        (minimumf (gat lit0 (sca lit1 q0 (minimumf (gat lit0 q0) xa))) (Host.negf xa))) r
      = Cert.Tree.putEven
          (Cert.Tree.putOdd (rowOf q0 r) (fun t => min (Cert.Tree.par (rowOf q0 r) t) (colOf xa r t)))
          (fun t => min (Cert.Tree.par
              (Cert.Tree.putOdd (rowOf q0 r) (fun t => min (Cert.Tree.par (rowOf q0 r) t) (colOf xa r t))) t)
            (-(colOf xa r t))) := by
  have h1 : colOf (minimumf (gat lit0 q0) xa) r
      = fun t => min (Cert.Tree.par (rowOf q0 r) t) (colOf xa r t) := by
    funext t
    rw [colOf_min_apply, colOf_gat0]
  have h2 : rowOf (sca lit1 q0 (minimumf (gat lit0 q0) xa)) r
      = Cert.Tree.putOdd (rowOf q0 r) (fun t => min (Cert.Tree.par (rowOf q0 r) t) (colOf xa r t)) := by
    rw [rowOf_sca1, h1]
  have h3 : colOf (minimumf (gat lit0 (sca lit1 q0 (minimumf (gat lit0 q0) xa))) (Host.negf xa)) r
      = fun t => min (Cert.Tree.par
              (Cert.Tree.putOdd (rowOf q0 r) (fun t => min (Cert.Tree.par (rowOf q0 r) t) (colOf xa r t))) t)
            (-(colOf xa r t)) := by
    funext t
    rw [colOf_min_apply, colOf_gat0, h2, colOf_neg_apply]
  rw [rowOf_sca2, h2, h3]

/-- The seed, row by row. -/
theorem rowOf_refSeed (xa : FVec Ideal S131072x63 .f32) (r : Fin 131072) :
    rowOf (refSeed xa) r = Cert.Tree.seed (Ideal.ofBits .f32 0x3F800000#32) (colOf xa r) := by
  unfold refSeed Cert.Tree.seed
  rw [rowOf_seedStep, rowOf_ones]

/-- A sweep, row by row. -/
theorem rowOf_refSweep (q : FVec Ideal S131072x127 .f32) (r : Fin 131072) :
    rowOf (refSweep q) r = Cert.Tree.sweep (rowOf q r) := by
  unfold refSweep Cert.Tree.sweep
  have h1 : colOf (minimumf (gat lit1 q) (gat lit0 q)) r
      = fun t => min (Cert.Tree.lft (rowOf q r) t) (Cert.Tree.par (rowOf q r) t) := by
    funext t
    rw [colOf_min_apply, colOf_gat1, colOf_gat0]
  have h2 : rowOf (sca lit1 q (minimumf (gat lit1 q) (gat lit0 q))) r
      = Cert.Tree.putOdd (rowOf q r) (fun t => min (Cert.Tree.lft (rowOf q r) t) (Cert.Tree.par (rowOf q r) t)) := by
    rw [rowOf_sca1, h1]
  have h3 : colOf (minimumf (gat lit2 (sca lit1 q (minimumf (gat lit1 q) (gat lit0 q))))
        (gat lit0 (sca lit1 q (minimumf (gat lit1 q) (gat lit0 q))))) r
      = fun t => min
          (Cert.Tree.rgt (Cert.Tree.putOdd (rowOf q r)
            (fun t => min (Cert.Tree.lft (rowOf q r) t) (Cert.Tree.par (rowOf q r) t))) t)
          (Cert.Tree.par (Cert.Tree.putOdd (rowOf q r)
            (fun t => min (Cert.Tree.lft (rowOf q r) t) (Cert.Tree.par (rowOf q r) t))) t) := by
    funext t
    rw [colOf_min_apply, colOf_gat2, colOf_gat0, h2]
  rw [rowOf_sca2, h2, h3]

/-- The seed and `s` sweeps, row by row. -/
theorem rowOf_refAfter (xa : FVec Ideal S131072x63 .f32) (r : Fin 131072) (s : Nat) :
    rowOf (refAfter xa s) r = Cert.Tree.rowAfter (Ideal.ofBits .f32 0x3F800000#32) (colOf xa r) s := by
  induction s with
  | zero => exact rowOf_refSeed xa r
  | succ s ih =>
    show rowOf (refSweep (refAfter xa s)) r = Cert.Tree.sweep (Cert.Tree.rowAfter _ _ s)
    rw [rowOf_refSweep, ih]

/-- The clip at an index. -/
theorem refClip_apply (q : FVec Ideal S131072x127 .f32) (r : Fin 131072) (n : Fin 127) :
    refClip q (ix2 r n)
      = Cert.Tree.clip (Ideal.ofBits .f32 0x00000000#32) (Ideal.ofBits .f32 0x3F800000#32) (q (ix2 r n)) := by
  unfold refClip Cert.Tree.clip
  rw [minimumf_apply, maximumf_apply, broadcastInDim_scalar_apply, broadcastInDim_scalar_apply]
  show min (constant (F := Ideal) S_ .f32 0x3F800000#32 ix0)
      (max (constant (F := Ideal) S_ .f32 0x00000000#32 ix0) (q (ix2 r n))) = _
  rw [constant_apply, constant_apply]

/-- THE REFERENCE'S VALUE at `(r, n)`: the tree result of row `r`'s split scores at node `n`. -/
theorem refTerm_apply (x : FVec Ideal S131072x512 .f32) (A : FVec Ideal S63x512 .f32) (r : Fin 131072) (n : Fin 127) :
    refTerm (F := Ideal) x A (ix2 r n)
      = Cert.Tree.result (Ideal.ofBits .f32 0x00000000#32) (Ideal.ofBits .f32 0x3F800000#32)
          (fun t : Fin 63 => ∑ k : Fin 512, x (ix2 r k) * A (ix2 t k)) n := by
  unfold refTerm Cert.Tree.result
  rw [refClip_apply, ← rowOf_apply (refAfter (xaRef x A) 6) r n, rowOf_refAfter]
  have hx : colOf (xaRef x A) r = fun t : Fin 63 => ∑ k : Fin 512, x (ix2 r k) * A (ix2 t k) :=
    funext fun t => xaRef_apply x A r t
  rw [hx]

end Cert.RVal

end
-- ==== Proof.lean ====
/-
  The certificate: a Pallas kernel that builds, per row, a depth-6 binary tree of running minima of the split scores
  `x · Aᵀ` level by level (reshapes, slices and concatenations, no gather or scatter), against a reference that builds the
  same tree on whole arrays with gathers and scatters at the constant index arrays `t`, `2t+1`, `2t+2`.

  Both programs compute ONE function of the two argument arrays (Proof/Spec.lean): entry `(R, n)` of the result is
  `Cert.Tree.result c0 c1 (fun t => ∑ₖ x[R,k]·A[t,k]) n` — the seed, six sweeps, the clip — as extended reals. No law of the
  extended reals beyond the lattice's (`min`, `max`) and `0 - x = -x` is used, so the precondition is never opened.

  * the kernel's side: what one grid point stores, entry by entry (Proof/KConn.lean: the stored value is the structured
    level-by-level computation; Proof/KValue.lean: that computation read at an entry), the blocks tiling the array
    (Proof/KBlocks.lean), over the frame run;
  * the reference's side: its run ends at the composition of its operations (Proof/RefRun.lean over Proof/RefStages.lean),
    read at an entry (Proof/RefValue.lean);
  * the three frames: the two kernels' from the frame run, the reference's from its run with the result dropped;
    `preserves` is `True` (the idealization rewrote nothing).
-/
import proofs.«119096_j25271587570082_2_alg».proof.Defs
import proofs.«119096_j25271587570082_2_alg».proof.Proof.Gen.Kernel
import proofs.«119096_j25271587570082_2_alg».proof.Proof.Gen.KernelIdeal
import proofs.«119096_j25271587570082_2_alg».proof.Proof.Gen.ReferenceIdeal
import proofs.«119096_j25271587570082_2_alg».proof.Proof.Gen.Pre_finite_inputs
import proofs.«119096_j25271587570082_2_alg».proof.Proof.KernelFrame
import proofs.«119096_j25271587570082_2_alg».proof.Proof.KernelIdealFrame
import proofs.«119096_j25271587570082_2_alg».proof.Proof.KBlocks
import proofs.«119096_j25271587570082_2_alg».proof.Proof.KConn
import proofs.«119096_j25271587570082_2_alg».proof.Proof.KValue
import proofs.«119096_j25271587570082_2_alg».proof.Proof.RefRun
import proofs.«119096_j25271587570082_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- What one grid point of the idealized kernel stores, entry by entry: the stored value is the level-by-level computation,
    and that computation at entry `(r, n)` is the tree row of the block's split scores at node `n`. -/
theorem point_spec : Cert.KBlocks.PointSpec := fun x0 x1 r n =>
  (congrFun (Cert.KVal.pv1_eq (F := Ideal) x0 x1) (ix2 r n)).trans (Cert.KVal.kOut_apply x0 x1 r n)

/-- The reference's result, as a whole array, is the kernel's function of the same two arrays: entry by entry both are the tree
    row of the row's split scores. -/
theorem ref_eq_G (x : FVec Ideal Cert.ReferenceIdeal.S131072x512 .f32) (A : FVec Ideal Cert.ReferenceIdeal.S63x512 .f32) :
    Cert.RVal.refTerm (F := Ideal) x A = Cert.KBlocks.G x A := by
  funext i
  obtain ⟨R, n, rfl⟩ : ∃ (R : Fin 131072) (n : Fin 127), i = ix2 R n := ⟨i 0, i 1, eq_ix2 i⟩
  rw [Cert.RVal.refTerm_apply]
  rfl

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RVal.run (F := Ideal) m ρ)

/-- At `Ideal` the kernel's result array ends at `G` of its arguments (the blocks tile the array) and the reference's at the
    composition of its operations of arguments that agree: one function (`ref_eq_G`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KBlocks.run m ρ point_spec, ?_⟩
  refine (θ_run Cert.ReferenceIdeal.defs _ _).mono (fun _ h c => ⟨(h c).1.trans ?_, (h c).2⟩)
    (Cert.RVal.run (F := Ideal) m' ρ')
  rw [(hagree c).1, (hagree c).2]
  exact ref_eq_G _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
